-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x16x4096x128 : Shape := ⟨4, ![4, 16, 4096, 128]⟩
abbrev S4x4096 : Shape := ⟨2, ![4, 4096]⟩
abbrev S8192x128 : Shape := ⟨2, ![8192, 128]⟩
abbrev S_ : Shape := ⟨0, ![]⟩

class Facts : Prop where
  bcast_S_S4x16x4096x128 : S_.BroadcastsInDim S4x16x4096x128 (![] : Fin 0 → Fin S4x16x4096x128.rank)
  reducesTo_S4x16x4096x128_S_d0_1_2_3 : S4x16x4096x128.ReducesTo [0, 1, 2, 3] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg1 : IVec S4x4096 32) (main_v13 : IVec S_ 1) (main_v15 : IVec S4x4096 1) (main_c_5 : IVec S_ 32) : IVec S_ 1 :=
  let main_v16 : IVec S4x4096 32 := broadcastInDim S4x4096 ![] bcast_S_S4x4096 main_c_5
  let main_v17 : IVec S4x4096 1 := cmpi .sle main_arg1 main_v16
  let main_v18 : IVec S4x4096 1 := andi main_v15 main_v17
  let main_c_6 : IVec S_ 1 := constantI S_ 1 1#1
  let main_v19 : IVec S_ 1 := (fun x v => Host.reduce IntOp.andi x v reducesTo_S4x4096_S_d0_1 h_S_) main_v18 main_c_6
  let main_v20 : IVec S_ 1 := andi main_v13 main_v19
  main_v20

def fn {F : FTy → Type} [FloatOps F] (main_arg0 : FVec F S4x16x4096x128 .f32) (main_arg1 : IVec S4x4096 32) (main_arg2 : FVec F S8192x128 .f32) (main_arg3 : FVec F S8192x128 .f32) : IVec S_ 1 :=
  let main_v0 : FVec F S4x16x4096x128 .f32 := Host.absf main_arg0
  let main_cst : FVec F S_ .f32 := constant S_ .f32 0x7F800000#32
  let main_v1 : FVec F S4x16x4096x128 .f32 := broadcastInDim S4x16x4096x128 ![] bcast_S_S4x16x4096x128 main_cst
  let main_v2 : IVec S4x16x4096x128 1 := cmpf .olt main_v0 main_v1
  let main_c : IVec S_ 1 := constantI S_ 1 1#1
  let main_v3 : IVec S_ 1 := (fun x v => Host.reduce IntOp.andi x v reducesTo_S4x16x4096x128_S_d0_1_2_3 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_c_4 : IVec S_ 32 := constantI S_ 32 0#32
  let main_v14 : IVec S4x4096 32 := broadcastInDim S4x4096 ![] bcast_S_S4x4096 main_c_4
  let main_v15 : IVec S4x4096 1 := cmpi .sge main_arg1 main_v14
  let main_c_5 : IVec S_ 32 := constantI S_ 32 4095#32
  fn_part1 (F := F) main_arg1 main_v13 main_v15 main_c_5
-- ==== Kernel.lean ====
abbrev S4x16x4096x128 : Shape := ⟨4, ![4, 16, 4096, 128]⟩
abbrev S4x4096 : Shape := ⟨2, ![4, 4096]⟩
abbrev S8192x128 : Shape := ⟨2, ![8192, 128]⟩
abbrev S4x1x4096x128 : Shape := ⟨4, ![4, 1, 4096, 128]⟩
abbrev S512 : Shape := ⟨1, ![512]⟩
abbrev S128x128 : Shape := ⟨2, ![128, 128]⟩
abbrev S_ : Shape := ⟨0, ![]⟩
abbrev S1x512 : Shape := ⟨2, ![1, 512]⟩
abbrev S128 : Shape := ⟨1, ![128]⟩
abbrev S1x1x128x128 : Shape := ⟨4, ![1, 1, 128, 128]⟩

abbrev nBuf : Table → Nat
  | .hbm => 6
  | .local .scVector .vmem => 7
  | _ => 0

abbrev bufTy : (tb : Table) → Fin (nBuf tb) → BufTy
  | .hbm, ⟨0, _⟩ => ⟨S4x16x4096x128, .f32⟩
  | .hbm, ⟨1, _⟩ => ⟨S4x4096, .i32⟩
  | .hbm, ⟨2, _⟩ => ⟨S8192x128, .f32⟩
  | .hbm, ⟨3, _⟩ => ⟨S8192x128, .f32⟩
  | .hbm, ⟨4, _⟩ => ⟨S4x1x4096x128, .f32⟩
  | .hbm, ⟨5, _⟩ => ⟨S4x1x4096x128, .f32⟩
  | .local .scVector .vmem, ⟨0, _⟩ => ⟨S512, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | _, _ => ⟨S4x16x4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg2_scv : Ref sig .scVector := ⟨.hbm, 2, rfl⟩
abbrev main_arg3_scv : Ref sig .scVector := ⟨.hbm, 3, rfl⟩
abbrev main_arg1_scv : Ref sig .scVector := ⟨.hbm, 1, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
def k0_off2 (i : grid0.Coords) (c0_i32_25 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_26 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v42 : BitVec 32 := Scalar.addi v29 c0_i32_25
  let c0_i32_27 : BitVec 32 := 0#32
  ![v18.toNat, 0, v42.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x512_S512 : S1x512.Squeezes S512
  inb_S512_S128_0 : ∀ a, (![0] : Fin 1 → Nat) a + S128.size a ≤ S512.size a
  inb_S8192x128_S8192x128_0_0 : ∀ a, (![0, 0] : Fin 2 → Nat) a + S8192x128.size a ≤ S8192x128.size a
  gathers_S8192x128_S128x128 : S8192x128.Gathers 0 S128x128
  inb_S512_S128_128 : ∀ a, (![128] : Fin 1 → Nat) a + S128.size a ≤ S512.size a
  squeezes_S1x1x128x128_S128x128 : S1x1x128x128.Squeezes S128x128
  inb_S512_S128_256 : ∀ a, (![256] : Fin 1 → Nat) a + S128.size a ≤ S512.size a
  inb_S512_S128_384 : ∀ a, (![384] : Fin 1 → Nat) a + S128.size a ≤ S512.size a
  hcc0_scratch7 : 0 + S_.numel ≤ 13
  hcc0_scratch8 : 1 + S_.numel ≤ 13
  hcc0_scratch9 : 2 + S_.numel ≤ 13
  hcc0_scratch10 : 3 + S_.numel ≤ 13
  hcc0_scratch11 : 4 + S_.numel ≤ 13
  hcc0_scratch12 : 5 + S_.numel ≤ 13
  hcc0_scratch13 : 6 + S_.numel ≤ 13
  hcc0_scratch14 : 7 + S_.numel ≤ 13
  hcc0_scratch15 : 8 + S_.numel ≤ 13
  hcc0_scratch16 : 9 + S_.numel ≤ 13
  hcc0_scratch17 : 10 + S_.numel ≤ 13
  hcc0_scratch18 : 11 + S_.numel ≤ 13
  hcc0_scoped0 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x512.size a ≤ S4x4096.size a
  k0_off2_inb : ∀ i : grid0.Coords, ∀ (r : Fin 4), ∀ a, (k0_off2 i (BitVec.ofNat 32 (128 * r.val))) a + S1x1x128x128.size a ≤ S4x1x4096x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
abbrev cc0_scratch17 : DmaSems sig S_ := SemArray.consecutive 10 S_ hcc0_scratch17
abbrev cc0_scratch18 : DmaSems sig S_ := SemArray.consecutive 11 S_ hcc0_scratch18
abbrev cc0_scoped0 : DmaSems sig S_ := SemArray.consecutive 12 S_ hcc0_scoped0

class Facts : Prop extends Facts₀ where

variable [Facts]
-- ==== ReferenceIdeal.lean ====
abbrev S4x16x4096x128 : Shape := ⟨4, ![4, 16, 4096, 128]⟩
abbrev S4x4096 : Shape := ⟨2, ![4, 4096]⟩
abbrev S8192x128 : Shape := ⟨2, ![8192, 128]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x128 : Shape := ⟨3, ![4, 4096, 128]⟩
abbrev S4x1x4096x128 : Shape := ⟨4, ![4, 1, 4096, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x16x4096x128, .f32⟩
  | .hbm, ⟨1, _⟩ => ⟨S4x4096, .i32⟩
  | .hbm, ⟨2, _⟩ => ⟨S8192x128, .f32⟩
  | .hbm, ⟨3, _⟩ => ⟨S8192x128, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S1, .i32⟩
  | .hbm, ⟨13, _⟩ => ⟨S_, .i32⟩
  | .hbm, ⟨14, _⟩ => ⟨S4x4096x1, .i32⟩
  | .hbm, ⟨15, _⟩ => ⟨S4x4096x1, .i1⟩
  | .hbm, ⟨16, _⟩ => ⟨S1x1x1, .i32⟩
  | .hbm, ⟨17, _⟩ => ⟨S4x4096x1, .i32⟩
  | .hbm, ⟨18, _⟩ => ⟨S4x4096x1, .i1⟩
  | .hbm, ⟨19, _⟩ => ⟨S4x4096x1, .i1⟩
  | .hbm, ⟨20, _⟩ => ⟨S_, .i1⟩
  | .hbm, ⟨21, _⟩ => ⟨S4x4096, .i1⟩
  | .hbm, ⟨22, _⟩ => ⟨S4x4096x128, .f32⟩
  | .hbm, ⟨23, _⟩ => ⟨S4x4096x128, .i1⟩
  | .hbm, ⟨24, _⟩ => ⟨S_, .f32⟩
  | .hbm, ⟨25, _⟩ => ⟨S4x4096x128, .f32⟩
  | .hbm, ⟨26, _⟩ => ⟨S4x4096x128, .f32⟩
  | .hbm, ⟨27, _⟩ => ⟨S_, .i32⟩
  | .hbm, ⟨28, _⟩ => ⟨S4x4096, .i32⟩
  | .hbm, ⟨29, _⟩ => ⟨S4x4096, .i1⟩
  | .hbm, ⟨30, _⟩ => ⟨S_, .i32⟩
  | .hbm, ⟨31, _⟩ => ⟨S4x4096, .i32⟩
  | .hbm, ⟨32, _⟩ => ⟨S4x4096, .i32⟩
  | .hbm, ⟨33, _⟩ => ⟨S4x4096, .i32⟩
  | .hbm, ⟨34, _⟩ => ⟨S4x4096x1, .i32⟩
  | .hbm, ⟨35, _⟩ => ⟨S1, .i32⟩
  | .hbm, ⟨36, _⟩ => ⟨S_, .i32⟩
  | .hbm, ⟨37, _⟩ => ⟨S4x4096x1, .i32⟩
  | .hbm, ⟨38, _⟩ => ⟨S4x4096x1, .i1⟩
  | .hbm, ⟨39, _⟩ => ⟨S1x1x1, .i32⟩
  | .hbm, ⟨40, _⟩ => ⟨S4x4096x1, .i32⟩
  | .hbm, ⟨41, _⟩ => ⟨S4x4096x1, .i1⟩
  | .hbm, ⟨42, _⟩ => ⟨S4x4096x1, .i1⟩
  | .hbm, ⟨43, _⟩ => ⟨S_, .i1⟩
  | .hbm, ⟨44, _⟩ => ⟨S4x4096, .i1⟩
  | .hbm, ⟨45, _⟩ => ⟨S4x4096x128, .f32⟩
  | .hbm, ⟨46, _⟩ => ⟨S4x4096x128, .i1⟩
  | .hbm, ⟨47, _⟩ => ⟨S_, .f32⟩
  | .hbm, ⟨48, _⟩ => ⟨S4x4096x128, .f32⟩
  | .hbm, ⟨49, _⟩ => ⟨S4x4096x128, .f32⟩
  | .hbm, ⟨50, _⟩ => ⟨S4x1x4096x128, .f32⟩
  | .hbm, ⟨51, _⟩ => ⟨S4x1x4096x128, .f32⟩
  | _, _ => ⟨S4x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x128_0_1 : S4x4096.BroadcastsInDim S4x4096x128 (![0, 1] : Fin 2 → Fin S4x4096x128.rank)
  bcast_S_S4x4096x128 : S_.BroadcastsInDim S4x4096x128 (![] : Fin 0 → Fin S4x4096x128.rank)
  bcast_S4x4096x128_S4x1x4096x128_0_2_3 : S4x4096x128.BroadcastsInDim S4x1x4096x128 (![0, 2, 3] : Fin 3 → Fin S4x1x4096x128.rank)
  gather_S8192x128_S4x4096x1_S4x4096x128_2_0_n_n_0_2_1128_wf : GatherDims.WF S8192x128 S4x4096x1 S4x4096x128 [2] [0] [] [0] [] 2 ![1, 128]

variable [Facts₀]

def gather_S8192x128_S4x4096x1_S4x4096x128_2_0_n_n_0_2_1128 : GatherDims S8192x128 S4x4096x1 S4x4096x128 where
  offsetDims := [2]
  collapsedSliceDims := [0]
  operandBatchingDims := []
  startIndicesBatchingDims := []
  startIndexMap := [0]
  indexVectorDim := 2
  sliceSizes := ![1, 128]
  wf := gather_S8192x128_S4x4096x1_S4x4096x128_2_0_n_n_0_2_1128_wf

class Facts : Prop extends Facts₀ where

variable [Facts]
-- ==== Proof.PreRange.lean ====
/-
  The precondition read back at the row numbers. The precondition is the conjunction of four "all" reductions; the last
  says that every row number, read signed, is at least 0 and at most 4095. A 32-bit word that reads signed in [0, 4095]
  reads unsigned below 4096.
-/
import proofs.«214962_g25580825215366_cont_9to1_529_15_alg».proof.Proof.Gen.Pre_input_domain
import Idealize.ShloMosaic.Lib.ReduceAll
import Idealize.ShloMosaic.Lib.ValueIdx

noncomputable section

namespace Cert.PreRange

open Idealize.ShloMosaic Cert.Pre_input_domain

/-- A rank-0 array has one index. -/
instance : Subsingleton S_.Idx := ⟨fun _ _ => funext fun d => d.elim0⟩

/-- A word between 0 and 4095 signed is below 4096 unsigned. -/
theorem toNat_lt_of_signed (w : BitVec 32) (h0 : (0#32 : BitVec 32).toInt ≤ w.toInt) (h1 : w.toInt ≤ (4095#32 : BitVec 32).toInt) :
    w.toNat < 4096 := by
  have e0 : (0#32 : BitVec 32).toInt = 0 := by decide
  have e1 : (4095#32 : BitVec 32).toInt = 4095 := by decide
  rw [e0] at h0; rw [e1] at h1
  have hw := w.isLt
  rw [BitVec.toInt_eq_toNat_cond] at h0 h1
  split at h0 <;> omega

/-- Under the precondition every row number is below 4096. -/
theorem idx_lt {F : FTy → Type} [FloatOps F] [hP : Cert.Pre_input_domain.Facts]
    (a0 : FVec F Cert.Pre_input_domain.S4x16x4096x128 .f32) (a1 : IVec Cert.Pre_input_domain.S4x4096 32)
    (a2 a3 : FVec F Cert.Pre_input_domain.S8192x128 .f32)
    (h : Cert.Pre_input_domain.fn (F := F) a0 a1 a2 a3 = fun _ => 1#1) : ∀ j, (a1 j).toNat < 4096 := by
  intro j
  have e := congrFun h ValueIdx.ix0
  dsimp only [Cert.Pre_input_domain.fn, Cert.Pre_input_domain.fn_part1] at e
  -- the outer conjunction: the last conjunct is the reduction over the row numbers
  have e2 := (IntOp.andi_eq_one.1 e).2
  have e3 := Host.reduce_andi_all _ _ _ _ _ e2 j
  -- the element: (idx ≥ 0) and (idx ≤ 4095), signed
  have e4 := IntOp.andi_eq_one.1 e3
  exact toNat_lt_of_signed _ (IntOp.cmpi_sge.1 e4.1) (IntOp.cmpi_sle.1 e4.2)

end Cert.PreRange

end
-- ==== Proof.Spec.lean ====
/-
  The function both programs compute: for a table of 8192 rows of 128 lanes and a 4 × 4096 array of row numbers, the
  4 × 1 × 4096 × 128 array whose entry (b, 0, s, l) is lane l of the table's row number idx[b, s]. The row number is
  read modulo 8192 so that the function is total; on row numbers below 8192 that is the number itself.
-/
import Idealize.ShloMosaic.PureOps
import Idealize.ShloMosaic.Lib.ValueIdx

noncomputable section

namespace Cert.Spec

open Idealize.ShloMosaic

abbrev STab : Shape := ⟨2, ![8192, 128]⟩
abbrev SIdx : Shape := ⟨2, ![4, 4096]⟩
abbrev SOut : Shape := ⟨4, ![4, 1, 4096, 128]⟩

/-- Entry (b, 0, s, l) of the result: lane `l` of row `idx[b, s]` of the table. -/
def gatherRows {α : Type} (table : STab.Idx → α) (idx : SIdx.Idx → BitVec 32) : SOut.Idx → α :=
  fun j => table (ValueIdx.ix2 (⟨(idx (ValueIdx.ix2 (j 0) (j 2))).toNat % 8192, Nat.mod_lt _ (by decide)⟩ : Fin 8192) (j 3))

end Cert.Spec

end
-- ==== Proof.RefTake.lean ====
/-
  The value of the reference program, as a pure term of its arguments, and that term under the hypothesis that every
  row number is below 4096.

  The program takes rows of a table twice. One "take" of rows `i` from table `x`: a negative row number has 8192 added
  (`normIdx`); the row numbers become a column (`idxCol`); a position is in range when its row number, signed, is
  between 0 and 8191 (`inRange`, an "and" over an axis of extent 1); the rows are gathered, the gather clamping the row
  number into [0, 8191]; and an out-of-range position is filled with a fixed word instead (`takeVal`). The result is then
  given a unit axis (`outVal`).

  When every row number is below 4096: it is not negative, so it is unchanged; it is in range, so nothing is filled; and
  the clamp does nothing. Entry (b, 0, s, l) is then lane l of row i[b, s] of the table, which is `Cert.Spec.gatherRows`.
-/
import proofs.«214962_g25580825215366_cont_9to1_529_15_alg».proof.Proof.Gen.ReferenceIdeal
import proofs.«214962_g25580825215366_cont_9to1_529_15_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefValue

open Cert.ReferenceIdeal Idealize.ShloMosaic Idealize.ShloMosaic.ValueIdx
open Cert.ReferenceIdeal.Facts₀

variable {F : FTy → Type} [FloatOps F]

/-! ## The term -/

/-- A negative row number has 8192 added. -/
def normIdx (i : IVec S4x4096 32) : IVec S4x4096 32 :=
  select (cmpi .slt i (broadcastInDim S4x4096 ![] bcast_S_S4x4096 (constantI S_ 32 0#32)))
    (addi i (broadcastInDim S4x4096 ![] bcast_S_S4x4096 (constantI S_ 32 8192#32))) i

/-- The row numbers as a column. -/
def idxCol (i : IVec S4x4096 32) : IVec S4x4096x1 32 :=
  broadcastInDim S4x4096x1 ![0, 1] bcast_S4x4096_S4x4096x1_0_1 (normIdx i)

/-- Where the row number, signed, is between 0 and 8191. -/
def inRange (i : IVec S4x4096 32) : IVec S4x4096 1 :=
  Host.reduce IntOp.andi
    (andi (cmpi .sge (idxCol i) (broadcastInDim S4x4096x1 ![] bcast_S_S4x4096x1 (constantI S_ 32 0#32)))
      (cmpi .sle (idxCol i) (broadcastInDim S4x4096x1 ![0, 1, 2] bcast_S1x1x1_S4x4096x1_0_1_2
        (broadcastInDim S1x1x1 ![2] bcast_S1_S1x1x1_2 (constantI S1 32 8191#32)))))
    (constantI S_ 1 1#1) reducesTo_S4x4096x1_S4x4096_d2 h_S_

/-- One take of rows `i` of table `x`. -/
def takeVal (x : FVec F S8192x128 .f32) (i : IVec S4x4096 32) : FVec F S4x4096x128 .f32 :=
  select (broadcastInDim S4x4096x128 ![0, 1] bcast_S4x4096_S4x4096x128_0_1 (inRange i))
    (Host.gather gather_S8192x128_S4x4096x1_S4x4096x128_2_0_n_n_0_2_1128 x (idxCol i))
    (broadcastInDim S4x4096x128 ![] bcast_S_S4x4096x128 (constant S_ .f32 0x7FC00000#32))

/-- The take with a unit axis after the first. -/
def outVal (x : FVec F S8192x128 .f32) (i : IVec S4x4096 32) : FVec F S4x1x4096x128 .f32 :=
  broadcastInDim S4x1x4096x128 ![0, 2, 3] bcast_S4x4096x128_S4x1x4096x128_0_2_3 (takeVal x i)

/-! ## Words below 4096 -/

/-- A word below 4096 reads the same signed and unsigned. -/
theorem toInt_of_lt (w : BitVec 32) (h : w.toNat < 4096) : w.toInt = (w.toNat : Int) := by
  rw [BitVec.toInt_eq_toNat_cond]
  split <;> omega

/-- Clamping a word below 4096 into [0, 8191] leaves it, and so does reading it modulo 8192. -/
theorem row_eq (w : BitVec 32) (h : w.toNat < 4096) : min w.toInt.toNat 8191 = w.toNat % 8192 := by
  rw [toInt_of_lt w h]
  omega

/-- An "and" from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons.2 (Or.inl rfl)), e]
    exact foldl_andi_one f l fun n hn => h n (List.mem_cons.2 (Or.inr hn))

/-- A selection read where the mask is 1 is its first operand there. -/
theorem select_apply_of_one {s : Shape} {α : Type} (c : IVec s 1) (a b : s.Idx → α) (j : s.Idx) (h : c j = 1#1) :
    select c a b j = a j := by
  show (if c j = 1 then a j else b j) = a j
  exact if_pos h

/-! ## The term read at an index, every row number below 4096 -/

section Below
variable (i : IVec S4x4096 32) (hi : ∀ j, (i j).toNat < 4096)
include hi

/-- A row number below 4096 is not negative: it is unchanged. -/
theorem normIdx_apply (j : S4x4096.Idx) : normIdx i j = i j := by
  have hlt : ¬IntOp.cmpi .slt (i j) (0#32) = 1#1 := by
    rw [IntOp.cmpi_slt, toInt_of_lt _ (hi j)]
    have e : (0#32 : BitVec 32).toInt = 0 := by decide
    rw [e]; omega
  show (if IntOp.cmpi .slt (i j) (0#32) = 1 then _ else i j) = i j
  exact if_neg hlt

theorem idxCol_apply (b : Fin 4) (s : Fin 4096) (z : Fin 1) : idxCol i (ix3 b s z) = i (ix2 b s) := by
  unfold idxCol
  rw [broadcastInDim_apply _ _ _ (ix3 b s z) (ix2 b s) (fun a => by match a with | ⟨0, _⟩ => rfl | ⟨1, _⟩ => rfl)]
  exact normIdx_apply i hi _

/-- Every position is in range. -/
theorem inRange_apply (j : S4x4096.Idx) : inRange i j = 1#1 := by
  unfold inRange
  rw [Host.reduce_eq_foldl]
  refine foldl_andi_one _ _ fun n _ => ?_
  obtain ⟨b, s, z, rfl⟩ : ∃ b s z, n = ix3 b s z := ⟨_, _, _, eq_ix3 n⟩
  show IntOp.andi (IntOp.cmpi .sge (idxCol i (ix3 b s z)) (0#32)) (IntOp.cmpi .sle (idxCol i (ix3 b s z)) (8191#32)) = 1#1
  rw [idxCol_apply i hi, IntOp.andi_eq_one, IntOp.cmpi_sge, IntOp.cmpi_sle, toInt_of_lt _ (hi _)]
  have e0 : (0#32 : BitVec 32).toInt = 0 := by decide
  have e1 : (8191#32 : BitVec 32).toInt = 8191 := by decide
  rw [e0, e1]
  have := hi (ix2 b s)
  omega

end Below

/-- The gather's dimension numbers: rows of a [8192, 128] table at a [4, 4096, 1] column of row numbers. -/
private abbrev gd : GatherDims S8192x128 S4x4096x1 S4x4096x128 := gather_S8192x128_S4x4096x1_S4x4096x128_2_0_n_n_0_2_1128

/-- The gather read at (b, s, l): lane l of the table's row at the row number, signed, clamped into [0, 8191]. -/
theorem gather_apply {α : Type} (x : S8192x128.Idx → α) (idx : IVec S4x4096x1 32) (b : Fin 4) (s : Fin 4096) (l : Fin 128) :
    Host.gather gather_S8192x128_S4x4096x1_S4x4096x128_2_0_n_n_0_2_1128 x idx (ix3 b s l)
      = x (ix2 (⟨min (idx (ix3 b s 0)).toInt.toNat 8191, by omega⟩ : Fin 8192) l) := by
  unfold Host.gather
  congr 1
  funext a
  refine Fin.ext ?_
  match a with
  | ⟨0, h0⟩ =>
    -- the table's row axis: collapsed, so no offset; the start is the row number, clamped
    show gd.start (ix3 b s l) idx ⟨0, h0⟩ + gd.batchCoord (ix3 b s l) ⟨0, h0⟩ + gd.offCoord (ix3 b s l) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S8192x128.rank) ∈ gd.startIndexMap from List.mem_singleton.mpr rfl)]
    have hsi : gd.siIdx (ix3 b s l) ⟨List.idxOf (⟨0, h0⟩ : Fin S8192x128.rank) gd.startIndexMap,
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi]
    rfl
  | ⟨1, h1⟩ =>
    -- the table's lane axis: not in the start index map, so the start is 0; the offset is the result's lane
    show gd.start (ix3 b s l) idx ⟨1, h1⟩ + gd.batchCoord (ix3 b s l) ⟨1, h1⟩ + gd.offCoord (ix3 b s l) ⟨1, h1⟩ = _
    rw [GatherDims.batchCoord_eq_zero _ _ _ List.not_mem_nil]
    have hs : gd.start (ix3 b s l) idx ⟨1, h1⟩ = 0 := by
      unfold GatherDims.start
      rw [dif_neg (show (⟨1, h1⟩ : Fin S8192x128.rank) ∉ gd.startIndexMap from (by decide : (1 : Fin S8192x128.rank) ∉ gd.startIndexMap))]
    have ho : gd.offCoord (ix3 b s l) ⟨1, h1⟩ = l.val := by
      unfold GatherDims.offCoord
      rw [dif_pos (show (⟨1, h1⟩ : Fin S8192x128.rank) ∈ gd.sKept from (by decide : (1 : Fin S8192x128.rank) ∈ gd.sKept))]
      rfl
    rw [hs, ho]
    show 0 + 0 + l.val = l.val
    omega

/-! ## The value, every row number below 4096 -/

section Value
variable (x : FVec F S8192x128 .f32) (i : IVec S4x4096 32) (hi : ∀ j, (i j).toNat < 4096)
include hi

/-- One take at (b, s, l): lane l of the table's row i[b, s]. Nothing is filled, and the clamp does nothing. -/
theorem takeVal_apply (b : Fin 4) (s : Fin 4096) (l : Fin 128) :
    takeVal x i (ix3 b s l) = x (ix2 (⟨(i (ix2 b s)).toNat % 8192, Nat.mod_lt _ (by decide)⟩ : Fin 8192) l) := by
  have hm : broadcastInDim S4x4096x128 ![0, 1] bcast_S4x4096_S4x4096x128_0_1 (inRange i) (ix3 b s l) = 1#1 := by
    rw [broadcastInDim_apply _ _ _ (ix3 b s l) (ix2 b s) (fun a => by match a with | ⟨0, _⟩ => rfl | ⟨1, _⟩ => rfl)]
    exact inRange_apply i hi _
  unfold takeVal
  rw [select_apply_of_one _ _ _ _ hm, gather_apply]
  refine congrArg x (congrArg (fun r : Fin 8192 => ix2 r l) (Fin.ext ?_))
  show min (idxCol i (ix3 b s 0)).toInt.toNat 8191 = (i (ix2 b s)).toNat % 8192
  rw [idxCol_apply i hi]
  exact row_eq _ (hi _)

/-- The result at (b, 0, s, l). -/
theorem outVal_apply (b : Fin 4) (z : Fin 1) (s : Fin 4096) (l : Fin 128) :
    outVal x i (ix4 b z s l) = x (ix2 (⟨(i (ix2 b s)).toNat % 8192, Nat.mod_lt _ (by decide)⟩ : Fin 8192) l) := by
  unfold outVal
  rw [broadcastInDim_apply _ _ _ (ix4 b z s l) (ix3 b s l)
    (fun a => by match a with | ⟨0, _⟩ => rfl | ⟨1, _⟩ => rfl | ⟨2, _⟩ => rfl)]
  exact takeVal_apply x i hi b s l

/-- The reference's value is the common specification: the rows of the table at the row numbers. -/
theorem outVal_eq : outVal x i = Cert.Spec.gatherRows x i := by
  funext j
  obtain ⟨b, z, s, l, rfl⟩ : ∃ b z s l, j = ix4 b z s l := ⟨_, _, _, _, eq_ix4 j⟩
  exact outVal_apply x i hi b z s l

end Value

end Cert.ReferenceIdeal.RefValue

end
-- ==== Proof.RefRun.lean ====
/-
  The reference program's run. Its @main calls the row-taking function twice, once per table, and gives each result a unit
  axis. With the calls unfolded it is a straight line of 48 operations (23 per call, then the two broadcasts): every weakly
  fair execution terminates with each buffer at the fold of the operations' results over the launch contents. At the two
  result buffers that fold is the pure term `outVal` of the table and the row numbers, and at the argument buffers it is
  what was there. When every row number is below 4096 the term is `Cert.Spec.gatherRows`.
-/
import proofs.«214962_g25580825215366_cont_9to1_529_15_alg».proof.Proof.Gen.ReferenceIdeal
import proofs.«214962_g25580825215366_cont_9to1_529_15_alg».proof.Proof.RefTake
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: one take is six operations on the row numbers (zero and its
    broadcast, the sign test, 8192 and its broadcast, the sum), the selection between the sum and the row number, then
    sixteen (the column, the two bounds and their broadcasts, the two comparisons and their "and", the reduction over the
    unit axis, the gather, the mask's broadcast, the fill word and its broadcast, the final selection). -/
abbrev ops : List (HloOp τ sig (Elt F)) :=
  [
    TRef.nullary main_call0.c (constantI S_ 32 0#32),
    TRef.unary main_call0.c main_call0.v0 (broadcastInDim S4x4096 ![] bcast_S_S4x4096),
    TRef.binary (.of main_arg1) main_call0.v0 main_call0.v1 (cmpi .slt),
    TRef.nullary main_call0.c_0 (constantI S_ 32 8192#32),
    TRef.unary main_call0.c_0 main_call0.v2 (broadcastInDim S4x4096 ![] bcast_S_S4x4096),
    TRef.binary (.of main_arg1) main_call0.v2 main_call0.v3 addi,
    TRef.ternary main_call0.v1 main_call0.v3 (.of main_arg1) main_call0.call0.v0 select,
    TRef.unary main_call0.call0.v0 main_call0.v5 (broadcastInDim S4x4096x1 ![0, 1] bcast_S4x4096_S4x4096x1_0_1),
    TRef.nullary main_call0.c_1 (constantI S1 32 8191#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg2) main_call0.v5 main_call0.v13 (fun x i => Host.gather gather_S8192x128_S4x4096x1_S4x4096x128_2_0_n_n_0_2_1128 x i),
    TRef.unary main_call0.v12 main_call0.v14 (broadcastInDim S4x4096x128 ![0, 1] bcast_S4x4096_S4x4096x128_0_1),
    TRef.nullary main_call0.cst (constant S_ .f32 0x7FC00000#32),
    TRef.unary main_call0.cst main_call0.v15 (broadcastInDim S4x4096x128 ![] bcast_S_S4x4096x128),
    TRef.ternary main_call0.v14 main_call0.v13 main_call0.v15 main_call0.v16 select,
    TRef.nullary main_call1.c (constantI S_ 32 0#32),
    TRef.unary main_call1.c main_call1.v0 (broadcastInDim S4x4096 ![] bcast_S_S4x4096),
    TRef.binary (.of main_arg1) main_call1.v0 main_call1.v1 (cmpi .slt),
    TRef.nullary main_call1.c_0 (constantI S_ 32 8192#32),
    TRef.unary main_call1.c_0 main_call1.v2 (broadcastInDim S4x4096 ![] bcast_S_S4x4096),
    TRef.binary (.of main_arg1) main_call1.v2 main_call1.v3 addi,
    TRef.ternary main_call1.v1 main_call1.v3 (.of main_arg1) main_call1.call0.v0 select,
    TRef.unary main_call1.call0.v0 main_call1.v5 (broadcastInDim S4x4096x1 ![0, 1] bcast_S4x4096_S4x4096x1_0_1),
    TRef.nullary main_call1.c_1 (constantI S1 32 8191#32),
    TRef.nullary main_call1.c_2 (constantI S_ 32 0#32),
    TRef.unary main_call1.c_2 main_call1.v6 (broadcastInDim S4x4096x1 ![] bcast_S_S4x4096x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x4096x1 ![0, 1, 2] bcast_S1x1x1_S4x4096x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x4096x1_S4x4096_d2 h_S_),
    TRef.binary (.of main_arg3) main_call1.v5 main_call1.v13 (fun x i => Host.gather gather_S8192x128_S4x4096x1_S4x4096x128_2_0_n_n_0_2_1128 x i),
    TRef.unary main_call1.v12 main_call1.v14 (broadcastInDim S4x4096x128 ![0, 1] bcast_S4x4096_S4x4096x128_0_1),
    TRef.nullary main_call1.cst (constant S_ .f32 0x7FC00000#32),
    TRef.unary main_call1.cst main_call1.v15 (broadcastInDim S4x4096x128 ![] bcast_S_S4x4096x128),
    TRef.ternary main_call1.v14 main_call1.v13 main_call1.v15 main_call1.v16 select,
    unary main_v0 main_v2 (broadcastInDim S4x1x4096x128 ![0, 2, 3] bcast_S4x4096x128_S4x1x4096x128_0_2_3 : (⟨S4x4096x128, .f32⟩ : BufTy).Contents (Elt F) → (⟨S4x1x4096x128, .f32⟩ : BufTy).Contents (Elt F)),
    unary main_v1 main_v3 (broadcastInDim S4x1x4096x128 ![0, 2, 3] bcast_S4x4096x128_S4x1x4096x128_0_2_3 : (⟨S4x4096x128, .f32⟩ : BufTy).Contents (Elt F) → (⟨S4x1x4096x128, .f32⟩ : BufTy).Contents (Elt F)) ]

-- forty-eight binds re-associated: the rewrite under the chain recurses once per statement
set_option maxRecDepth 2048 in
/-- @main is that straight line: the functions' definitions unfolded at their calls, both sides are one chain of steps
    once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., unary_bufs_sub ..⟩

/-- From any memory with zero counters: every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the results and at the arguments

Each is by computation: the fold unrolled, each operation's result decides whether the buffer read is the one it writes,
and the typed references' casts are the identity at these literal references. The reduction and the gather are kept
folded meanwhile: their bodies are folds and searches over the operand's elements, and the equation never looks inside
them. -/

attribute [local irreducible] Host.reduce Host.gather in
set_option maxRecDepth 8192 in
set_option maxHeartbeats 800000 in
theorem out2_eq (V : Valuation τ sig (Elt F)) :
    after ops V (main_v2 : DevRef τ sig) = outVal (V (main_arg2 : DevRef τ sig)) (V (main_arg1 : DevRef τ sig)) := by
  simp only [after_cons, after_nil]
  rfl

attribute [local irreducible] Host.reduce Host.gather in
set_option maxRecDepth 8192 in
set_option maxHeartbeats 800000 in
theorem out3_eq (V : Valuation τ sig (Elt F)) :
    after ops V (main_v3 : DevRef τ sig) = outVal (V (main_arg3 : DevRef τ sig)) (V (main_arg1 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- The run with each result at the pure term of the arguments, the arguments unchanged; no hypothesis on the row numbers. -/
theorem run_term (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v2) = outVal (m ((c.tc : Thread nD τ).loc main_arg2)) (m ((c.tc : Thread nD τ).loc main_arg1))
      ∧ r.2.mem ((c.tc : Thread nD τ).loc main_v3) = outVal (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v2).trans (out2_eq _), (h c main_v3).trans (out3_eq _),
      (h c main_arg0).trans (arg0_eq _), (h c main_arg1).trans (arg1_eq _),
      (h c main_arg2).trans (arg2_eq _), (h c main_arg3).trans (arg3_eq _)⟩)
    (run_main m ρ)

/-- The reference's run at the ideal values, every row number below 4096: each result is the rows of its table at the row
    numbers, the arguments unchanged. -/
theorem run (m : (ℓ : Loc nD τ sig) → Buf (Elt Ideal) ℓ) (ρ : Dev nD → PrngReg)
    (hidx : ∀ (c : Dev nD) j, (m ((c.tc : Thread nD τ).loc main_arg1) j).toNat < 4096) :
    θ_run (defs (F := Ideal)) (onTc (τ := τ) (main (F := Ideal))) ⟨m, fun _ => 0, ρ⟩ (fun r => ∀ c : Dev nD,
      r.2.mem ((c.tc : Thread nD τ).loc main_v2) = Cert.Spec.gatherRows (m ((c.tc : Thread nD τ).loc main_arg2)) (m ((c.tc : Thread nD τ).loc main_arg1))
      ∧ r.2.mem ((c.tc : Thread nD τ).loc main_v3) = Cert.Spec.gatherRows (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (outVal_eq _ _ (hidx c)), (h c).2.1.trans (outVal_eq _ _ (hidx c)), (h c).2.2⟩)
    (run_term (F := Ideal) m ρ)

end Cert.ReferenceIdeal.RefValue

end
-- ==== Proof.KIBase.lean ====
/-
  The gather kernel's program as the SparseCore launch theorem sees it, and the pieces of memory its tiles work on.
  Thirty-two tiles (two SparseCores of sixteen vector subcores) each serve 512 consecutive positions of one batch row:
  tile (c, s) has number w = 2 s + c, batch row w / 8 and first position 512 (w mod 8). A tile copies its 512 position
  ids into its list buffer, and for each of four chunks of 128 positions gathers the 128 named rows of the cosine table
  and of the sine table into staging buffers and copies each staging buffer to the chunk's rows of the matching output.
-/
import proofs.«214962_g25580825215366_cont_9to1_529_15_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«214962_g25580825215366_cont_9to1_529_15_alg».proof.Proof.Gen.KernelIdeal
import proofs.«214962_g25580825215366_cont_9to1_529_15_alg».proof.Proof.Gen.KernelIdeal.Skeleton
import proofs.«214962_g25580825215366_cont_9to1_529_15_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

local notation "𝕄" => MT nD τ sig (HIx 1) (Elt F) ℕ UU ℕ
local notation "iV" => (Memref.whole Cert.KernelIdeal.main_arg1_scv : Memref Cert.KernelIdeal.sig Kind.scVector Space.hbm Cert.KernelIdeal.S4x4096 EltTy.i32)
local notation "cV" => (Memref.whole Cert.KernelIdeal.main_arg2_scv : Memref Cert.KernelIdeal.sig Kind.scVector Space.hbm Cert.KernelIdeal.S8192x128 EltTy.f32)
local notation "sV" => (Memref.whole Cert.KernelIdeal.main_arg3_scv : Memref Cert.KernelIdeal.sig Kind.scVector Space.hbm Cert.KernelIdeal.S8192x128 EltTy.f32)
local notation "pV" => (Memref.whole Cert.KernelIdeal.main_v0_0_scv : Memref Cert.KernelIdeal.sig Kind.scVector Space.hbm Cert.KernelIdeal.S4x1x4096x128 EltTy.f32)
local notation "qV" => (Memref.whole Cert.KernelIdeal.main_v0_1_scv : Memref Cert.KernelIdeal.sig Kind.scVector Space.hbm Cert.KernelIdeal.S4x1x4096x128 EltTy.f32)
local notation "lV" => (Memref.whole Cert.KernelIdeal.cc0_scratch0 : Memref Cert.KernelIdeal.sig Kind.scVector Space.vmem Cert.KernelIdeal.S512 EltTy.i32)
local notation "b1V" => (Memref.whole Cert.KernelIdeal.cc0_scratch1 : Memref Cert.KernelIdeal.sig Kind.scVector Space.vmem Cert.KernelIdeal.S128x128 EltTy.f32)
local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)
local notation "b6V" => (Memref.whole Cert.KernelIdeal.cc0_scratch6 : Memref Cert.KernelIdeal.sig Kind.scVector Space.vmem Cert.KernelIdeal.S128x128 EltTy.f32)

/-! ## Places -/

abbrev xLoc (d : Dev nD) : Loc nD τ sig := (SparseCore.T d).loc main_arg0
abbrev iLoc (d : Dev nD) : Loc nD τ sig := (SparseCore.T d).loc main_arg1
abbrev cLoc (d : Dev nD) : Loc nD τ sig := (SparseCore.T d).loc main_arg2
abbrev sLoc (d : Dev nD) : Loc nD τ sig := (SparseCore.T d).loc main_arg3
abbrev pLoc (d : Dev nD) : Loc nD τ sig := (SparseCore.T d).loc main_v0_0
abbrev qLoc (d : Dev nD) : Loc nD τ sig := (SparseCore.T d).loc main_v0_1

abbrev cT (L : grid0.Coords) : Fin τ.nSC := (L 0).castLE hcore0
abbrev jT (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
abbrev thr (d : Dev nD) (L : grid0.Coords) : Thread nD τ := V d (cT L) (jT L)

/-! ## Which rows a tile serves

Tile (c, s) has number w = 2 s + c; its batch row is w / 8 and its first position 512 (w mod 8). -/

def wN (c : Fin 2) (s : Fin 16) : ℕ := s.val * 2 + c.val

theorem off1_eq : ∀ (L : grid0.Coords) (a : Fin 2),
    k0_off1 L a = (![wN (cL L) (jL L) / 8, (wN (cL L) (jL L) % 8) * 512] : Fin 2 → ℕ) a := by decide +kernel
theorem off2_eq : ∀ (L : grid0.Coords) (r : Fin 4) (a : Fin 4),
    k0_off2 L (BitVec.ofNat 32 (128 * r.val)) a
      = (![wN (cL L) (jL L) / 8, 0, (wN (cL L) (jL L) % 8) * 512 + 128 * r.val, 0] : Fin 4 → ℕ) a := by decide +kernel

theorem chunk_inb (c : Fin 2) (s : Fin 16) (r : Fin 4) :
    ∀ a, (![wN c s / 8, 0, (wN c s % 8) * 512 + 128 * r.val, 0] : Fin 4 → ℕ) a + (![1, 1, 128, 128] : Fin 4 → ℕ) a ≤ S4x1x4096x128.size a := by
  have hc := c.isLt; have hs := s.isLt; have hr := r.isLt
  intro a
  fin_cases a <;> simp [wN] <;> omega

/-- Chunk `r` of tile (c, s): 128 positions of one batch row, all 128 lanes, in either output array. -/
def chunkRect (c : Fin 2) (s : Fin 16) (r : Fin 4) : Rect S4x1x4096x128 :=
  Rect.unit (s := S4x1x4096x128) ![wN c s / 8, 0, (wN c s % 8) * 512 + 128 * r.val, 0] ![1, 1, 128, 128] (chunk_inb c s r)

def cSet (c : Fin 2) (s : Fin 16) (r : Fin 4) : Finset S4x1x4096x128.Idx := (chunkRect c s r).set

/-- An index is in chunk r of tile (c, s) exactly when its batch row and its position's block of 128 say so. -/
theorem mem_cSet (c : Fin 2) (s : Fin 16) (r : Fin 4) (j : S4x1x4096x128.Idx) :
    j ∈ cSet c s r ↔ (j 0).val * 32 + (j 2).val / 128 = wN c s * 4 + r.val := by
  have hc := c.isLt; have hs := s.isLt; have hr := r.isLt
  have h0 : (j 0).val < 4 := (j 0).isLt
  have h1 : (j 1).val < 1 := (j 1).isLt
  have h2 : (j 2).val < 4096 := (j 2).isLt
  have h3 : (j 3).val < 128 := (j 3).isLt
  unfold cSet chunkRect
  rw [Rect.mem_set_unit]
  constructor
  · intro h
    have a0 := h 0; have a2 := h 2
    simp [wN] at a0 a2 ⊢
    omega
  · intro h a
    fin_cases a <;> simp [wN] at h ⊢ <;> omega

/-! ## The chunks of all tiles tile each output array -/

theorem cSet_disjoint : ∀ t ∈ (Finset.univ : Finset (Fin 2 × Fin 16 × Fin 4)), ∀ t' ∈ (Finset.univ : Finset (Fin 2 × Fin 16 × Fin 4)),
    t ≠ t' → Disjoint (cSet t.1 t.2.1 t.2.2) (cSet t'.1 t'.2.1 t'.2.2) := by
  intro t _ t' _ h
  rw [Finset.disjoint_left]
  intro j hj hj'
  rw [mem_cSet] at hj hj'
  apply h
  obtain ⟨c, s, r⟩ := t; obtain ⟨c', s', r'⟩ := t'
  simp only [wN] at hj hj'
  have := c.isLt; have := c'.isLt; have := s.isLt; have := s'.isLt; have := r.isLt; have := r'.isLt
  have e : c.val = c'.val ∧ s.val = s'.val ∧ r.val = r'.val := by omega
  exact Prod.ext (Fin.ext e.1) (Prod.ext (Fin.ext e.2.1) (Fin.ext e.2.2))

theorem cSet_cover : (Finset.univ : Finset (Fin 2 × Fin 16 × Fin 4)).biUnion (fun t => cSet t.1 t.2.1 t.2.2) = Finset.univ := by
  ext j
  simp only [Finset.mem_biUnion, Finset.mem_univ, true_and, iff_true]
  have h0 : (j 0).val < 4 := (j 0).isLt
  have h2 : (j 2).val < 4096 := (j 2).isLt
  refine ⟨(⟨(((j 0).val * 32 + (j 2).val / 128) / 4) % 2, by omega⟩, ⟨((j 0).val * 32 + (j 2).val / 128) / 8, by omega⟩,
    ⟨((j 0).val * 32 + (j 2).val / 128) % 4, by omega⟩), ?_⟩
  rw [mem_cSet]; simp only [wN]; omega

section Tile
variable (d : Dev nD) (L : grid0.Coords)

abbrev dcell (d : Dev nD) (L : grid0.Coords) (k : DmaSem sig) : GSem nD τ sig := (thr d L, .dma k)

set_option maxRecDepth 8192 in
theorem ownSems0_V :
    (ownSems0 (thr d L) : sProp 𝕄)
      = iprop(semVal (dcell d L cc0_scoped0.sem) 0 ∗ semVal (dcell d L cc0_scratch7.sem) 0 ∗ semVal (dcell d L cc0_scratch8.sem) 0 ∗ semVal (dcell d L cc0_scratch9.sem) 0 ∗ semVal (dcell d L cc0_scratch10.sem) 0 ∗ semVal (dcell d L cc0_scratch11.sem) 0 ∗ semVal (dcell d L cc0_scratch12.sem) 0 ∗ semVal (dcell d L cc0_scratch13.sem) 0 ∗ semVal (dcell d L cc0_scratch14.sem) 0 ∗ semVal (dcell d L cc0_scratch15.sem) 0 ∗ semVal (dcell d L cc0_scratch16.sem) 0 ∗ semVal (dcell d L cc0_scratch17.sem) 0 ∗ semVal (dcell d L cc0_scratch18.sem) 0
          ∗ bigSep ((((((((((((((ownCells (thr d L)).erase (dcell d L cc0_scoped0.sem)).erase (dcell d L cc0_scratch7.sem)).erase (dcell d L cc0_scratch8.sem)).erase (dcell d L cc0_scratch9.sem)).erase (dcell d L cc0_scratch10.sem)).erase (dcell d L cc0_scratch11.sem)).erase (dcell d L cc0_scratch12.sem)).erase (dcell d L cc0_scratch13.sem)).erase (dcell d L cc0_scratch14.sem)).erase (dcell d L cc0_scratch15.sem)).erase (dcell d L cc0_scratch16.sem)).erase (dcell d L cc0_scratch17.sem)).erase (dcell d L cc0_scratch18.sem)) fun g => semVal g 0) := by
  unfold SparseCore.Cfg.ownSems0
  rw [SparseCore.bigSep_erase' ((mem_ownCells (g := dcell d L cc0_scoped0.sem)).mpr ⟨rfl, by show (SemLoc.dma cc0_scoped0.sem : SemLoc sig).isScoped .scVector = true; decide⟩),
    SparseCore.bigSep_erase' (Finset.mem_erase.mpr ⟨(fun e => absurd (congrArg Prod.snd e) (show (SemLoc.dma cc0_scratch7.sem : SemLoc sig) ≠ SemLoc.dma cc0_scoped0.sem by decide)), ((mem_ownCells (g := dcell d L cc0_scratch7.sem)).mpr ⟨rfl, by show (SemLoc.dma cc0_scratch7.sem : SemLoc sig).isScoped .scVector = true; decide⟩)⟩),
    SparseCore.bigSep_erase' (Finset.mem_erase.mpr ⟨(fun e => absurd (congrArg Prod.snd e) (show (SemLoc.dma cc0_scratch8.sem : SemLoc sig) ≠ SemLoc.dma cc0_scratch7.sem by decide)), (Finset.mem_erase.mpr ⟨(fun e => absurd (congrArg Prod.snd e) (show (SemLoc.dma cc0_scratch8.sem : SemLoc sig) ≠ SemLoc.dma cc0_scoped0.sem by decide)), ((mem_ownCells (g := dcell d L cc0_scratch8.sem)).mpr ⟨rfl, by show (SemLoc.dma cc0_scratch8.sem : SemLoc sig).isScoped .scVector = true; decide⟩)⟩)⟩),
    SparseCore.bigSep_erase' (Finset.mem_erase.mpr ⟨(fun e => absurd (congrArg Prod.snd e) (show (SemLoc.dma cc0_scratch9.sem : SemLoc sig) ≠ SemLoc.dma cc0_scratch8.sem by decide)), (Finset.mem_erase.mpr ⟨(fun e => absurd (congrArg Prod.snd e) (show (SemLoc.dma cc0_scratch9.sem : SemLoc sig) ≠ SemLoc.dma cc0_scratch7.sem by decide)), (Finset.mem_erase.mpr ⟨(fun e => absurd (congrArg Prod.snd e) (show (SemLoc.dma cc0_scratch9.sem : SemLoc sig) ≠ SemLoc.dma cc0_scoped0.sem by decide)), ((mem_ownCells (g := dcell d L cc0_scratch9.sem)).mpr ⟨rfl, by show (SemLoc.dma cc0_scratch9.sem : SemLoc sig).isScoped .scVector = true; decide⟩)⟩)⟩)⟩),
    SparseCore.bigSep_erase' (Finset.mem_erase.mpr ⟨(fun e => absurd (congrArg Prod.snd e) (show (SemLoc.dma cc0_scratch10.sem : SemLoc sig) ≠ SemLoc.dma cc0_scratch9.sem by decide)), (Finset.mem_erase.mpr ⟨(fun e => absurd (congrArg Prod.snd e) (show (SemLoc.dma cc0_scratch10.sem : SemLoc sig) ≠ SemLoc.dma cc0_scratch8.sem by decide)), (Finset.mem_erase.mpr ⟨(fun e => absurd (congrArg Prod.snd e) (show (SemLoc.dma cc0_scratch10.sem : SemLoc sig) ≠ SemLoc.dma cc0_scratch7.sem by decide)), (Finset.mem_erase.mpr ⟨(fun e => absurd (congrArg Prod.snd e) (show (SemLoc.dma cc0_scratch10.sem : SemLoc sig) ≠ SemLoc.dma cc0_scoped0.sem by decide)), ((mem_ownCells (g := dcell d L cc0_scratch10.sem)).mpr ⟨rfl, by show (SemLoc.dma cc0_scratch10.sem : SemLoc sig).isScoped .scVector = true; decide⟩)⟩)⟩)⟩)⟩),
    SparseCore.bigSep_erase' (Finset.mem_erase.mpr ⟨(fun e => absurd (congrArg Prod.snd e) (show (SemLoc.dma cc0_scratch11.sem : SemLoc sig) ≠ SemLoc.dma cc0_scratch10.sem by decide)), (Finset.mem_erase.mpr ⟨(fun e => absurd (congrArg Prod.snd e) (show (SemLoc.dma cc0_scratch11.sem : SemLoc sig) ≠ SemLoc.dma cc0_scratch9.sem by decide)), (Finset.mem_erase.mpr ⟨(fun e => absurd (congrArg Prod.snd e) (show (SemLoc.dma cc0_scratch11.sem : SemLoc sig) ≠ SemLoc.dma cc0_scratch8.sem by decide)), (Finset.mem_erase.mpr ⟨(fun e => absurd (congrArg Prod.snd e) (show (SemLoc.dma cc0_scratch11.sem : SemLoc sig) ≠ SemLoc.dma cc0_scratch7.sem by decide)), (Finset.mem_erase.mpr ⟨(fun e => absurd (congrArg Prod.snd e) (show (SemLoc.dma cc0_scratch11.sem : SemLoc sig) ≠ SemLoc.dma cc0_scoped0.sem by decide)), ((mem_ownCells (g := dcell d L cc0_scratch11.sem)).mpr ⟨rfl, by show (SemLoc.dma cc0_scratch11.sem : SemLoc sig).isScoped .scVector = true; decide⟩)⟩)⟩)⟩)⟩)⟩),
    SparseCore.bigSep_erase' (Finset.mem_erase.mpr ⟨(fun e => absurd (congrArg Prod.snd e) (show (SemLoc.dma cc0_scratch12.sem : SemLoc sig) ≠ SemLoc.dma cc0_scratch11.sem by decide)), (Finset.mem_erase.mpr ⟨(fun e => absurd (congrArg Prod.snd e) (show (SemLoc.dma cc0_scratch12.sem : SemLoc sig) ≠ SemLoc.dma cc0_scratch10.sem by decide)), (Finset.mem_erase.mpr ⟨(fun e => absurd (congrArg Prod.snd e) (show (SemLoc.dma cc0_scratch12.sem : SemLoc sig) ≠ SemLoc.dma cc0_scratch9.sem by decide)), (Finset.mem_erase.mpr ⟨(fun e => absurd (congrArg Prod.snd e) (show (SemLoc.dma cc0_scratch12.sem : SemLoc sig) ≠ SemLoc.dma cc0_scratch8.sem by decide)), (Finset.mem_erase.mpr ⟨(fun e => absurd (congrArg Prod.snd e) (show (SemLoc.dma cc0_scratch12.sem : SemLoc sig) ≠ SemLoc.dma cc0_scratch7.sem by decide)), (Finset.mem_erase.mpr ⟨(fun e => absurd (congrArg Prod.snd e) (show (SemLoc.dma cc0_scratch12.sem : SemLoc sig) ≠ SemLoc.dma cc0_scoped0.sem by decide)), ((mem_ownCells (g := dcell d L cc0_scratch12.sem)).mpr ⟨rfl, by show (SemLoc.dma cc0_scratch12.sem : SemLoc sig).isScoped .scVector = true; decide⟩)⟩)⟩)⟩)⟩)⟩)⟩),
    SparseCore.bigSep_erase' (Finset.mem_erase.mpr ⟨(fun e => absurd (congrArg Prod.snd e) (show (SemLoc.dma cc0_scratch13.sem : SemLoc sig) ≠ SemLoc.dma cc0_scratch12.sem by decide)), (Finset.mem_erase.mpr ⟨(fun e => absurd (congrArg Prod.snd e) (show (SemLoc.dma cc0_scratch13.sem : SemLoc sig) ≠ SemLoc.dma cc0_scratch11.sem by decide)), (Finset.mem_erase.mpr ⟨(fun e => absurd (congrArg Prod.snd e) (show (SemLoc.dma cc0_scratch13.sem : SemLoc sig) ≠ SemLoc.dma cc0_scratch10.sem by decide)), (Finset.mem_erase.mpr ⟨(fun e => absurd (congrArg Prod.snd e) (show (SemLoc.dma cc0_scratch13.sem : SemLoc sig) ≠ SemLoc.dma cc0_scratch9.sem by decide)), (Finset.mem_erase.mpr ⟨(fun e => absurd (congrArg Prod.snd e) (show (SemLoc.dma cc0_scratch13.sem : SemLoc sig) ≠ SemLoc.dma cc0_scratch8.sem by decide)), (Finset.mem_erase.mpr ⟨(fun e => absurd (congrArg Prod.snd e) (show (SemLoc.dma cc0_scratch13.sem : SemLoc sig) ≠ SemLoc.dma cc0_scratch7.sem by decide)), (Finset.mem_erase.mpr ⟨(fun e => absurd (congrArg Prod.snd e) (show (SemLoc.dma cc0_scratch13.sem : SemLoc sig) ≠ SemLoc.dma cc0_scoped0.sem by decide)), ((mem_ownCells (g := dcell d L cc0_scratch13.sem)).mpr ⟨rfl, by show (SemLoc.dma cc0_scratch13.sem : SemLoc sig).isScoped .scVector = true; decide⟩)⟩)⟩)⟩)⟩)⟩)⟩)⟩),
    SparseCore.bigSep_erase' (Finset.mem_erase.mpr ⟨(fun e => absurd (congrArg Prod.snd e) (show (SemLoc.dma cc0_scratch14.sem : SemLoc sig) ≠ SemLoc.dma cc0_scratch13.sem by decide)), (Finset.mem_erase.mpr ⟨(fun e => absurd (congrArg Prod.snd e) (show (SemLoc.dma cc0_scratch14.sem : SemLoc sig) ≠ SemLoc.dma cc0_scratch12.sem by decide)), (Finset.mem_erase.mpr ⟨(fun e => absurd (congrArg Prod.snd e) (show (SemLoc.dma cc0_scratch14.sem : SemLoc sig) ≠ SemLoc.dma cc0_scratch11.sem by decide)), (Finset.mem_erase.mpr ⟨(fun e => absurd (congrArg Prod.snd e) (show (SemLoc.dma cc0_scratch14.sem : SemLoc sig) ≠ SemLoc.dma cc0_scratch10.sem by decide)), (Finset.mem_erase.mpr ⟨(fun e => absurd (congrArg Prod.snd e) (show (SemLoc.dma cc0_scratch14.sem : SemLoc sig) ≠ SemLoc.dma cc0_scratch9.sem by decide)), (Finset.mem_erase.mpr ⟨(fun e => absurd (congrArg Prod.snd e) (show (SemLoc.dma cc0_scratch14.sem : SemLoc sig) ≠ SemLoc.dma cc0_scratch8.sem by decide)), (Finset.mem_erase.mpr ⟨(fun e => absurd (congrArg Prod.snd e) (show (SemLoc.dma cc0_scratch14.sem : SemLoc sig) ≠ SemLoc.dma cc0_scratch7.sem by decide)), (Finset.mem_erase.mpr ⟨(fun e => absurd (congrArg Prod.snd e) (show (SemLoc.dma cc0_scratch14.sem : SemLoc sig) ≠ SemLoc.dma cc0_scoped0.sem by decide)), ((mem_ownCells (g := dcell d L cc0_scratch14.sem)).mpr ⟨rfl, by show (SemLoc.dma cc0_scratch14.sem : SemLoc sig).isScoped .scVector = true; decide⟩)⟩)⟩)⟩)⟩)⟩)⟩)⟩)⟩),
    SparseCore.bigSep_erase' (Finset.mem_erase.mpr ⟨(fun e => absurd (congrArg Prod.snd e) (show (SemLoc.dma cc0_scratch15.sem : SemLoc sig) ≠ SemLoc.dma cc0_scratch14.sem by decide)), (Finset.mem_erase.mpr ⟨(fun e => absurd (congrArg Prod.snd e) (show (SemLoc.dma cc0_scratch15.sem : SemLoc sig) ≠ SemLoc.dma cc0_scratch13.sem by decide)), (Finset.mem_erase.mpr ⟨(fun e => absurd (congrArg Prod.snd e) (show (SemLoc.dma cc0_scratch15.sem : SemLoc sig) ≠ SemLoc.dma cc0_scratch12.sem by decide)), (Finset.mem_erase.mpr ⟨(fun e => absurd (congrArg Prod.snd e) (show (SemLoc.dma cc0_scratch15.sem : SemLoc sig) ≠ SemLoc.dma cc0_scratch11.sem by decide)), (Finset.mem_erase.mpr ⟨(fun e => absurd (congrArg Prod.snd e) (show (SemLoc.dma cc0_scratch15.sem : SemLoc sig) ≠ SemLoc.dma cc0_scratch10.sem by decide)), (Finset.mem_erase.mpr ⟨(fun e => absurd (congrArg Prod.snd e) (show (SemLoc.dma cc0_scratch15.sem : SemLoc sig) ≠ SemLoc.dma cc0_scratch9.sem by decide)), (Finset.mem_erase.mpr ⟨(fun e => absurd (congrArg Prod.snd e) (show (SemLoc.dma cc0_scratch15.sem : SemLoc sig) ≠ SemLoc.dma cc0_scratch8.sem by decide)), (Finset.mem_erase.mpr ⟨(fun e => absurd (congrArg Prod.snd e) (show (SemLoc.dma cc0_scratch15.sem : SemLoc sig) ≠ SemLoc.dma cc0_scratch7.sem by decide)), (Finset.mem_erase.mpr ⟨(fun e => absurd (congrArg Prod.snd e) (show (SemLoc.dma cc0_scratch15.sem : SemLoc sig) ≠ SemLoc.dma cc0_scoped0.sem by decide)), ((mem_ownCells (g := dcell d L cc0_scratch15.sem)).mpr ⟨rfl, by show (SemLoc.dma cc0_scratch15.sem : SemLoc sig).isScoped .scVector = true; decide⟩)⟩)⟩)⟩)⟩)⟩)⟩)⟩)⟩)⟩),
    SparseCore.bigSep_erase' (Finset.mem_erase.mpr ⟨(fun e => absurd (congrArg Prod.snd e) (show (SemLoc.dma cc0_scratch16.sem : SemLoc sig) ≠ SemLoc.dma cc0_scratch15.sem by decide)), (Finset.mem_erase.mpr ⟨(fun e => absurd (congrArg Prod.snd e) (show (SemLoc.dma cc0_scratch16.sem : SemLoc sig) ≠ SemLoc.dma cc0_scratch14.sem by decide)), (Finset.mem_erase.mpr ⟨(fun e => absurd (congrArg Prod.snd e) (show (SemLoc.dma cc0_scratch16.sem : SemLoc sig) ≠ SemLoc.dma cc0_scratch13.sem by decide)), (Finset.mem_erase.mpr ⟨(fun e => absurd (congrArg Prod.snd e) (show (SemLoc.dma cc0_scratch16.sem : SemLoc sig) ≠ SemLoc.dma cc0_scratch12.sem by decide)), (Finset.mem_erase.mpr ⟨(fun e => absurd (congrArg Prod.snd e) (show (SemLoc.dma cc0_scratch16.sem : SemLoc sig) ≠ SemLoc.dma cc0_scratch11.sem by decide)), (Finset.mem_erase.mpr ⟨(fun e => absurd (congrArg Prod.snd e) (show (SemLoc.dma cc0_scratch16.sem : SemLoc sig) ≠ SemLoc.dma cc0_scratch10.sem by decide)), (Finset.mem_erase.mpr ⟨(fun e => absurd (congrArg Prod.snd e) (show (SemLoc.dma cc0_scratch16.sem : SemLoc sig) ≠ SemLoc.dma cc0_scratch9.sem by decide)), (Finset.mem_erase.mpr ⟨(fun e => absurd (congrArg Prod.snd e) (show (SemLoc.dma cc0_scratch16.sem : SemLoc sig) ≠ SemLoc.dma cc0_scratch8.sem by decide)), (Finset.mem_erase.mpr ⟨(fun e => absurd (congrArg Prod.snd e) (show (SemLoc.dma cc0_scratch16.sem : SemLoc sig) ≠ SemLoc.dma cc0_scratch7.sem by decide)), (Finset.mem_erase.mpr ⟨(fun e => absurd (congrArg Prod.snd e) (show (SemLoc.dma cc0_scratch16.sem : SemLoc sig) ≠ SemLoc.dma cc0_scoped0.sem by decide)), ((mem_ownCells (g := dcell d L cc0_scratch16.sem)).mpr ⟨rfl, by show (SemLoc.dma cc0_scratch16.sem : SemLoc sig).isScoped .scVector = true; decide⟩)⟩)⟩)⟩)⟩)⟩)⟩)⟩)⟩)⟩)⟩),
    SparseCore.bigSep_erase' (Finset.mem_erase.mpr ⟨(fun e => absurd (congrArg Prod.snd e) (show (SemLoc.dma cc0_scratch17.sem : SemLoc sig) ≠ SemLoc.dma cc0_scratch16.sem by decide)), (Finset.mem_erase.mpr ⟨(fun e => absurd (congrArg Prod.snd e) (show (SemLoc.dma cc0_scratch17.sem : SemLoc sig) ≠ SemLoc.dma cc0_scratch15.sem by decide)), (Finset.mem_erase.mpr ⟨(fun e => absurd (congrArg Prod.snd e) (show (SemLoc.dma cc0_scratch17.sem : SemLoc sig) ≠ SemLoc.dma cc0_scratch14.sem by decide)), (Finset.mem_erase.mpr ⟨(fun e => absurd (congrArg Prod.snd e) (show (SemLoc.dma cc0_scratch17.sem : SemLoc sig) ≠ SemLoc.dma cc0_scratch13.sem by decide)), (Finset.mem_erase.mpr ⟨(fun e => absurd (congrArg Prod.snd e) (show (SemLoc.dma cc0_scratch17.sem : SemLoc sig) ≠ SemLoc.dma cc0_scratch12.sem by decide)), (Finset.mem_erase.mpr ⟨(fun e => absurd (congrArg Prod.snd e) (show (SemLoc.dma cc0_scratch17.sem : SemLoc sig) ≠ SemLoc.dma cc0_scratch11.sem by decide)), (Finset.mem_erase.mpr ⟨(fun e => absurd (congrArg Prod.snd e) (show (SemLoc.dma cc0_scratch17.sem : SemLoc sig) ≠ SemLoc.dma cc0_scratch10.sem by decide)), (Finset.mem_erase.mpr ⟨(fun e => absurd (congrArg Prod.snd e) (show (SemLoc.dma cc0_scratch17.sem : SemLoc sig) ≠ SemLoc.dma cc0_scratch9.sem by decide)), (Finset.mem_erase.mpr ⟨(fun e => absurd (congrArg Prod.snd e) (show (SemLoc.dma cc0_scratch17.sem : SemLoc sig) ≠ SemLoc.dma cc0_scratch8.sem by decide)), (Finset.mem_erase.mpr ⟨(fun e => absurd (congrArg Prod.snd e) (show (SemLoc.dma cc0_scratch17.sem : SemLoc sig) ≠ SemLoc.dma cc0_scratch7.sem by decide)), (Finset.mem_erase.mpr ⟨(fun e => absurd (congrArg Prod.snd e) (show (SemLoc.dma cc0_scratch17.sem : SemLoc sig) ≠ SemLoc.dma cc0_scoped0.sem by decide)), ((mem_ownCells (g := dcell d L cc0_scratch17.sem)).mpr ⟨rfl, by show (SemLoc.dma cc0_scratch17.sem : SemLoc sig).isScoped .scVector = true; decide⟩)⟩)⟩)⟩)⟩)⟩)⟩)⟩)⟩)⟩)⟩)⟩),
    SparseCore.bigSep_erase' (Finset.mem_erase.mpr ⟨(fun e => absurd (congrArg Prod.snd e) (show (SemLoc.dma cc0_scratch18.sem : SemLoc sig) ≠ SemLoc.dma cc0_scratch17.sem by decide)), (Finset.mem_erase.mpr ⟨(fun e => absurd (congrArg Prod.snd e) (show (SemLoc.dma cc0_scratch18.sem : SemLoc sig) ≠ SemLoc.dma cc0_scratch16.sem by decide)), (Finset.mem_erase.mpr ⟨(fun e => absurd (congrArg Prod.snd e) (show (SemLoc.dma cc0_scratch18.sem : SemLoc sig) ≠ SemLoc.dma cc0_scratch15.sem by decide)), (Finset.mem_erase.mpr ⟨(fun e => absurd (congrArg Prod.snd e) (show (SemLoc.dma cc0_scratch18.sem : SemLoc sig) ≠ SemLoc.dma cc0_scratch14.sem by decide)), (Finset.mem_erase.mpr ⟨(fun e => absurd (congrArg Prod.snd e) (show (SemLoc.dma cc0_scratch18.sem : SemLoc sig) ≠ SemLoc.dma cc0_scratch13.sem by decide)), (Finset.mem_erase.mpr ⟨(fun e => absurd (congrArg Prod.snd e) (show (SemLoc.dma cc0_scratch18.sem : SemLoc sig) ≠ SemLoc.dma cc0_scratch12.sem by decide)), (Finset.mem_erase.mpr ⟨(fun e => absurd (congrArg Prod.snd e) (show (SemLoc.dma cc0_scratch18.sem : SemLoc sig) ≠ SemLoc.dma cc0_scratch11.sem by decide)), (Finset.mem_erase.mpr ⟨(fun e => absurd (congrArg Prod.snd e) (show (SemLoc.dma cc0_scratch18.sem : SemLoc sig) ≠ SemLoc.dma cc0_scratch10.sem by decide)), (Finset.mem_erase.mpr ⟨(fun e => absurd (congrArg Prod.snd e) (show (SemLoc.dma cc0_scratch18.sem : SemLoc sig) ≠ SemLoc.dma cc0_scratch9.sem by decide)), (Finset.mem_erase.mpr ⟨(fun e => absurd (congrArg Prod.snd e) (show (SemLoc.dma cc0_scratch18.sem : SemLoc sig) ≠ SemLoc.dma cc0_scratch8.sem by decide)), (Finset.mem_erase.mpr ⟨(fun e => absurd (congrArg Prod.snd e) (show (SemLoc.dma cc0_scratch18.sem : SemLoc sig) ≠ SemLoc.dma cc0_scratch7.sem by decide)), (Finset.mem_erase.mpr ⟨(fun e => absurd (congrArg Prod.snd e) (show (SemLoc.dma cc0_scratch18.sem : SemLoc sig) ≠ SemLoc.dma cc0_scoped0.sem by decide)), ((mem_ownCells (g := dcell d L cc0_scratch18.sem)).mpr ⟨rfl, by show (SemLoc.dma cc0_scratch18.sem : SemLoc sig).isScoped .scVector = true; decide⟩)⟩)⟩)⟩)⟩)⟩)⟩)⟩)⟩)⟩)⟩)⟩)⟩)]

set_option maxRecDepth 8192 in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f)
          ∗ bigSep ((((((((ownRefs (τ := τ) (.scVector (cT L) (jT L))).erase ((Proc.scVector (cT L) (jT L)).devRef cc0_scratch0)).erase ((Proc.scVector (cT L) (jT L)).devRef cc0_scratch1)).erase ((Proc.scVector (cT L) (jT L)).devRef cc0_scratch2)).erase ((Proc.scVector (cT L) (jT L)).devRef cc0_scratch3)).erase ((Proc.scVector (cT L) (jT L)).devRef cc0_scratch4)).erase ((Proc.scVector (cT L) (jT L)).devRef cc0_scratch5)).erase ((Proc.scVector (cT L) (jT L)).devRef cc0_scratch6))
              fun b => iprop(∃ f, ((d, b) : Loc nD τ sig) ↦{fullShare} f)) := by
  unfold SparseCore.Cfg.ownBufs
  rw [SparseCore.bigSep_erase' (SparseCore.Cfg.mem_ownRefs_of_owner (p := Proc.scVector (cT L) (jT L)) (b := (Proc.scVector (cT L) (jT L)).devRef cc0_scratch0) rfl),
    SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cT L) (jT L)) (b := (Proc.scVector (cT L) (jT L)).devRef cc0_scratch1) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cT L) (jT L)) (b := (Proc.scVector (cT L) (jT L)).devRef cc0_scratch2) rfl)⟩)⟩),
    SparseCore.bigSep_erase' (Finset.mem_erase.mpr ⟨(fun e => absurd (Proc.devRef_injective _ e) (show (cc0_scratch3 : Ref sig .scVector) ≠ cc0_scratch2 by decide)), (Finset.mem_erase.mpr ⟨(fun e => absurd (Proc.devRef_injective _ e) (show (cc0_scratch3 : Ref sig .scVector) ≠ cc0_scratch1 by decide)), (Finset.mem_erase.mpr ⟨(fun e => absurd (Proc.devRef_injective _ e) (show (cc0_scratch3 : Ref sig .scVector) ≠ cc0_scratch0 by decide)), (SparseCore.Cfg.mem_ownRefs_of_owner (p := Proc.scVector (cT L) (jT L)) (b := (Proc.scVector (cT L) (jT L)).devRef cc0_scratch3) rfl)⟩)⟩)⟩),
    SparseCore.bigSep_erase' (Finset.mem_erase.mpr ⟨(fun e => absurd (Proc.devRef_injective _ e) (show (cc0_scratch4 : Ref sig .scVector) ≠ cc0_scratch3 by decide)), (Finset.mem_erase.mpr ⟨(fun e => absurd (Proc.devRef_injective _ e) (show (cc0_scratch4 : Ref sig .scVector) ≠ cc0_scratch2 by decide)), (Finset.mem_erase.mpr ⟨(fun e => absurd (Proc.devRef_injective _ e) (show (cc0_scratch4 : Ref sig .scVector) ≠ cc0_scratch1 by decide)), (Finset.mem_erase.mpr ⟨(fun e => absurd (Proc.devRef_injective _ e) (show (cc0_scratch4 : Ref sig .scVector) ≠ cc0_scratch0 by decide)), (SparseCore.Cfg.mem_ownRefs_of_owner (p := Proc.scVector (cT L) (jT L)) (b := (Proc.scVector (cT L) (jT L)).devRef cc0_scratch4) rfl)⟩)⟩)⟩)⟩),
    SparseCore.bigSep_erase' (Finset.mem_erase.mpr ⟨(fun e => absurd (Proc.devRef_injective _ e) (show (cc0_scratch5 : Ref sig .scVector) ≠ cc0_scratch4 by decide)), (Finset.mem_erase.mpr ⟨(fun e => absurd (Proc.devRef_injective _ e) (show (cc0_scratch5 : Ref sig .scVector) ≠ cc0_scratch3 by decide)), (Finset.mem_erase.mpr ⟨(fun e => absurd (Proc.devRef_injective _ e) (show (cc0_scratch5 : Ref sig .scVector) ≠ cc0_scratch2 by decide)), (Finset.mem_erase.mpr ⟨(fun e => absurd (Proc.devRef_injective _ e) (show (cc0_scratch5 : Ref sig .scVector) ≠ cc0_scratch1 by decide)), (Finset.mem_erase.mpr ⟨(fun e => absurd (Proc.devRef_injective _ e) (show (cc0_scratch5 : Ref sig .scVector) ≠ cc0_scratch0 by decide)), (SparseCore.Cfg.mem_ownRefs_of_owner (p := Proc.scVector (cT L) (jT L)) (b := (Proc.scVector (cT L) (jT L)).devRef cc0_scratch5) rfl)⟩)⟩)⟩)⟩)⟩),
    SparseCore.bigSep_erase' (Finset.mem_erase.mpr ⟨(fun e => absurd (Proc.devRef_injective _ e) (show (cc0_scratch6 : Ref sig .scVector) ≠ cc0_scratch5 by decide)), (Finset.mem_erase.mpr ⟨(fun e => absurd (Proc.devRef_injective _ e) (show (cc0_scratch6 : Ref sig .scVector) ≠ cc0_scratch4 by decide)), (Finset.mem_erase.mpr ⟨(fun e => absurd (Proc.devRef_injective _ e) (show (cc0_scratch6 : Ref sig .scVector) ≠ cc0_scratch3 by decide)), (Finset.mem_erase.mpr ⟨(fun e => absurd (Proc.devRef_injective _ e) (show (cc0_scratch6 : Ref sig .scVector) ≠ cc0_scratch2 by decide)), (Finset.mem_erase.mpr ⟨(fun e => absurd (Proc.devRef_injective _ e) (show (cc0_scratch6 : Ref sig .scVector) ≠ cc0_scratch1 by decide)), (Finset.mem_erase.mpr ⟨(fun e => absurd (Proc.devRef_injective _ e) (show (cc0_scratch6 : Ref sig .scVector) ≠ cc0_scratch0 by decide)), (SparseCore.Cfg.mem_ownRefs_of_owner (p := Proc.scVector (cT L) (jT L)) (b := (Proc.scVector (cT L) (jT L)).devRef cc0_scratch6) rfl)⟩)⟩)⟩)⟩)⟩)⟩)]

/-- Chunk `r` of the tile's rows of an output array, as the tile addresses it. -/
abbrev pChunk (L : grid0.Coords) (r : Fin 4) : Memref sig .scVector .hbm S128x128 .f32 :=
  ((pV).slice (Rect.unit (s := S4x1x4096x128) (k0_off2 L (BitVec.ofNat 32 (128 * r.val))) S1x1x128x128.size (k0_off2_inb L r)) (fun _ => rfl)).squeeze S128x128 squeezes_S1x1x128x128_S128x128
abbrev qChunk (L : grid0.Coords) (r : Fin 4) : Memref sig .scVector .hbm S128x128 .f32 :=
  ((qV).slice (Rect.unit (s := S4x1x4096x128) (k0_off2 L (BitVec.ofNat 32 (128 * r.val))) S1x1x128x128.size (k0_off2_inb L r)) (fun _ => rfl)).squeeze S128x128 squeezes_S1x1x128x128_S128x128

theorem chunkRect_eq (r : Fin 4) :
    Rect.unit (s := S4x1x4096x128) (k0_off2 L (BitVec.ofNat 32 (128 * r.val))) S1x1x128x128.size (k0_off2_inb L r) = chunkRect (cL L) (jL L) r := by
  unfold chunkRect
  congr 1
  funext a; exact off2_eq L r a

theorem set_pChunk (r : Fin 4) : (pChunk L r).view.set = cSet (cL L) (jL L) r := by
  show (((pV).view.slice (Rect.unit (s := S4x1x4096x128) (k0_off2 L (BitVec.ofNat 32 (128 * r.val))) S1x1x128x128.size (k0_off2_inb L r))).reshape S128x128 squeezes_S1x1x128x128_S128x128.numel_eq).set = _
  rw [View.set_reshape]
  show ((View.whole (main_v0_0_scv : Ref sig .scVector)).slice _).set = _
  rw [View.set_slice_whole, chunkRect_eq]; rfl
theorem set_qChunk (r : Fin 4) : (qChunk L r).view.set = cSet (cL L) (jL L) r := by
  show (((qV).view.slice (Rect.unit (s := S4x1x4096x128) (k0_off2 L (BitVec.ofNat 32 (128 * r.val))) S1x1x128x128.size (k0_off2_inb L r))).reshape S128x128 squeezes_S1x1x128x128_S128x128.numel_eq).set = _
  rw [View.set_reshape]
  show ((View.whole (main_v0_1_scv : Ref sig .scVector)).slice _).set = _
  rw [View.set_slice_whole, chunkRect_eq]; rfl

theorem pts_p (r : Fin 4) (f : Buf (Elt F) (pLoc d)) :
    ((pChunk L r).view.loc (thr d L) ↦[(pChunk L r).view.set]{fullShare} f : sProp 𝕄) = (pLoc d ↦[cSet (cL L) (jL L) r]{fullShare} f) := by
  rw [set_pChunk]
theorem pts_q (r : Fin 4) (f : Buf (Elt F) (qLoc d)) :
    ((qChunk L r).view.loc (thr d L) ↦[(qChunk L r).view.set]{fullShare} f : sProp 𝕄) = (qLoc d ↦[cSet (cL L) (jL L) r]{fullShare} f) := by
  rw [set_qChunk]

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The list buffer by quarters -/

abbrev lSl0 : Memref sig .scVector .vmem S128 .i32 := (lV).slice (Rect.unit (s := S512) ![0] S128.size inb_S512_S128_0) (fun _ => rfl)
abbrev lSl1 : Memref sig .scVector .vmem S128 .i32 := (lV).slice (Rect.unit (s := S512) ![128] S128.size inb_S512_S128_128) (fun _ => rfl)
abbrev lSl2 : Memref sig .scVector .vmem S128 .i32 := (lV).slice (Rect.unit (s := S512) ![256] S128.size inb_S512_S128_256) (fun _ => rfl)
abbrev lSl3 : Memref sig .scVector .vmem S128 .i32 := (lV).slice (Rect.unit (s := S512) ![384] S128.size inb_S512_S128_384) (fun _ => rfl)

def lRect (k : Fin 4) : Rect S512 :=
  Rect.unit (s := S512) ![128 * k.val] ![128] (by intro a; have := k.isLt; fin_cases a; simp; omega)

theorem lRect_disjoint : ∀ k ∈ (Finset.univ : Finset (Fin 4)), ∀ k' ∈ (Finset.univ : Finset (Fin 4)), k ≠ k' → Disjoint (lRect k).set (lRect k').set := by
  intro k _ k' _ h
  unfold lRect
  refine Rect.unit_disjoint 0 ?_
  have : k.val ≠ k'.val := fun e => h (Fin.ext e)
  simp; omega

theorem lRect_cover : (Finset.univ : Finset (Fin 4)).biUnion (fun k => (lRect k).set) = Finset.univ := by
  ext x
  simp only [Finset.mem_biUnion, Finset.mem_univ, true_and, iff_true]
  have hx : (x 0).val < 512 := (x 0).isLt
  refine ⟨⟨(x 0).val / 128, by omega⟩, ?_⟩
  unfold lRect
  rw [Rect.mem_set_unit]
  intro a; fin_cases a; simp; omega

theorem set_lSl0 : (lSl0).view.set = (lRect 0).set := by
  show ((View.whole (cc0_scratch0 : Ref sig .scVector)).slice _).set = _
  rw [View.set_slice_whole]; rfl
theorem set_lSl1 : (lSl1).view.set = (lRect 1).set := by
  show ((View.whole (cc0_scratch0 : Ref sig .scVector)).slice _).set = _
  rw [View.set_slice_whole]; rfl
theorem set_lSl2 : (lSl2).view.set = (lRect 2).set := by
  show ((View.whole (cc0_scratch0 : Ref sig .scVector)).slice _).set = _
  rw [View.set_slice_whole]; rfl
theorem set_lSl3 : (lSl3).view.set = (lRect 3).set := by
  show ((View.whole (cc0_scratch0 : Ref sig .scVector)).slice _).set = _
  rw [View.set_slice_whole]; rfl

abbrev lLoc (d : Dev nD) (L : grid0.Coords) : Loc nD τ sig := (thr d L).loc cc0_scratch0

/-- The list buffer whole is its four quarters, each at two half shares. -/
theorem list_quarters (f : Buf (Elt F) (lLoc d L)) :
    (lLoc d L ↦{fullShare} f : sProp 𝕄) ⊣⊢ iprop(
      ((lLoc d L ↦[(lRect 0).set]{fullShare.left} f) ∗ (lLoc d L ↦[(lRect 0).set]{fullShare.right} f))
      ∗ ((lLoc d L ↦[(lRect 1).set]{fullShare.left} f) ∗ (lLoc d L ↦[(lRect 1).set]{fullShare.right} f))
      ∗ ((lLoc d L ↦[(lRect 2).set]{fullShare.left} f) ∗ (lLoc d L ↦[(lRect 2).set]{fullShare.right} f))
      ∗ ((lLoc d L ↦[(lRect 3).set]{fullShare.left} f) ∗ (lLoc d L ↦[(lRect 3).set]{fullShare.right} f))) := by
  have e : (lLoc d L ↦{fullShare} f : sProp 𝕄)
      = iprop((lLoc d L ↦[(lRect 0).set]{fullShare} f) ∗ (lLoc d L ↦[(lRect 1).set]{fullShare} f)
          ∗ (lLoc d L ↦[(lRect 2).set]{fullShare} f) ∗ (lLoc d L ↦[(lRect 3).set]{fullShare} f)) := by
    rw [← bigSep_fin4 (F := F) (fun k => (lLoc d L ↦[(lRect k).set]{fullShare} f : sProp 𝕄)),
      ← pointsTo_biUnion Finset.univ (ℓ := lLoc d L) (fun k => (lRect k).set) lRect_disjoint, lRect_cover]
  rw [e]
  have hh : ∀ k : Fin 4, (lLoc d L ↦[(lRect k).set]{fullShare} f : sProp 𝕄)
      ⊣⊢ iprop((lLoc d L ↦[(lRect k).set]{fullShare.left} f) ∗ (lLoc d L ↦[(lRect k).set]{fullShare.right} f)) :=
    fun k => pointsTo_share (PosShare.mem_left_op_right fullShare)
  constructor
  · iintro ⟨H0, H1, H2, H3⟩
    isplitl [H0]; · iapply (hh 0).1; iexact H0
    isplitl [H1]; · iapply (hh 1).1; iexact H1
    isplitl [H2]; · iapply (hh 2).1; iexact H2
    iapply (hh 3).1; iexact H3
  · iintro ⟨H0, H1, H2, H3⟩
    isplitl [H0]; · iapply (hh 0).2; iexact H0
    isplitl [H1]; · iapply (hh 1).2; iexact H1
    isplitl [H2]; · iapply (hh 2).2; iexact H2
    iapply (hh 3).2; iexact H3

end Tile

end Cert.Proof.KI

end
-- ==== Proof.KIValue.lean ====
/-
  The values the gather kernel moves, as index equations. A tile's list holds the position ids of its 512 positions;
  the gather of quarter r of the list into a staging buffer puts, at row k and lane l, lane l of the table's row named by
  list entry 128 r + k; and row k, lane l of chunk r of the tile's block of an output array is the array's entry at the
  tile's batch row, position 512 (w mod 8) + 128 r + k, lane l. So what lands in the chunk is the specification there.
-/
import proofs.«214962_g25580825215366_cont_9to1_529_15_alg».proof.Proof.KIBase
import Idealize.ShloMosaic.Lib.ValueIdx
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4x4096 EltTy.i32)
local notation "cV" => (Memref.whole Cert.KernelIdeal.main_arg2_scv : Memref Cert.KernelIdeal.sig Kind.scVector Space.hbm Cert.KernelIdeal.S8192x128 EltTy.f32)
local notation "sV" => (Memref.whole Cert.KernelIdeal.main_arg3_scv : Memref Cert.KernelIdeal.sig Kind.scVector Space.hbm Cert.KernelIdeal.S8192x128 EltTy.f32)
local notation "pV" => (Memref.whole Cert.KernelIdeal.main_v0_0_scv : Memref Cert.KernelIdeal.sig Kind.scVector Space.hbm Cert.KernelIdeal.S4x1x4096x128 EltTy.f32)
local notation "qV" => (Memref.whole Cert.KernelIdeal.main_v0_1_scv : Memref Cert.KernelIdeal.sig Kind.scVector Space.hbm Cert.KernelIdeal.S4x1x4096x128 EltTy.f32)
local notation "lV" => (Memref.whole Cert.KernelIdeal.cc0_scratch0 : Memref Cert.KernelIdeal.sig Kind.scVector Space.vmem Cert.KernelIdeal.S512 EltTy.i32)
local notation "b1V" => (Memref.whole Cert.KernelIdeal.cc0_scratch1 : Memref Cert.KernelIdeal.sig Kind.scVector Space.vmem Cert.KernelIdeal.S128x128 EltTy.f32)
local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)
local notation "b6V" => (Memref.whole Cert.KernelIdeal.cc0_scratch6 : Memref Cert.KernelIdeal.sig Kind.scVector Space.vmem Cert.KernelIdeal.S128x128 EltTy.f32)

variable (m : (ℓ : Loc nD τ sig) → Buf (Elt F) ℓ) (d : Dev nD) (L : grid0.Coords)

/-- The tile's 512 position ids in the position array, as the tile addresses them. -/
abbrev iRowK (L : grid0.Coords) : Memref sig .scVector .hbm S512 .i32 :=
  ((iV).slice (Rect.unit (s := S4x4096) (k0_off1 L) S1x512.size (k0_off1_inb L)) (fun _ => rfl)).squeeze S512 squeezes_S1x512_S512
abbrev cAll : Memref sig .scVector .hbm S8192x128 .f32 :=
  (cV).slice (Rect.unit (s := S8192x128) ![0, 0] S8192x128.size inb_S8192x128_S8192x128_0_0) (fun _ => rfl)
abbrev sAll : Memref sig .scVector .hbm S8192x128 .f32 :=
  (sV).slice (Rect.unit (s := S8192x128) ![0, 0] S8192x128.size inb_S8192x128_S8192x128_0_0) (fun _ => rfl)
/-- The 128 list entries from `o` on. -/
abbrev lSlO (o : ℕ) (h : ∀ a, (![o] : Fin 1 → ℕ) a + S128.size a ≤ S512.size a) : Memref sig .scVector .vmem S128 .i32 :=
  (lV).slice (Rect.unit (s := S512) ![o] S128.size h) (fun _ => rfl)

/-- What the two output arrays end as. -/
abbrev Gp (d : Dev nD) : Buf (Elt F) (pLoc d) := Cert.Spec.gatherRows (m (cLoc d)) (m (iLoc d))
abbrev Gq (d : Dev nD) : Buf (Elt F) (qLoc d) := Cert.Spec.gatherRows (m (sLoc d)) (m (iLoc d))

theorem wN_lt (c : Fin 2) (s : Fin 16) : wN c s < 32 := by have := c.isLt; have := s.isLt; unfold wN; omega

theorem reshape_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    simp only [Nat.zero_mul, Nat.zero_add])

/-- Entry x of the tile's rows of the position array is the array's entry at the tile's batch row and position. -/
theorem iRow_emb (x : Fin 512) :
    (iRowK L).view.emb (ix1 x) = (ix2 (⟨wN (cL L) (jL L) / 8, by have := wN_lt (cL L) (jL L); omega⟩ : Fin 4)
      (⟨(wN (cL L) (jL L) % 8) * 512 + x.val, by have := x.isLt; omega⟩ : Fin 4096) : S4x4096.Idx) := by
  have e : (iRowK L).view.emb (ix1 x)
      = (Rect.unit (s := S4x4096) (k0_off1 L) S1x512.size (k0_off1_inb L)).emb (Shape.reshapeEquiv squeezes_S1x512_S512.numel_eq (ix1 x)) := rfl
  rw [e, reshape_1a]
  funext a
  apply Fin.ext
  show k0_off1 L a + 1 * ((ix2 (⟨0, Nat.one_pos⟩ : Fin 1) x : S1x512.Idx) a).val = _
  rw [off1_eq]
  fin_cases a
  · simp
  · simp

/-- Row y0, lane y1 of chunk r of the tile's block of the first output array. -/
theorem pChunk_emb (r : Fin 4) (y0 y1 : Fin 128) :
    (pChunk L r).view.emb (ix2 y0 y1) = (ix4 (⟨wN (cL L) (jL L) / 8, by have := wN_lt (cL L) (jL L); omega⟩ : Fin 4) (⟨0, Nat.one_pos⟩ : Fin 1)
      (⟨(wN (cL L) (jL L) % 8) * 512 + 128 * r.val + y0.val, by have := y0.isLt; have := r.isLt; omega⟩ : Fin 4096) y1 : S4x1x4096x128.Idx) := by
  have e : (pChunk L r).view.emb (ix2 y0 y1)
      = (Rect.unit (s := S4x1x4096x128) (k0_off2 L (BitVec.ofNat 32 (128 * r.val))) S1x1x128x128.size (k0_off2_inb L r)).emb
          (Shape.reshapeEquiv squeezes_S1x1x128x128_S128x128.numel_eq (ix2 y0 y1)) := rfl
  rw [e, reshapeEquiv_ix2_11ab]
  funext a
  apply Fin.ext
  show k0_off2 L (BitVec.ofNat 32 (128 * r.val)) a + 1 * ((ix4 (⟨0, Nat.one_pos⟩ : Fin 1) (⟨0, Nat.one_pos⟩ : Fin 1) y0 y1 : S1x1x128x128.Idx) a).val = _
  rw [off2_eq]
  fin_cases a <;> simp

theorem qChunk_emb (r : Fin 4) (y0 y1 : Fin 128) :
    (qChunk L r).view.emb (ix2 y0 y1) = (ix4 (⟨wN (cL L) (jL L) / 8, by have := wN_lt (cL L) (jL L); omega⟩ : Fin 4) (⟨0, Nat.one_pos⟩ : Fin 1)
      (⟨(wN (cL L) (jL L) % 8) * 512 + 128 * r.val + y0.val, by have := y0.isLt; have := r.isLt; omega⟩ : Fin 4096) y1 : S4x1x4096x128.Idx) := by
  have e : (qChunk L r).view.emb (ix2 y0 y1)
      = (Rect.unit (s := S4x1x4096x128) (k0_off2 L (BitVec.ofNat 32 (128 * r.val))) S1x1x128x128.size (k0_off2_inb L r)).emb
          (Shape.reshapeEquiv squeezes_S1x1x128x128_S128x128.numel_eq (ix2 y0 y1)) := rfl
  rw [e, reshapeEquiv_ix2_11ab]
  funext a
  apply Fin.ext
  show k0_off2 L (BitVec.ofNat 32 (128 * r.val)) a + 1 * ((ix4 (⟨0, Nat.one_pos⟩ : Fin 1) (⟨0, Nat.one_pos⟩ : Fin 1) y0 y1 : S1x1x128x128.Idx) a).val = _
  rw [off2_eq]
  fin_cases a <;> simp

/-- Entry x of the list's quarter from `o` on is entry o + x of the list. -/
theorem lSl_emb (o : ℕ) (h : ∀ a, (![o] : Fin 1 → ℕ) a + S128.size a ≤ S512.size a) (x : Fin 128) :
    (lSlO o h).view.emb (ix1 x) = (ix1 (⟨o + x.val, by have h0 : o + 128 ≤ 512 := h 0; have := x.isLt; omega⟩ : Fin 512) : S512.Idx) := by
  funext a
  apply Fin.ext
  show (![o] : Fin 1 → ℕ) a + 1 * ((ix1 x : S128.Idx) a).val = _
  fin_cases a; simp

/-- Row k of the table, lane l, through the table's whole-array window. -/
theorem cAll_emb (k : Fin 8192) (l : Fin 128) : (cAll).view.emb (ix2 k l) = (ix2 k l : S8192x128.Idx) := by
  funext a
  apply Fin.ext
  show (![0, 0] : Fin 2 → ℕ) a + 1 * ((ix2 k l : S8192x128.Idx) a).val = _
  fin_cases a <;> simp
theorem sAll_emb (k : Fin 8192) (l : Fin 128) : (sAll).view.emb (ix2 k l) = (ix2 k l : S8192x128.Idx) := by
  funext a
  apply Fin.ext
  show (![0, 0] : Fin 2 → ℕ) a + 1 * ((ix2 k l : S8192x128.Idx) a).val = _
  fin_cases a <;> simp

/-- The gather's source index at row y0, lane y1 of the staging buffer: the row the list names, the same lane. -/
theorem gidx (rws : Fin (S128x128.size gathers_S8192x128_S128x128.axis') → Fin (S8192x128.size gathers_S8192x128_S128x128.axis)) (y0 y1 : Fin 128) :
    gathers_S8192x128_S128x128.idx rws (ix2 y0 y1) = (ix2 (rws y0) y1 : S8192x128.Idx) := by
  funext a
  apply Fin.ext
  fin_cases a
  · exact congrArg Fin.val (Shape.Gathers.idx_axis gathers_S8192x128_S128x128 rws (ix2 y0 y1))
  · exact Shape.Gathers.idx_of_ne gathers_S8192x128_S128x128 rws (ix2 y0 y1) 1 (by decide)

/-- The k-th row an offset list of 128 words names is its k-th word. -/
theorem rows_val (idxf : S128.Idx → Elt F .i32) (hn : S128.numel = S128x128.size gathers_S8192x128_S128x128.axis')
    (hin : ∀ x, (idxf x).toNat < S8192x128.size gathers_S8192x128_S128x128.axis) (k : Fin 128) :
    (SparseCore.rows idxf hn hin k).val = (idxf (ix1 k)).toNat := by
  unfold SparseCore.rows
  show (idxf (S128.rowMajor.symm (k.cast hn.symm))).toNat = _
  congr 2
  rw [Equiv.symm_apply_eq]
  apply Fin.ext
  rw [Shape.rowMajor_val_one]
  rfl

/-- The position ids below 4096: what the certificate's precondition says of the position array. -/
def PreOK : Prop := ∀ (d : Dev nD) (j : S4x4096.Idx), (m (iLoc d) j).toNat < 4096

/-- What the tile's list holds once the tile has fetched its position ids, whatever it held before. -/
abbrev lstOf (fl : (lV).view.ty.Contents (Elt F)) : (lV).view.ty.Contents (Elt F) :=
  View.write (Elt F) (lV).view fl (ReadAs.same.apply (View.read (Elt F) (iRowK L).view (m (iLoc d)))) Finset.univ

theorem lst_entry (fl : (lV).view.ty.Contents (Elt F)) (x : Fin 512) :
    lstOf m d L fl (ix1 x) = m (iLoc d) (ix2 (⟨wN (cL L) (jL L) / 8, by have := wN_lt (cL L) (jL L); omega⟩ : Fin 4)
      (⟨(wN (cL L) (jL L) % 8) * 512 + x.val, by have := x.isLt; omega⟩ : Fin 4096)) := by
  unfold lstOf
  rw [View.write_whole_univ, ReadAs.apply_same]
  show m (iLoc d) ((iRowK L).view.emb (ix1 x)) = _
  rw [iRow_emb]

/-- Every list entry names a row of the tables. -/
theorem lst_inb (hpre : PreOK m) (fl : (lV).view.ty.Contents (Elt F)) (x : S512.Idx) :
    ((lV).view.read (Elt F) (lstOf m d L fl) x).toNat < 8192 := by
  obtain ⟨p, rfl⟩ : ∃ p : Fin 512, x = ix1 p := ⟨x 0, eq_ix1 x⟩
  show (lstOf m d L fl (ix1 p)).toNat < 8192
  rw [lst_entry]
  exact lt_trans (hpre d _) (by decide)

/-- The cosine rows gathered through quarter r of the list are the specification on chunk r of the tile's block. -/
theorem chunk_val_p (hpre : PreOK m) (fl : (lV).view.ty.Contents (Elt F)) (r : Fin 4)
    (h : ∀ a, (![128 * r.val] : Fin 1 → ℕ) a + S128.size a ≤ S512.size a)
    (hn : S128.numel = S128x128.size gathers_S8192x128_S128x128.axis')
    (hin : ∀ x, ((lSlO (128 * r.val) h).view.read (Elt F) (lstOf m d L fl) x).toNat < S8192x128.size gathers_S8192x128_S128x128.axis)
    (y : S128x128.Idx) :
    SparseCore.gatherPayload gathers_S8192x128_S128x128 (View.read (Elt F) (cAll).view (m (cLoc d)))
        (SparseCore.rows (View.read (Elt F) (lSlO (128 * r.val) h).view (lstOf m d L fl)) hn hin) y
      = Gp m d ((pChunk L r).view.emb y) := by
  obtain ⟨y0, y1, rfl⟩ : ∃ (y0 y1 : Fin 128), y = ix2 y0 y1 := ⟨y 0, y 1, eq_ix2 y⟩
  rw [pChunk_emb]
  unfold SparseCore.gatherPayload
  rw [gidx]
  refine (congrArg (m (cLoc d)) (cAll_emb (SparseCore.rows (View.read (Elt F) (lSlO (128 * r.val) h).view (lstOf m d L fl)) hn hin y0) y1)).trans ?_
  unfold Gp Cert.Spec.gatherRows
  congr 1
  funext a
  apply Fin.ext
  fin_cases a
  · show (SparseCore.rows _ hn hin y0).val = _
    rw [rows_val]
    show (lstOf m d L fl ((lSlO (128 * r.val) h).view.emb (ix1 y0))).toNat = _
    rw [lSl_emb, lst_entry]
    have hmod : ∀ j : S4x4096.Idx, (m (iLoc d) j).toNat % 8192 = (m (iLoc d) j).toNat :=
      fun j => Nat.mod_eq_of_lt (lt_trans (hpre d j) (by decide))
    show _ = (m (iLoc d) _).toNat % 8192
    rw [hmod]
    congr 2
    funext a
    fin_cases a
    · rfl
    · apply Fin.ext
      show _ + (_ + _) = _ + _ + _
      omega
  · rfl

/-- The sine rows gathered through quarter r of the list are the specification on chunk r of the tile's block. -/
theorem chunk_val_q (hpre : PreOK m) (fl : (lV).view.ty.Contents (Elt F)) (r : Fin 4)
    (h : ∀ a, (![128 * r.val] : Fin 1 → ℕ) a + S128.size a ≤ S512.size a)
    (hn : S128.numel = S128x128.size gathers_S8192x128_S128x128.axis')
    (hin : ∀ x, ((lSlO (128 * r.val) h).view.read (Elt F) (lstOf m d L fl) x).toNat < S8192x128.size gathers_S8192x128_S128x128.axis)
    (y : S128x128.Idx) :
    SparseCore.gatherPayload gathers_S8192x128_S128x128 (View.read (Elt F) (sAll).view (m (sLoc d)))
        (SparseCore.rows (View.read (Elt F) (lSlO (128 * r.val) h).view (lstOf m d L fl)) hn hin) y
      = Gq m d ((qChunk L r).view.emb y) := by
  obtain ⟨y0, y1, rfl⟩ : ∃ (y0 y1 : Fin 128), y = ix2 y0 y1 := ⟨y 0, y 1, eq_ix2 y⟩
  rw [qChunk_emb]
  unfold SparseCore.gatherPayload
  rw [gidx]
  refine (congrArg (m (sLoc d)) (sAll_emb (SparseCore.rows (View.read (Elt F) (lSlO (128 * r.val) h).view (lstOf m d L fl)) hn hin y0) y1)).trans ?_
  unfold Gq Cert.Spec.gatherRows
  congr 1
  funext a
  apply Fin.ext
  fin_cases a
  · show (SparseCore.rows _ hn hin y0).val = _
    rw [rows_val]
    show (lstOf m d L fl ((lSlO (128 * r.val) h).view.emb (ix1 y0))).toNat = _
    rw [lSl_emb, lst_entry]
    have hmod : ∀ j : S4x4096.Idx, (m (iLoc d) j).toNat % 8192 = (m (iLoc d) j).toNat :=
      fun j => Nat.mod_eq_of_lt (lt_trans (hpre d j) (by decide))
    show _ = (m (iLoc d) _).toNat % 8192
    rw [hmod]
    congr 2
    funext a
    fin_cases a
    · rfl
    · apply Fin.ext
      show _ + (_ + _) = _ + _ + _
      omega
  · rfl

/-- A staging buffer read whole right after a gather filled it whole is the gather's payload. -/
theorem staged (v : View sig .scVector .vmem S128x128 .f32) (fK : v.ty.Contents (Elt F)) (g : S128x128.Idx → Elt F .f32)
    (Ls : List (View.Piece (Elt F) S128x128 .f32)) (y : S128x128.Idx) :
    ReadAs.same.apply (View.read (Elt F) v (v.writes (Elt F) fK (⟨Rect.whole S128x128, g⟩ :: Ls))) y = g y := by
  rw [ReadAs.apply_same]
  have h := View.read_writes_cons_emb v fK (Rect.whole S128x128) g Ls y
  rwa [Rect.emb_whole_apply] at h

end Cert.Proof.KI

end
-- ==== Proof.KIBody.lean ====
/-
  One tile's task. The tile copies its 512 position ids into its list buffer and waits; then, three gathers ahead, for
  each of eight tasks (chunk r of the cosine table for even tasks, of the sine table for odd ones) it waits for the
  task's gather into one of six staging buffers, starts the copy of that buffer to chunk r of the matching output and,
  before reusing a staging buffer for a later gather, waits for that buffer's copy-out. Every staging buffer has its own
  two semaphores, so at most one transfer is ever outstanding on a semaphore. The tile holds a share of the position
  array and of each table (read only), its eight output chunks outright, and ends with every chunk at the specification.
-/
import proofs.«214962_g25580825215366_cont_9to1_529_15_alg».proof.Proof.KIBase
import proofs.«214962_g25580825215366_cont_9to1_529_15_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4x4096 EltTy.i32)
local notation "cV" => (Memref.whole Cert.KernelIdeal.main_arg2_scv : Memref Cert.KernelIdeal.sig Kind.scVector Space.hbm Cert.KernelIdeal.S8192x128 EltTy.f32)
local notation "sV" => (Memref.whole Cert.KernelIdeal.main_arg3_scv : Memref Cert.KernelIdeal.sig Kind.scVector Space.hbm Cert.KernelIdeal.S8192x128 EltTy.f32)
local notation "pV" => (Memref.whole Cert.KernelIdeal.main_v0_0_scv : Memref Cert.KernelIdeal.sig Kind.scVector Space.hbm Cert.KernelIdeal.S4x1x4096x128 EltTy.f32)
local notation "qV" => (Memref.whole Cert.KernelIdeal.main_v0_1_scv : Memref Cert.KernelIdeal.sig Kind.scVector Space.hbm Cert.KernelIdeal.S4x1x4096x128 EltTy.f32)
local notation "lV" => (Memref.whole Cert.KernelIdeal.cc0_scratch0 : Memref Cert.KernelIdeal.sig Kind.scVector Space.vmem Cert.KernelIdeal.S512 EltTy.i32)
local notation "b1V" => (Memref.whole Cert.KernelIdeal.cc0_scratch1 : Memref Cert.KernelIdeal.sig Kind.scVector Space.vmem Cert.KernelIdeal.S128x128 EltTy.f32)
local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)
local notation "b6V" => (Memref.whole Cert.KernelIdeal.cc0_scratch6 : Memref Cert.KernelIdeal.sig Kind.scVector Space.vmem Cert.KernelIdeal.S128x128 EltTy.f32)

variable (m : (ℓ : Loc nD τ sig) → Buf (Elt F) ℓ)

/-- Tile (c, s)'s share of an array all tiles read: the full share cut in two for the SparseCores, each half in sixteen. -/
abbrev tq (c : Fin 2) (s : Fin 16) : PosShare TreeShare := pieceOf (pieceOf fullShare 2 (by decide) c) 16 (by decide) s

/-- What tile (c, s) works with: its shares of the position array and the two tables, and its four chunks of each
    output array, those at contents `fp` and `fq`. -/
def goR (d : Dev nD) (c : Fin 2) (s : Fin 16) (fp : Buf (Elt F) (pLoc d)) (fq : Buf (Elt F) (qLoc d)) : sProp 𝕄 :=
  iprop((iLoc d ↦{tq c s} m (iLoc d)) ∗ (cLoc d ↦{tq c s} m (cLoc d)) ∗ (sLoc d ↦{tq c s} m (sLoc d))
    ∗ (bigSep Finset.univ fun r : Fin 4 => pLoc d ↦[cSet c s r]{fullShare} fp)
    ∗ (bigSep Finset.univ fun r : Fin 4 => qLoc d ↦[cSet c s r]{fullShare} fq))

theorem range6 (Φ : ℕ → sProp 𝕄) : bigSep (Finset.range 6) Φ = iprop(Φ 0 ∗ Φ 1 ∗ Φ 2 ∗ Φ 3 ∗ Φ 4 ∗ Φ 5) := by
  rw [show Finset.range 6 = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-- A read share as six read tokens, one per staging buffer's gather semaphore, and a remainder. -/
theorem toks6 {ℓ : Loc nD τ sig} (q : PosShare TreeShare) (f : Buf (Elt F) ℓ) :
    (ℓ ↦{q} f : sProp 𝕄) ⊣⊢ iprop((ℓ ↦{Transfers.shareDrop q 6} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f) ∗ (ℓ ↦{Transfers.shareTokN q 5} f)) := by
  have h := Transfers.pointsTo_toks_range (ℓ := ℓ) (S := Finset.univ) (f := f) (Lvl := ℕ) (Name := ℕ) (U := UU) (Ix := HIx 1) q 6
  rw [range6] at h
  exact h

/-- A chunk written whole with a payload that is the function `G` there holds `G`. -/
theorem out_congr {c : Thread nD τ} (v : View sig c.2.kind .hbm S128x128 .f32) (f0 G : Buf (Elt F) (v.loc c))
    (pay : S128x128.Idx → Elt F .f32) (h : ∀ y, pay y = v.read (Elt F) G y) :
    (v.loc c ↦[v.set]{fullShare} v.writes (Elt F) f0 [⟨Rect.whole S128x128, pay⟩] : sProp 𝕄) = (v.loc c ↦[v.set]{fullShare} G) :=
  pointsTo_congr fun i hi => by
    obtain ⟨x, -, rfl⟩ := Finset.mem_map.mp hi
    have h1 := View.read_writes_cons_emb v f0 (Rect.whole S128x128) pay [] x
    rw [Rect.emb_whole_apply] at h1
    have h2 := h1.trans (h x)
    rw [View.read_apply, View.read_apply] at h2
    exact (cast_inj _).1 h2

theorem waits_insert {W' W : Waits sig (HIx 1)} {x : SemLoc sig × HIx 1} (hx : x.2 = none)
    (h : ∀ p ∈ W', p ∈ W ∨ p.2 = none) : ∀ p ∈ insert x W', p ∈ W ∨ p.2 = none := by
  intro p hp
  rcases Finset.mem_insert.mp hp with hp | hp
  · exact .inr (hp ▸ hx)
  · exact h p hp

/-- An assertion set aside: the same assertion, kept folded until it is needed. -/
def Hid (P : sProp 𝕄) : sProp 𝕄 := P
theorem hid_eq (P : sProp 𝕄) : Hid P = P := rfl

section Tile

variable (d : Dev nD) (L : grid0.Coords)

theorem pts_hbm (b : Ref sig .scVector) (q : PosShare TreeShare) (f : Buf (Elt F) ((thr d L).loc b)) :
    (((Memref.whole b).view.loc (thr d L) ↦{q} f : sProp 𝕄)) = ((thr d L).loc b ↦{q} f) := rfl

theorem pts_l0 (q : PosShare TreeShare) (f : Buf (Elt F) (lLoc d L)) :
    ((lLoc d L ↦[(lRect 0).set]{q} f : sProp 𝕄)) = ((lSl0).view.loc (thr d L) ↦[(lSl0).view.set]{q} f) := by rw [set_lSl0]
theorem pts_l1 (q : PosShare TreeShare) (f : Buf (Elt F) (lLoc d L)) :
    ((lLoc d L ↦[(lRect 1).set]{q} f : sProp 𝕄)) = ((lSl1).view.loc (thr d L) ↦[(lSl1).view.set]{q} f) := by rw [set_lSl1]
theorem pts_l2 (q : PosShare TreeShare) (f : Buf (Elt F) (lLoc d L)) :
    ((lLoc d L ↦[(lRect 2).set]{q} f : sProp 𝕄)) = ((lSl2).view.loc (thr d L) ↦[(lSl2).view.set]{q} f) := by rw [set_lSl2]
theorem pts_l3 (q : PosShare TreeShare) (f : Buf (Elt F) (lLoc d L)) :
    ((lLoc d L ↦[(lRect 3).set]{q} f : sProp 𝕄)) = ((lSl3).view.loc (thr d L) ↦[(lSl3).view.set]{q} f) := by rw [set_lSl3]

variable [FloatOps F]

set_option maxHeartbeats 8000000 in
set_option maxRecDepth 16384 in
/-- The task on the vector subcore at coordinates `L` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goR m d (cL L) (jL L) (m (pLoc d)) (m (qLoc d))
        ∗ scopedBufs (thr d L) ∗ scopedSems0 (thr d L) ∗ owes (thr d L) O W)
      ⊢ wp frame (wpE (defs₀ (F := F)) 𝒱₀ (thr d L) none) Set.univ
          (cc0_k L cV (Memref.isWhole_whole _) sV (Memref.isWhole_whole _) iV (Memref.isWhole_whole _) pV (Memref.isWhole_whole _) qV (Memref.isWhole_whole _)
            lV (Memref.isWhole_whole _) b1V (Memref.isWhole_whole _) b2V (Memref.isWhole_whole _) b3V (Memref.isWhole_whole _)
            b4V (Memref.isWhole_whole _) b5V (Memref.isWhole_whole _) b6V (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(goR m d (cL L) (jL L) (Gp m d) (Gq m d)
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  rw [(K (F := F)).scopedBufs_V hF d (cT L) (jT L), SparseCore.Cfg.scopedSems0_V (Val := Elt F) d (cT L) (jT L), ownSems0_V, ownBufs_V]
  unfold goR
  rw [bigSep_fin4, bigSep_fin4, bigSep_fin4, bigSep_fin4]
  iintro ⟨#Hlv, -, ⟨Hi, Hc, Hs, ⟨Hp0, Hp1, Hp2, Hp3⟩, ⟨Hq0, Hq1, Hq2, Hq3⟩⟩, ⟨⟨%fl, Hl⟩, ⟨%f1, H1⟩, ⟨%f2, H2⟩, ⟨%f3, H3⟩, ⟨%f4, H4⟩, ⟨%f5, H5⟩, ⟨%f6, H6⟩, Hbufs⟩,
    ⟨HsemX, Hsems⟩, HO⟩
  ihave Hmw := (show levAts (K (F := F)).L (K (F := F)).lev ⊢ Transfers.MayWaits (thr d L) (default : HIx 1) O from
    (K (F := F)).mayWaits_none (thr := thr d L) hO) $$ Hlv
  ihave Hsems := (Entails.of_eq (hid_eq (F := F) _).symm) $$ Hsems
  ihave Hi := (Entails.of_eq (pts_hbm (F := F) d L main_arg1_scv _ _).symm) $$ Hi
  ihave Hl := (Entails.of_eq (pts_hbm (F := F) d L cc0_scratch0 _ _).symm) $$ Hl
  sl_exec
  have hin : ∀ x, ((lV).view.read (Elt F) (View.write (Elt F) (lV).view fl (tile_body.sl.dma0 m d L) Finset.univ) x).toNat < 8192 :=
    lst_inb m d L hpre fl
  ihave Hc := (toks6 (F := F) _ _).1 $$ Hc
  icases Hc with ⟨HcR, Hc0, Hc1, Hc2, Hc3, Hc4, Hc5⟩
  ihave Hs := (toks6 (F := F) _ _).1 $$ Hs
  icases Hs with ⟨HsR, Hs0, Hs1, Hs2, Hs3, Hs4, Hs5⟩
  ihave Hc0 := (Entails.of_eq (pts_hbm (F := F) d L main_arg2_scv _ _).symm) $$ Hc0
  ihave Hc2 := (Entails.of_eq (pts_hbm (F := F) d L main_arg2_scv _ _).symm) $$ Hc2
  ihave Hc4 := (Entails.of_eq (pts_hbm (F := F) d L main_arg2_scv _ _).symm) $$ Hc4
  ihave Hs1 := (Entails.of_eq (pts_hbm (F := F) d L main_arg3_scv _ _).symm) $$ Hs1
  ihave Hs3 := (Entails.of_eq (pts_hbm (F := F) d L main_arg3_scv _ _).symm) $$ Hs3
  ihave Hs5 := (Entails.of_eq (pts_hbm (F := F) d L main_arg3_scv _ _).symm) $$ Hs5
  ihave Hp0 := (Entails.of_eq (pts_p (F := F) d L 0 _).symm) $$ Hp0
  ihave Hq0 := (Entails.of_eq (pts_q (F := F) d L 0 _).symm) $$ Hq0
  ihave Hp1 := (Entails.of_eq (pts_p (F := F) d L 1 _).symm) $$ Hp1
  ihave Hq1 := (Entails.of_eq (pts_q (F := F) d L 1 _).symm) $$ Hq1
  ihave Hp2 := (Entails.of_eq (pts_p (F := F) d L 2 _).symm) $$ Hp2
  ihave Hq2 := (Entails.of_eq (pts_q (F := F) d L 2 _).symm) $$ Hq2
  ihave Hp3 := (Entails.of_eq (pts_p (F := F) d L 3 _).symm) $$ Hp3
  ihave Hq3 := (Entails.of_eq (pts_q (F := F) d L 3 _).symm) $$ Hq3
  ihave H1 := (Entails.of_eq (pts_hbm (F := F) d L cc0_scratch1 _ _).symm) $$ H1
  ihave H2 := (Entails.of_eq (pts_hbm (F := F) d L cc0_scratch2 _ _).symm) $$ H2
  ihave H3 := (Entails.of_eq (pts_hbm (F := F) d L cc0_scratch3 _ _).symm) $$ H3
  ihave H4 := (Entails.of_eq (pts_hbm (F := F) d L cc0_scratch4 _ _).symm) $$ H4
  ihave H5 := (Entails.of_eq (pts_hbm (F := F) d L cc0_scratch5 _ _).symm) $$ H5
  ihave H6 := (Entails.of_eq (pts_hbm (F := F) d L cc0_scratch6 _ _).symm) $$ H6
  ihave Hl := (Entails.of_eq (pts_hbm (F := F) d L cc0_scratch0 _ _)) $$ Hl
  ihave Hl := (list_quarters (F := F) d L _).1 $$ Hl
  icases Hl with ⟨⟨Hl0a, Hl0b⟩, ⟨Hl1a, Hl1b⟩, ⟨Hl2a, Hl2b⟩, ⟨Hl3a, Hl3b⟩⟩
  ihave Hl0a := (Entails.of_eq (pts_l0 (F := F) d L _ _)) $$ Hl0a
  ihave Hl0b := (Entails.of_eq (pts_l0 (F := F) d L _ _)) $$ Hl0b
  ihave Hl1a := (Entails.of_eq (pts_l1 (F := F) d L _ _)) $$ Hl1a
  ihave Hl1b := (Entails.of_eq (pts_l1 (F := F) d L _ _)) $$ Hl1b
  ihave Hl2a := (Entails.of_eq (pts_l2 (F := F) d L _ _)) $$ Hl2a
  ihave Hl2b := (Entails.of_eq (pts_l2 (F := F) d L _ _)) $$ Hl2b
  ihave Hl3a := (Entails.of_eq (pts_l3 (F := F) d L _ _)) $$ Hl3a
  ihave Hl3b := (Entails.of_eq (pts_l3 (F := F) d L _ _)) $$ Hl3b
  ihave Hsems := (Entails.of_eq (hid_eq (F := F) _)) $$ Hsems
  icases Hsems with ⟨Hsem7, Hsem8, Hsem9, Hsem10, Hsem11, Hsem12, Hsem13, Hsem14, Hsem15, Hsem16, Hsem17, Hsem18, Hsems⟩
  sl_exec
  sl_step
  have vp0 : ∀ y, tile_body.sl.dma0_1 m d L fl f1 hin y = (pChunk L 0).view.read (Elt F) (Gp m d) y := fun y => by
    sl_unfold_run_names
    refine (staged _ _ _ _ y).trans ?_
    exact chunk_val_p m d L hpre fl 0 _ _ _ y
  ihave Hp0 := (Entails.of_eq (out_congr (F := F) (c := thr d L) (pChunk L 0).view _ (Gp m d) _ vp0)) $$ Hp0
  ihave Hp0 := (Entails.of_eq (pts_p (F := F) d L 0 _)) $$ Hp0
  have vq0 : ∀ y, tile_body.sl.dma0_2 m d L fl f2 hin y = (qChunk L 0).view.read (Elt F) (Gq m d) y := fun y => by
    sl_unfold_run_names
    refine (staged _ _ _ _ y).trans ?_
    exact chunk_val_q m d L hpre fl 0 _ _ _ y
  ihave Hq0 := (Entails.of_eq (out_congr (F := F) (c := thr d L) (qChunk L 0).view _ (Gq m d) _ vq0)) $$ Hq0
  ihave Hq0 := (Entails.of_eq (pts_q (F := F) d L 0 _)) $$ Hq0
  have vp1 : ∀ y, tile_body.sl.dma0_3 m d L fl f3 hin y = (pChunk L 1).view.read (Elt F) (Gp m d) y := fun y => by
    sl_unfold_run_names
    refine (staged _ _ _ _ y).trans ?_
    exact chunk_val_p m d L hpre fl 1 _ _ _ y
  ihave Hp1 := (Entails.of_eq (out_congr (F := F) (c := thr d L) (pChunk L 1).view _ (Gp m d) _ vp1)) $$ Hp1
  ihave Hp1 := (Entails.of_eq (pts_p (F := F) d L 1 _)) $$ Hp1
  have vq1 : ∀ y, tile_body.sl.dma0_4 m d L fl f4 hin y = (qChunk L 1).view.read (Elt F) (Gq m d) y := fun y => by
    sl_unfold_run_names
    refine (staged _ _ _ _ y).trans ?_
    exact chunk_val_q m d L hpre fl 1 _ _ _ y
  ihave Hq1 := (Entails.of_eq (out_congr (F := F) (c := thr d L) (qChunk L 1).view _ (Gq m d) _ vq1)) $$ Hq1
  ihave Hq1 := (Entails.of_eq (pts_q (F := F) d L 1 _)) $$ Hq1
  have vp2 : ∀ y, tile_body.sl.dma0_5 m d L fl f5 hin y = (pChunk L 2).view.read (Elt F) (Gp m d) y := fun y => by
    sl_unfold_run_names
    refine (staged _ _ _ _ y).trans ?_
    exact chunk_val_p m d L hpre fl 2 _ _ _ y
  ihave Hp2 := (Entails.of_eq (out_congr (F := F) (c := thr d L) (pChunk L 2).view _ (Gp m d) _ vp2)) $$ Hp2
  ihave Hp2 := (Entails.of_eq (pts_p (F := F) d L 2 _)) $$ Hp2
  have vq2 : ∀ y, tile_body.sl.dma0_6 m d L fl f6 hin y = (qChunk L 2).view.read (Elt F) (Gq m d) y := fun y => by
    sl_unfold_run_names
    refine (staged _ _ _ _ y).trans ?_
    exact chunk_val_q m d L hpre fl 2 _ _ _ y
  ihave Hq2 := (Entails.of_eq (out_congr (F := F) (c := thr d L) (qChunk L 2).view _ (Gq m d) _ vq2)) $$ Hq2
  ihave Hq2 := (Entails.of_eq (pts_q (F := F) d L 2 _)) $$ Hq2
  have vp3 : ∀ y, tile_body.sl.dma0_7 m d L fl f1 hin y = (pChunk L 3).view.read (Elt F) (Gp m d) y := fun y => by
    sl_unfold_run_names
    refine (staged _ _ _ _ y).trans ?_
    exact chunk_val_p m d L hpre fl 3 _ _ _ y
  ihave Hp3 := (Entails.of_eq (out_congr (F := F) (c := thr d L) (pChunk L 3).view _ (Gp m d) _ vp3)) $$ Hp3
  ihave Hp3 := (Entails.of_eq (pts_p (F := F) d L 3 _)) $$ Hp3
  have vq3 : ∀ y, tile_body.sl.dma0_8 m d L fl f2 hin y = (qChunk L 3).view.read (Elt F) (Gq m d) y := fun y => by
    sl_unfold_run_names
    refine (staged _ _ _ _ y).trans ?_
    exact chunk_val_q m d L hpre fl 3 _ _ _ y
  ihave Hq3 := (Entails.of_eq (out_congr (F := F) (c := thr d L) (qChunk L 3).view _ (Gq m d) _ vq3)) $$ Hq3
  ihave Hq3 := (Entails.of_eq (pts_q (F := F) d L 3 _)) $$ Hq3
  ihave Hc0 := (Entails.of_eq (pts_hbm (F := F) d L main_arg2_scv _ _)) $$ Hc0
  ihave Hc2 := (Entails.of_eq (pts_hbm (F := F) d L main_arg2_scv _ _)) $$ Hc2
  ihave Hc4 := (Entails.of_eq (pts_hbm (F := F) d L main_arg2_scv _ _)) $$ Hc4
  ihave Hs1 := (Entails.of_eq (pts_hbm (F := F) d L main_arg3_scv _ _)) $$ Hs1
  ihave Hs3 := (Entails.of_eq (pts_hbm (F := F) d L main_arg3_scv _ _)) $$ Hs3
  ihave Hs5 := (Entails.of_eq (pts_hbm (F := F) d L main_arg3_scv _ _)) $$ Hs5
  ihave Hi := (Entails.of_eq (pts_hbm (F := F) d L main_arg1_scv _ _)) $$ Hi
  ihave Hc := (toks6 (F := F) _ _).2 $$ [HcR Hc0 Hc1 Hc2 Hc3 Hc4 Hc5]
  · isplitl [HcR]; · iexact HcR
    isplitl [Hc0]; · iexact Hc0
    isplitl [Hc1]; · iexact Hc1
    isplitl [Hc2]; · iexact Hc2
    isplitl [Hc3]; · iexact Hc3
    isplitl [Hc4]; · iexact Hc4
    iexact Hc5
  ihave Hs := (toks6 (F := F) _ _).2 $$ [HsR Hs0 Hs1 Hs2 Hs3 Hs4 Hs5]
  · isplitl [HsR]; · iexact HsR
    isplitl [Hs0]; · iexact Hs0
    isplitl [Hs1]; · iexact Hs1
    isplitl [Hs2]; · iexact Hs2
    isplitl [Hs3]; · iexact Hs3
    isplitl [Hs4]; · iexact Hs4
    iexact Hs5
  ihave Hl0a := (Entails.of_eq (pts_l0 (F := F) d L _ _).symm) $$ Hl0a
  ihave Hl0b := (Entails.of_eq (pts_l0 (F := F) d L _ _).symm) $$ Hl0b
  ihave Hl1a := (Entails.of_eq (pts_l1 (F := F) d L _ _).symm) $$ Hl1a
  ihave Hl1b := (Entails.of_eq (pts_l1 (F := F) d L _ _).symm) $$ Hl1b
  ihave Hl2a := (Entails.of_eq (pts_l2 (F := F) d L _ _).symm) $$ Hl2a
  ihave Hl2b := (Entails.of_eq (pts_l2 (F := F) d L _ _).symm) $$ Hl2b
  ihave Hl3a := (Entails.of_eq (pts_l3 (F := F) d L _ _).symm) $$ Hl3a
  ihave Hl3b := (Entails.of_eq (pts_l3 (F := F) d L _ _).symm) $$ Hl3b
  ihave Hl := (list_quarters (F := F) d L _).2 $$ [Hl0a Hl0b Hl1a Hl1b Hl2a Hl2b Hl3a Hl3b]
  · isplitl [Hl0a Hl0b]; · isplitl [Hl0a] <;> iassumption
    isplitl [Hl1a Hl1b]; · isplitl [Hl1a] <;> iassumption
    isplitl [Hl2a Hl2b]; · isplitl [Hl2a] <;> iassumption
    isplitl [Hl3a] <;> iassumption
  isplitl [Hi Hc Hs Hp0 Hp1 Hp2 Hp3 Hq0 Hq1 Hq2 Hq3]
  · isplitl [Hi]; · iexact Hi
    isplitl [Hc]; · iexact Hc
    isplitl [Hs]; · iexact Hs
    isplitl [Hp0 Hp1 Hp2 Hp3]
    · isplitl [Hp0]; · iexact Hp0
      isplitl [Hp1]; · iexact Hp1
      isplitl [Hp2]; · iexact Hp2
      iexact Hp3
    · isplitl [Hq0]; · iexact Hq0
      isplitl [Hq1]; · iexact Hq1
      isplitl [Hq2]; · iexact Hq2
      iexact Hq3
  isplitl [Hl H1 H2 H3 H4 H5 H6 Hbufs]
  · isplitl [Hl]; · iexists _; iexact Hl
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hbufs
  isplitl [HsemX Hsem7 Hsem8 Hsem9 Hsem10 Hsem11 Hsem12 Hsem13 Hsem14 Hsem15 Hsem16 Hsem17 Hsem18 Hsems]
  · isplitl [HsemX]; · iexact HsemX
    isplitl [Hsem7]; · iexact Hsem7
    isplitl [Hsem8]; · iexact Hsem8
    isplitl [Hsem9]; · iexact Hsem9
    isplitl [Hsem10]; · iexact Hsem10
    isplitl [Hsem11]; · iexact Hsem11
    isplitl [Hsem12]; · iexact Hsem12
    isplitl [Hsem13]; · iexact Hsem13
    isplitl [Hsem14]; · iexact Hsem14
    isplitl [Hsem15]; · iexact Hsem15
    isplitl [Hsem16]; · iexact Hsem16
    isplitl [Hsem17]; · iexact Hsem17
    isplitl [Hsem18]; · iexact Hsem18
    iexact Hsems
  iexists _; isplitr
  swap; · iexact HO
  ipureintro
  repeat (refine waits_insert rfl ?_)
  exact fun p hp => Or.inl hp

end Tile

end Cert.Proof.KI

end
-- ==== Proof.KILaunch.lean ====
/-
  The launch of the gather kernel. The TensorCore hands the two SparseCores the position array, the two tables and the
  two output arrays; each SparseCore hands each of its sixteen tiles a share of the three read-only arrays and the
  tile's eight chunks of the outputs; the chunks of the thirty-two tiles tile each output array, so when every tile
  has brought its chunks back at the specification the output arrays hold it everywhere. Every weakly fair execution
  therefore terminates with the inputs unchanged and each output the rows of its table the position ids name.
-/
import proofs.«214962_g25580825215366_cont_9to1_529_15_alg».proof.Proof.KIBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4x4096 EltTy.i32)
local notation "cV" => (Memref.whole Cert.KernelIdeal.main_arg2_scv : Memref Cert.KernelIdeal.sig Kind.scVector Space.hbm Cert.KernelIdeal.S8192x128 EltTy.f32)
local notation "sV" => (Memref.whole Cert.KernelIdeal.main_arg3_scv : Memref Cert.KernelIdeal.sig Kind.scVector Space.hbm Cert.KernelIdeal.S8192x128 EltTy.f32)
local notation "pV" => (Memref.whole Cert.KernelIdeal.main_v0_0_scv : Memref Cert.KernelIdeal.sig Kind.scVector Space.hbm Cert.KernelIdeal.S4x1x4096x128 EltTy.f32)
local notation "qV" => (Memref.whole Cert.KernelIdeal.main_v0_1_scv : Memref Cert.KernelIdeal.sig Kind.scVector Space.hbm Cert.KernelIdeal.S4x1x4096x128 EltTy.f32)
local notation "lV" => (Memref.whole Cert.KernelIdeal.cc0_scratch0 : Memref Cert.KernelIdeal.sig Kind.scVector Space.vmem Cert.KernelIdeal.S512 EltTy.i32)
local notation "b1V" => (Memref.whole Cert.KernelIdeal.cc0_scratch1 : Memref Cert.KernelIdeal.sig Kind.scVector Space.vmem Cert.KernelIdeal.S128x128 EltTy.f32)
local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)
local notation "b6V" => (Memref.whole Cert.KernelIdeal.cc0_scratch6 : Memref Cert.KernelIdeal.sig Kind.scVector Space.vmem Cert.KernelIdeal.S128x128 EltTy.f32)

variable (m : (ℓ : Loc nD τ sig) → Buf (Elt F) ℓ) (ρ : Dev nD → PrngReg)

variable [FloatOps F]

/-! ## What the handshakes carry -/

/-- The one call: a SparseCore takes what its sixteen tiles take, a tile its `goR`; they come back with the output
    chunks at the specification. -/
def P : (K (F := F)).Pay (nD := nD) (Val := Elt F) (Name := ℕ) (U := UU) where
  st := fun q d c => match q with
    | 0 => bigSep Finset.univ fun s : Fin 16 => goR m d (Fin.cast nCore_zero c) s (m (pLoc d)) (m (qLoc d))
  dn := fun q d c => match q with
    | 0 => bigSep Finset.univ fun s : Fin 16 => goR m d (Fin.cast nCore_zero c) s (Gp m d) (Gq m d)
  go := fun q d c i => match q with
    | 0 => goR m d (Fin.cast nCore_zero c) (Fin.cast nSub_zero i) (m (pLoc d)) (m (qLoc d))
  td := fun q d c i => match q with
    | 0 => goR m d (Fin.cast nCore_zero c) (Fin.cast nSub_zero i) (Gp m d) (Gq m d)
  x := fun _ _ => iprop(emp)

instance goR_storable (d : Dev nD) (c : Fin 2) (s : Fin 16) (fp : Buf (Elt F) (pLoc d)) (fq : Buf (Elt F) (qLoc d)) :
    BI.Storable (upEmb : UEmb _ 𝕄) (goR m d c s fp fq) := by
  unfold goR; infer_instance

instance P_storable : (P (F := F) m).IsStorable where
  st q d c := match q with
    | 0 => (inferInstance : BI.Storable (upEmb : UEmb _ 𝕄) (bigSep Finset.univ fun s : Fin 16 => goR m d (Fin.cast nCore_zero c) s (m (pLoc d)) (m (qLoc d))))
  dn q d c := match q with
    | 0 => (inferInstance : BI.Storable (upEmb : UEmb _ 𝕄) (bigSep Finset.univ fun s : Fin 16 => goR m d (Fin.cast nCore_zero c) s (Gp m d) (Gq m d)))
  go q d c i := match q with
    | 0 => (inferInstance : BI.Storable (upEmb : UEmb _ 𝕄) (goR m d (Fin.cast nCore_zero c) (Fin.cast nSub_zero i) (m (pLoc d)) (m (qLoc d))))
  td q d c i := match q with
    | 0 => (inferInstance : BI.Storable (upEmb : UEmb _ 𝕄) (goR m d (Fin.cast nCore_zero c) (Fin.cast nSub_zero i) (Gp m d) (Gq m d)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          cV (Memref.isWhole_whole _) sV (Memref.isWhole_whole _) iV (Memref.isWhole_whole _) pV (Memref.isWhole_whole _) qV (Memref.isWhole_whole _)
          lV (Memref.isWhole_whole _) b1V (Memref.isWhole_whole _) b2V (Memref.isWhole_whole _) b3V (Memref.isWhole_whole _)
          b4V (Memref.isWhole_whole _) b5V (Memref.isWhole_whole _) b6V (Memref.isWhole_whole _)
          cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's operands are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => goR m d (Fin.cast nCore_zero c) s (m (pLoc d)) (m (qLoc d))) ⊢ |={Set.univ}=> iprop(
      (bigSep Finset.univ fun i : Fin ((K (F := F)).nSub 0) => goR m d (Fin.cast nCore_zero c) (Fin.cast nSub_zero i) (m (pLoc d)) (m (qLoc d)))
      ∗ ((bigSep Finset.univ fun i : Fin ((K (F := F)).nSub 0) => goR m d (Fin.cast nCore_zero c) (Fin.cast nSub_zero i) (Gp m d) (Gq m d))
          -∗ bigSep Finset.univ fun s : Fin 16 => goR m d (Fin.cast nCore_zero c) s (Gp m d) (Gq m d)))
  rw [bigSep_tasks (F := F) (fun s => goR m d (Fin.cast nCore_zero c) s (m (pLoc d)) (m (qLoc d))),
    bigSep_tasks (F := F) (fun s => goR m d (Fin.cast nCore_zero c) s (Gp m d) (Gq m d))]
  iintro H; imodintro
  isplitl [H]; · iexact H
  iintro H; iexact H

/-! ## The arrays whole are the tiles' pieces -/

omit [FloatOps F] in
/-- A read-only array whole is the thirty-two tiles' shares of it. -/
theorem shares_all {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [pointsTo_piecesOf Finset.univ f (by decide : 0 < 2) fullShare]
  exact bigSep_congr fun c _ => pointsTo_piecesOf Finset.univ f (by decide : 0 < 16) _

omit [FloatOps F] in
theorem pChunks_all (d : Dev nD) (f : Buf (Elt F) (pLoc d)) :
    (pLoc d ↦{fullShare} f : sProp 𝕄)
      = bigSep Finset.univ fun c : Fin 2 => bigSep Finset.univ fun s : Fin 16 => bigSep Finset.univ fun r : Fin 4 => (pLoc d ↦[cSet c s r]{fullShare} f : sProp 𝕄) := by
  have h : (pLoc d ↦[(Finset.univ : Finset (Fin 2 × Fin 16 × Fin 4)).biUnion (fun t => cSet t.1 t.2.1 t.2.2)]{fullShare} f : sProp 𝕄)
      = bigSep Finset.univ fun t : Fin 2 × Fin 16 × Fin 4 => (pLoc d ↦[cSet t.1 t.2.1 t.2.2]{fullShare} f : sProp 𝕄) :=
    pointsTo_biUnion _ _ cSet_disjoint
  rw [cSet_cover] at h
  rw [show (pLoc d ↦{fullShare} f : sProp 𝕄) = (pLoc d ↦[Finset.univ]{fullShare} f) from rfl, h, bigSep_univ_prod]
  exact bigSep_congr fun c _ => bigSep_univ_prod _
omit [FloatOps F] in
theorem qChunks_all (d : Dev nD) (f : Buf (Elt F) (qLoc d)) :
    (qLoc d ↦{fullShare} f : sProp 𝕄)
      = bigSep Finset.univ fun c : Fin 2 => bigSep Finset.univ fun s : Fin 16 => bigSep Finset.univ fun r : Fin 4 => (qLoc d ↦[cSet c s r]{fullShare} f : sProp 𝕄) := by
  have h : (qLoc d ↦[(Finset.univ : Finset (Fin 2 × Fin 16 × Fin 4)).biUnion (fun t => cSet t.1 t.2.1 t.2.2)]{fullShare} f : sProp 𝕄)
      = bigSep Finset.univ fun t : Fin 2 × Fin 16 × Fin 4 => (qLoc d ↦[cSet t.1 t.2.1 t.2.2]{fullShare} f : sProp 𝕄) :=
    pointsTo_biUnion _ _ cSet_disjoint
  rw [cSet_cover] at h
  rw [show (qLoc d ↦{fullShare} f : sProp 𝕄) = (qLoc d ↦[Finset.univ]{fullShare} f) from rfl, h, bigSep_univ_prod]
  exact bigSep_congr fun c _ => bigSep_univ_prod _

omit [FloatOps F] in
/-- The five arrays whole, the outputs at `fp` and `fq`, are what the thirty-two tiles work with. -/
theorem split_all (d : Dev nD) (fp : Buf (Elt F) (pLoc d)) (fq : Buf (Elt F) (qLoc d)) :
    (iprop((iLoc d ↦{fullShare} m (iLoc d)) ∗ (cLoc d ↦{fullShare} m (cLoc d)) ∗ (sLoc d ↦{fullShare} m (sLoc d))
        ∗ (pLoc d ↦{fullShare} fp) ∗ (qLoc d ↦{fullShare} fq)) : sProp 𝕄)
      = bigSep Finset.univ fun c : Fin 2 => bigSep Finset.univ fun s : Fin 16 => goR m d c s fp fq := by
  unfold goR
  simp only [bigSep_sep']
  rw [← shares_all, ← shares_all, ← shares_all, ← pChunks_all, ← qChunks_all]

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (cLoc d ↦{fullShare} W main_arg2)
      ∗ (sLoc d ↦{fullShare} W main_arg3) ∗ (pLoc d ↦{fullShare} W main_v0_0) ∗ qLoc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) (fp : Buf (Elt F) (pLoc d)) (fq : Buf (Elt F) (qLoc d)) :
    (bigSep Finset.univ fun c : Fin ((K (F := F)).nCore 0) => bigSep Finset.univ fun s : Fin 16 => goR m d (Fin.cast nCore_zero c) s fp fq)
      = iprop((iLoc d ↦{fullShare} m (iLoc d)) ∗ (cLoc d ↦{fullShare} m (cLoc d)) ∗ (sLoc d ↦{fullShare} m (sLoc d))
        ∗ (pLoc d ↦{fullShare} fp) ∗ (qLoc d ↦{fullShare} fq)) := by
  rw [bigSep_cores (F := F) (fun c => bigSep Finset.univ fun s : Fin 16 => goR m d c s fp fq), split_all]

theorem stP_eq (d : Dev nD) :
    (bigSep Finset.univ fun c : Fin ((K (F := F)).nCore 0) => (P m).st 0 d c)
      = iprop((iLoc d ↦{fullShare} m (iLoc d)) ∗ (cLoc d ↦{fullShare} m (cLoc d)) ∗ (sLoc d ↦{fullShare} m (sLoc d))
        ∗ (pLoc d ↦{fullShare} m (pLoc d)) ∗ (qLoc d ↦{fullShare} m (qLoc d))) := st0_eq m d (m (pLoc d)) (m (qLoc d))
theorem dnP_eq (d : Dev nD) :
    (bigSep Finset.univ fun c : Fin ((K (F := F)).nCore 0) => (P m).dn 0 d c)
      = iprop((iLoc d ↦{fullShare} m (iLoc d)) ∗ (cLoc d ↦{fullShare} m (cLoc d)) ∗ (sLoc d ↦{fullShare} m (sLoc d))
        ∗ (pLoc d ↦{fullShare} Gp m d) ∗ (qLoc d ↦{fullShare} Gq m d)) := st0_eq m d (Gp m d) (Gq m d)

abbrev FIN (d : Dev nD) : sProp 𝕄 :=
  iprop((xLoc d ↦{fullShare} m (xLoc d)) ∗ (iLoc d ↦{fullShare} m (iLoc d)) ∗ (cLoc d ↦{fullShare} m (cLoc d)) ∗ (sLoc d ↦{fullShare} m (sLoc d))
    ∗ (pLoc d ↦{fullShare} Gp m d) ∗ (qLoc d ↦{fullShare} Gq m d))

/-- @main on device `d`'s TensorCore: the one call, from the five arrays it reads or writes; the inputs kept, the
    outputs at the specification. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Hc, Hs, Hp, Hq⟩, -, -⟩, -⟩
  iapply ((K (F := F)).wp_run (D (F := F)) 𝒱 (EH := EH) (P := P m) κ d 0) $$ [Hst Hx Hi Hc Hs Hp Hq]
  isplitr; · iexact Hctx
  isplitl [Hst]; · iexact Hst
  isplitl [Hi Hc Hs Hp Hq]
  · rw [stP_eq]
    isplitl [Hi]; · iexact Hi
    isplitl [Hc]; · iexact Hc
    isplitl [Hs]; · iexact Hs
    isplitl [Hp]; · iexact Hp
    iexact Hq
  iintro ⟨Hst, Hdn⟩
  ihave Hdn' := (Entails.of_eq (dnP_eq m d)) $$ Hdn
  icases Hdn' with ⟨Hi, Hc, Hs, Hp, Hq⟩
  imodintro
  isplitl [Hst]; · iexact Hst
  isplitl [Hx]; · iexact Hx
  isplitl [Hi]; · iexact Hi
  isplitl [Hc]; · iexact Hc
  isplitl [Hs]; · iexact Hs
  isplitl [Hp]; · iexact Hp
  iexact Hq

def fq (d : Dev nD) (s' : Phys nD τ sig (Elt F)) : Prop :=
  s'.mem.mem (xLoc d) = m (xLoc d) ∧ s'.mem.mem (iLoc d) = m (iLoc d) ∧ s'.mem.mem (cLoc d) = m (cLoc d) ∧ s'.mem.mem (sLoc d) = m (sLoc d)
    ∧ s'.mem.mem (pLoc d) = Gp m d ∧ s'.mem.mem (qLoc d) = Gq m d

omit [FloatOps F] in
theorem agree_full (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr; · ipureintro; exact funext fun i => h1 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hx, Hi, Hc, Hs, Hp, Hq⟩, HSI⟩
  ihave H := (agree_full (F := F) (xLoc d) _ s') $$ [Hx HSI]; · isplitl [Hx] <;> iassumption
  icases H with ⟨%h1, HSI⟩
  ihave H := (agree_full (F := F) (iLoc d) _ s') $$ [Hi HSI]; · isplitl [Hi] <;> iassumption
  icases H with ⟨%h2, HSI⟩
  ihave H := (agree_full (F := F) (cLoc d) _ s') $$ [Hc HSI]; · isplitl [Hc] <;> iassumption
  icases H with ⟨%h3, HSI⟩
  ihave H := (agree_full (F := F) (sLoc d) _ s') $$ [Hs HSI]; · isplitl [Hs] <;> iassumption
  icases H with ⟨%h4, HSI⟩
  ihave H := (agree_full (F := F) (pLoc d) _ s') $$ [Hp HSI]; · isplitl [Hp] <;> iassumption
  icases H with ⟨%h5, HSI⟩
  ihave H := (agree_full (F := F) (qLoc d) _ s') $$ [Hq HSI]; · isplitl [Hq] <;> iassumption
  icases H with ⟨%h6, -⟩
  ipureintro; exact ⟨h1, h2, h3, h4, h5, h6⟩

/-! ## The program's run -/

def QC : PUnit × MemSt nD τ sig (Elt F) → Prop := fun r => ∀ c : Dev nD,
  r.2.mem (xLoc c) = m (xLoc c) ∧ r.2.mem (iLoc c) = m (iLoc c) ∧ r.2.mem (cLoc c) = m (cLoc c) ∧ r.2.mem (sLoc c) = m (sLoc c)
    ∧ r.2.mem (pLoc c) = Gp m c ∧ r.2.mem (qLoc c) = Gq m c

/-- Every weakly fair execution of the kernel's program terminates, nothing faulting, with the inputs unchanged and the
    two outputs the rows of the cosine and of the sine table the position ids name. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBBase.lean ====
/-
  The gather kernel's program as the SparseCore launch theorem sees it, and the pieces of memory its tiles work on.
  Thirty-two tiles (two SparseCores of sixteen vector subcores) each serve 512 consecutive positions of one batch row:
  tile (c, s) has number w = 2 s + c, batch row w / 8 and first position 512 (w mod 8). A tile copies its 512 position
  ids into its list buffer, and for each of four chunks of 128 positions gathers the 128 named rows of the cosine table
  and of the sine table into staging buffers and copies each staging buffer to the chunk's rows of the matching output.
-/
import proofs.«214962_g25580825215366_cont_9to1_529_15_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«214962_g25580825215366_cont_9to1_529_15_alg».proof.Proof.Gen.Kernel
import proofs.«214962_g25580825215366_cont_9to1_529_15_alg».proof.Proof.Gen.Kernel.Skeleton
import proofs.«214962_g25580825215366_cont_9to1_529_15_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

local notation "𝕄" => MT nD τ sig (HIx 1) (Elt F) ℕ UU ℕ
local notation "iV" => (Memref.whole Cert.Kernel.main_arg1_scv : Memref Cert.Kernel.sig Kind.scVector Space.hbm Cert.Kernel.S4x4096 EltTy.i32)
local notation "cV" => (Memref.whole Cert.Kernel.main_arg2_scv : Memref Cert.Kernel.sig Kind.scVector Space.hbm Cert.Kernel.S8192x128 EltTy.f32)
local notation "sV" => (Memref.whole Cert.Kernel.main_arg3_scv : Memref Cert.Kernel.sig Kind.scVector Space.hbm Cert.Kernel.S8192x128 EltTy.f32)
local notation "pV" => (Memref.whole Cert.Kernel.main_v0_0_scv : Memref Cert.Kernel.sig Kind.scVector Space.hbm Cert.Kernel.S4x1x4096x128 EltTy.f32)
local notation "qV" => (Memref.whole Cert.Kernel.main_v0_1_scv : Memref Cert.Kernel.sig Kind.scVector Space.hbm Cert.Kernel.S4x1x4096x128 EltTy.f32)
local notation "lV" => (Memref.whole Cert.Kernel.cc0_scratch0 : Memref Cert.Kernel.sig Kind.scVector Space.vmem Cert.Kernel.S512 EltTy.i32)
local notation "b1V" => (Memref.whole Cert.Kernel.cc0_scratch1 : Memref Cert.Kernel.sig Kind.scVector Space.vmem Cert.Kernel.S128x128 EltTy.f32)
local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)
local notation "b6V" => (Memref.whole Cert.Kernel.cc0_scratch6 : Memref Cert.Kernel.sig Kind.scVector Space.vmem Cert.Kernel.S128x128 EltTy.f32)

/-! ## Places -/

abbrev xLoc (d : Dev nD) : Loc nD τ sig := (SparseCore.T d).loc main_arg0
abbrev iLoc (d : Dev nD) : Loc nD τ sig := (SparseCore.T d).loc main_arg1
abbrev cLoc (d : Dev nD) : Loc nD τ sig := (SparseCore.T d).loc main_arg2
abbrev sLoc (d : Dev nD) : Loc nD τ sig := (SparseCore.T d).loc main_arg3
abbrev pLoc (d : Dev nD) : Loc nD τ sig := (SparseCore.T d).loc main_v0_0
abbrev qLoc (d : Dev nD) : Loc nD τ sig := (SparseCore.T d).loc main_v0_1

abbrev cT (L : grid0.Coords) : Fin τ.nSC := (L 0).castLE hcore0
abbrev jT (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
abbrev thr (d : Dev nD) (L : grid0.Coords) : Thread nD τ := V d (cT L) (jT L)

/-! ## Which rows a tile serves

Tile (c, s) has number w = 2 s + c; its batch row is w / 8 and its first position 512 (w mod 8). -/

def wN (c : Fin 2) (s : Fin 16) : ℕ := s.val * 2 + c.val

theorem off1_eq : ∀ (L : grid0.Coords) (a : Fin 2),
    k0_off1 L a = (![wN (cL L) (jL L) / 8, (wN (cL L) (jL L) % 8) * 512] : Fin 2 → ℕ) a := by decide +kernel
theorem off2_eq : ∀ (L : grid0.Coords) (r : Fin 4) (a : Fin 4),
    k0_off2 L (BitVec.ofNat 32 (128 * r.val)) a
      = (![wN (cL L) (jL L) / 8, 0, (wN (cL L) (jL L) % 8) * 512 + 128 * r.val, 0] : Fin 4 → ℕ) a := by decide +kernel

theorem chunk_inb (c : Fin 2) (s : Fin 16) (r : Fin 4) :
    ∀ a, (![wN c s / 8, 0, (wN c s % 8) * 512 + 128 * r.val, 0] : Fin 4 → ℕ) a + (![1, 1, 128, 128] : Fin 4 → ℕ) a ≤ S4x1x4096x128.size a := by
  have hc := c.isLt; have hs := s.isLt; have hr := r.isLt
  intro a
  fin_cases a <;> simp [wN] <;> omega

/-- Chunk `r` of tile (c, s): 128 positions of one batch row, all 128 lanes, in either output array. -/
def chunkRect (c : Fin 2) (s : Fin 16) (r : Fin 4) : Rect S4x1x4096x128 :=
  Rect.unit (s := S4x1x4096x128) ![wN c s / 8, 0, (wN c s % 8) * 512 + 128 * r.val, 0] ![1, 1, 128, 128] (chunk_inb c s r)

def cSet (c : Fin 2) (s : Fin 16) (r : Fin 4) : Finset S4x1x4096x128.Idx := (chunkRect c s r).set

/-- An index is in chunk r of tile (c, s) exactly when its batch row and its position's block of 128 say so. -/
theorem mem_cSet (c : Fin 2) (s : Fin 16) (r : Fin 4) (j : S4x1x4096x128.Idx) :
    j ∈ cSet c s r ↔ (j 0).val * 32 + (j 2).val / 128 = wN c s * 4 + r.val := by
  have hc := c.isLt; have hs := s.isLt; have hr := r.isLt
  have h0 : (j 0).val < 4 := (j 0).isLt
  have h1 : (j 1).val < 1 := (j 1).isLt
  have h2 : (j 2).val < 4096 := (j 2).isLt
  have h3 : (j 3).val < 128 := (j 3).isLt
  unfold cSet chunkRect
  rw [Rect.mem_set_unit]
  constructor
  · intro h
    have a0 := h 0; have a2 := h 2
    simp [wN] at a0 a2 ⊢
    omega
  · intro h a
    fin_cases a <;> simp [wN] at h ⊢ <;> omega

/-! ## The chunks of all tiles tile each output array -/

theorem cSet_disjoint : ∀ t ∈ (Finset.univ : Finset (Fin 2 × Fin 16 × Fin 4)), ∀ t' ∈ (Finset.univ : Finset (Fin 2 × Fin 16 × Fin 4)),
    t ≠ t' → Disjoint (cSet t.1 t.2.1 t.2.2) (cSet t'.1 t'.2.1 t'.2.2) := by
  intro t _ t' _ h
  rw [Finset.disjoint_left]
  intro j hj hj'
  rw [mem_cSet] at hj hj'
  apply h
  obtain ⟨c, s, r⟩ := t; obtain ⟨c', s', r'⟩ := t'
  simp only [wN] at hj hj'
  have := c.isLt; have := c'.isLt; have := s.isLt; have := s'.isLt; have := r.isLt; have := r'.isLt
  have e : c.val = c'.val ∧ s.val = s'.val ∧ r.val = r'.val := by omega
  exact Prod.ext (Fin.ext e.1) (Prod.ext (Fin.ext e.2.1) (Fin.ext e.2.2))

theorem cSet_cover : (Finset.univ : Finset (Fin 2 × Fin 16 × Fin 4)).biUnion (fun t => cSet t.1 t.2.1 t.2.2) = Finset.univ := by
  ext j
  simp only [Finset.mem_biUnion, Finset.mem_univ, true_and, iff_true]
  have h0 : (j 0).val < 4 := (j 0).isLt
  have h2 : (j 2).val < 4096 := (j 2).isLt
  refine ⟨(⟨(((j 0).val * 32 + (j 2).val / 128) / 4) % 2, by omega⟩, ⟨((j 0).val * 32 + (j 2).val / 128) / 8, by omega⟩,
    ⟨((j 0).val * 32 + (j 2).val / 128) % 4, by omega⟩), ?_⟩
  rw [mem_cSet]; simp only [wN]; omega

section Tile
variable (d : Dev nD) (L : grid0.Coords)

abbrev dcell (d : Dev nD) (L : grid0.Coords) (k : DmaSem sig) : GSem nD τ sig := (thr d L, .dma k)

set_option maxRecDepth 8192 in
theorem ownSems0_V :
    (ownSems0 (thr d L) : sProp 𝕄)
      = iprop(semVal (dcell d L cc0_scoped0.sem) 0 ∗ semVal (dcell d L cc0_scratch7.sem) 0 ∗ semVal (dcell d L cc0_scratch8.sem) 0 ∗ semVal (dcell d L cc0_scratch9.sem) 0 ∗ semVal (dcell d L cc0_scratch10.sem) 0 ∗ semVal (dcell d L cc0_scratch11.sem) 0 ∗ semVal (dcell d L cc0_scratch12.sem) 0 ∗ semVal (dcell d L cc0_scratch13.sem) 0 ∗ semVal (dcell d L cc0_scratch14.sem) 0 ∗ semVal (dcell d L cc0_scratch15.sem) 0 ∗ semVal (dcell d L cc0_scratch16.sem) 0 ∗ semVal (dcell d L cc0_scratch17.sem) 0 ∗ semVal (dcell d L cc0_scratch18.sem) 0
          ∗ bigSep ((((((((((((((ownCells (thr d L)).erase (dcell d L cc0_scoped0.sem)).erase (dcell d L cc0_scratch7.sem)).erase (dcell d L cc0_scratch8.sem)).erase (dcell d L cc0_scratch9.sem)).erase (dcell d L cc0_scratch10.sem)).erase (dcell d L cc0_scratch11.sem)).erase (dcell d L cc0_scratch12.sem)).erase (dcell d L cc0_scratch13.sem)).erase (dcell d L cc0_scratch14.sem)).erase (dcell d L cc0_scratch15.sem)).erase (dcell d L cc0_scratch16.sem)).erase (dcell d L cc0_scratch17.sem)).erase (dcell d L cc0_scratch18.sem)) fun g => semVal g 0) := by
  unfold SparseCore.Cfg.ownSems0
  rw [SparseCore.bigSep_erase' ((mem_ownCells (g := dcell d L cc0_scoped0.sem)).mpr ⟨rfl, by show (SemLoc.dma cc0_scoped0.sem : SemLoc sig).isScoped .scVector = true; decide⟩),
    SparseCore.bigSep_erase' (Finset.mem_erase.mpr ⟨(fun e => absurd (congrArg Prod.snd e) (show (SemLoc.dma cc0_scratch7.sem : SemLoc sig) ≠ SemLoc.dma cc0_scoped0.sem by decide)), ((mem_ownCells (g := dcell d L cc0_scratch7.sem)).mpr ⟨rfl, by show (SemLoc.dma cc0_scratch7.sem : SemLoc sig).isScoped .scVector = true; decide⟩)⟩),
    SparseCore.bigSep_erase' (Finset.mem_erase.mpr ⟨(fun e => absurd (congrArg Prod.snd e) (show (SemLoc.dma cc0_scratch8.sem : SemLoc sig) ≠ SemLoc.dma cc0_scratch7.sem by decide)), (Finset.mem_erase.mpr ⟨(fun e => absurd (congrArg Prod.snd e) (show (SemLoc.dma cc0_scratch8.sem : SemLoc sig) ≠ SemLoc.dma cc0_scoped0.sem by decide)), ((mem_ownCells (g := dcell d L cc0_scratch8.sem)).mpr ⟨rfl, by show (SemLoc.dma cc0_scratch8.sem : SemLoc sig).isScoped .scVector = true; decide⟩)⟩)⟩),
    SparseCore.bigSep_erase' (Finset.mem_erase.mpr ⟨(fun e => absurd (congrArg Prod.snd e) (show (SemLoc.dma cc0_scratch9.sem : SemLoc sig) ≠ SemLoc.dma cc0_scratch8.sem by decide)), (Finset.mem_erase.mpr ⟨(fun e => absurd (congrArg Prod.snd e) (show (SemLoc.dma cc0_scratch9.sem : SemLoc sig) ≠ SemLoc.dma cc0_scratch7.sem by decide)), (Finset.mem_erase.mpr ⟨(fun e => absurd (congrArg Prod.snd e) (show (SemLoc.dma cc0_scratch9.sem : SemLoc sig) ≠ SemLoc.dma cc0_scoped0.sem by decide)), ((mem_ownCells (g := dcell d L cc0_scratch9.sem)).mpr ⟨rfl, by show (SemLoc.dma cc0_scratch9.sem : SemLoc sig).isScoped .scVector = true; decide⟩)⟩)⟩)⟩),
    SparseCore.bigSep_erase' (Finset.mem_erase.mpr ⟨(fun e => absurd (congrArg Prod.snd e) (show (SemLoc.dma cc0_scratch10.sem : SemLoc sig) ≠ SemLoc.dma cc0_scratch9.sem by decide)), (Finset.mem_erase.mpr ⟨(fun e => absurd (congrArg Prod.snd e) (show (SemLoc.dma cc0_scratch10.sem : SemLoc sig) ≠ SemLoc.dma cc0_scratch8.sem by decide)), (Finset.mem_erase.mpr ⟨(fun e => absurd (congrArg Prod.snd e) (show (SemLoc.dma cc0_scratch10.sem : SemLoc sig) ≠ SemLoc.dma cc0_scratch7.sem by decide)), (Finset.mem_erase.mpr ⟨(fun e => absurd (congrArg Prod.snd e) (show (SemLoc.dma cc0_scratch10.sem : SemLoc sig) ≠ SemLoc.dma cc0_scoped0.sem by decide)), ((mem_ownCells (g := dcell d L cc0_scratch10.sem)).mpr ⟨rfl, by show (SemLoc.dma cc0_scratch10.sem : SemLoc sig).isScoped .scVector = true; decide⟩)⟩)⟩)⟩)⟩),
    SparseCore.bigSep_erase' (Finset.mem_erase.mpr ⟨(fun e => absurd (congrArg Prod.snd e) (show (SemLoc.dma cc0_scratch11.sem : SemLoc sig) ≠ SemLoc.dma cc0_scratch10.sem by decide)), (Finset.mem_erase.mpr ⟨(fun e => absurd (congrArg Prod.snd e) (show (SemLoc.dma cc0_scratch11.sem : SemLoc sig) ≠ SemLoc.dma cc0_scratch9.sem by decide)), (Finset.mem_erase.mpr ⟨(fun e => absurd (congrArg Prod.snd e) (show (SemLoc.dma cc0_scratch11.sem : SemLoc sig) ≠ SemLoc.dma cc0_scratch8.sem by decide)), (Finset.mem_erase.mpr ⟨(fun e => absurd (congrArg Prod.snd e) (show (SemLoc.dma cc0_scratch11.sem : SemLoc sig) ≠ SemLoc.dma cc0_scratch7.sem by decide)), (Finset.mem_erase.mpr ⟨(fun e => absurd (congrArg Prod.snd e) (show (SemLoc.dma cc0_scratch11.sem : SemLoc sig) ≠ SemLoc.dma cc0_scoped0.sem by decide)), ((mem_ownCells (g := dcell d L cc0_scratch11.sem)).mpr ⟨rfl, by show (SemLoc.dma cc0_scratch11.sem : SemLoc sig).isScoped .scVector = true; decide⟩)⟩)⟩)⟩)⟩)⟩),
    SparseCore.bigSep_erase' (Finset.mem_erase.mpr ⟨(fun e => absurd (congrArg Prod.snd e) (show (SemLoc.dma cc0_scratch12.sem : SemLoc sig) ≠ SemLoc.dma cc0_scratch11.sem by decide)), (Finset.mem_erase.mpr ⟨(fun e => absurd (congrArg Prod.snd e) (show (SemLoc.dma cc0_scratch12.sem : SemLoc sig) ≠ SemLoc.dma cc0_scratch10.sem by decide)), (Finset.mem_erase.mpr ⟨(fun e => absurd (congrArg Prod.snd e) (show (SemLoc.dma cc0_scratch12.sem : SemLoc sig) ≠ SemLoc.dma cc0_scratch9.sem by decide)), (Finset.mem_erase.mpr ⟨(fun e => absurd (congrArg Prod.snd e) (show (SemLoc.dma cc0_scratch12.sem : SemLoc sig) ≠ SemLoc.dma cc0_scratch8.sem by decide)), (Finset.mem_erase.mpr ⟨(fun e => absurd (congrArg Prod.snd e) (show (SemLoc.dma cc0_scratch12.sem : SemLoc sig) ≠ SemLoc.dma cc0_scratch7.sem by decide)), (Finset.mem_erase.mpr ⟨(fun e => absurd (congrArg Prod.snd e) (show (SemLoc.dma cc0_scratch12.sem : SemLoc sig) ≠ SemLoc.dma cc0_scoped0.sem by decide)), ((mem_ownCells (g := dcell d L cc0_scratch12.sem)).mpr ⟨rfl, by show (SemLoc.dma cc0_scratch12.sem : SemLoc sig).isScoped .scVector = true; decide⟩)⟩)⟩)⟩)⟩)⟩)⟩),
    SparseCore.bigSep_erase' (Finset.mem_erase.mpr ⟨(fun e => absurd (congrArg Prod.snd e) (show (SemLoc.dma cc0_scratch13.sem : SemLoc sig) ≠ SemLoc.dma cc0_scratch12.sem by decide)), (Finset.mem_erase.mpr ⟨(fun e => absurd (congrArg Prod.snd e) (show (SemLoc.dma cc0_scratch13.sem : SemLoc sig) ≠ SemLoc.dma cc0_scratch11.sem by decide)), (Finset.mem_erase.mpr ⟨(fun e => absurd (congrArg Prod.snd e) (show (SemLoc.dma cc0_scratch13.sem : SemLoc sig) ≠ SemLoc.dma cc0_scratch10.sem by decide)), (Finset.mem_erase.mpr ⟨(fun e => absurd (congrArg Prod.snd e) (show (SemLoc.dma cc0_scratch13.sem : SemLoc sig) ≠ SemLoc.dma cc0_scratch9.sem by decide)), (Finset.mem_erase.mpr ⟨(fun e => absurd (congrArg Prod.snd e) (show (SemLoc.dma cc0_scratch13.sem : SemLoc sig) ≠ SemLoc.dma cc0_scratch8.sem by decide)), (Finset.mem_erase.mpr ⟨(fun e => absurd (congrArg Prod.snd e) (show (SemLoc.dma cc0_scratch13.sem : SemLoc sig) ≠ SemLoc.dma cc0_scratch7.sem by decide)), (Finset.mem_erase.mpr ⟨(fun e => absurd (congrArg Prod.snd e) (show (SemLoc.dma cc0_scratch13.sem : SemLoc sig) ≠ SemLoc.dma cc0_scoped0.sem by decide)), ((mem_ownCells (g := dcell d L cc0_scratch13.sem)).mpr ⟨rfl, by show (SemLoc.dma cc0_scratch13.sem : SemLoc sig).isScoped .scVector = true; decide⟩)⟩)⟩)⟩)⟩)⟩)⟩)⟩),
    SparseCore.bigSep_erase' (Finset.mem_erase.mpr ⟨(fun e => absurd (congrArg Prod.snd e) (show (SemLoc.dma cc0_scratch14.sem : SemLoc sig) ≠ SemLoc.dma cc0_scratch13.sem by decide)), (Finset.mem_erase.mpr ⟨(fun e => absurd (congrArg Prod.snd e) (show (SemLoc.dma cc0_scratch14.sem : SemLoc sig) ≠ SemLoc.dma cc0_scratch12.sem by decide)), (Finset.mem_erase.mpr ⟨(fun e => absurd (congrArg Prod.snd e) (show (SemLoc.dma cc0_scratch14.sem : SemLoc sig) ≠ SemLoc.dma cc0_scratch11.sem by decide)), (Finset.mem_erase.mpr ⟨(fun e => absurd (congrArg Prod.snd e) (show (SemLoc.dma cc0_scratch14.sem : SemLoc sig) ≠ SemLoc.dma cc0_scratch10.sem by decide)), (Finset.mem_erase.mpr ⟨(fun e => absurd (congrArg Prod.snd e) (show (SemLoc.dma cc0_scratch14.sem : SemLoc sig) ≠ SemLoc.dma cc0_scratch9.sem by decide)), (Finset.mem_erase.mpr ⟨(fun e => absurd (congrArg Prod.snd e) (show (SemLoc.dma cc0_scratch14.sem : SemLoc sig) ≠ SemLoc.dma cc0_scratch8.sem by decide)), (Finset.mem_erase.mpr ⟨(fun e => absurd (congrArg Prod.snd e) (show (SemLoc.dma cc0_scratch14.sem : SemLoc sig) ≠ SemLoc.dma cc0_scratch7.sem by decide)), (Finset.mem_erase.mpr ⟨(fun e => absurd (congrArg Prod.snd e) (show (SemLoc.dma cc0_scratch14.sem : SemLoc sig) ≠ SemLoc.dma cc0_scoped0.sem by decide)), ((mem_ownCells (g := dcell d L cc0_scratch14.sem)).mpr ⟨rfl, by show (SemLoc.dma cc0_scratch14.sem : SemLoc sig).isScoped .scVector = true; decide⟩)⟩)⟩)⟩)⟩)⟩)⟩)⟩)⟩),
    SparseCore.bigSep_erase' (Finset.mem_erase.mpr ⟨(fun e => absurd (congrArg Prod.snd e) (show (SemLoc.dma cc0_scratch15.sem : SemLoc sig) ≠ SemLoc.dma cc0_scratch14.sem by decide)), (Finset.mem_erase.mpr ⟨(fun e => absurd (congrArg Prod.snd e) (show (SemLoc.dma cc0_scratch15.sem : SemLoc sig) ≠ SemLoc.dma cc0_scratch13.sem by decide)), (Finset.mem_erase.mpr ⟨(fun e => absurd (congrArg Prod.snd e) (show (SemLoc.dma cc0_scratch15.sem : SemLoc sig) ≠ SemLoc.dma cc0_scratch12.sem by decide)), (Finset.mem_erase.mpr ⟨(fun e => absurd (congrArg Prod.snd e) (show (SemLoc.dma cc0_scratch15.sem : SemLoc sig) ≠ SemLoc.dma cc0_scratch11.sem by decide)), (Finset.mem_erase.mpr ⟨(fun e => absurd (congrArg Prod.snd e) (show (SemLoc.dma cc0_scratch15.sem : SemLoc sig) ≠ SemLoc.dma cc0_scratch10.sem by decide)), (Finset.mem_erase.mpr ⟨(fun e => absurd (congrArg Prod.snd e) (show (SemLoc.dma cc0_scratch15.sem : SemLoc sig) ≠ SemLoc.dma cc0_scratch9.sem by decide)), (Finset.mem_erase.mpr ⟨(fun e => absurd (congrArg Prod.snd e) (show (SemLoc.dma cc0_scratch15.sem : SemLoc sig) ≠ SemLoc.dma cc0_scratch8.sem by decide)), (Finset.mem_erase.mpr ⟨(fun e => absurd (congrArg Prod.snd e) (show (SemLoc.dma cc0_scratch15.sem : SemLoc sig) ≠ SemLoc.dma cc0_scratch7.sem by decide)), (Finset.mem_erase.mpr ⟨(fun e => absurd (congrArg Prod.snd e) (show (SemLoc.dma cc0_scratch15.sem : SemLoc sig) ≠ SemLoc.dma cc0_scoped0.sem by decide)), ((mem_ownCells (g := dcell d L cc0_scratch15.sem)).mpr ⟨rfl, by show (SemLoc.dma cc0_scratch15.sem : SemLoc sig).isScoped .scVector = true; decide⟩)⟩)⟩)⟩)⟩)⟩)⟩)⟩)⟩)⟩),
    SparseCore.bigSep_erase' (Finset.mem_erase.mpr ⟨(fun e => absurd (congrArg Prod.snd e) (show (SemLoc.dma cc0_scratch16.sem : SemLoc sig) ≠ SemLoc.dma cc0_scratch15.sem by decide)), (Finset.mem_erase.mpr ⟨(fun e => absurd (congrArg Prod.snd e) (show (SemLoc.dma cc0_scratch16.sem : SemLoc sig) ≠ SemLoc.dma cc0_scratch14.sem by decide)), (Finset.mem_erase.mpr ⟨(fun e => absurd (congrArg Prod.snd e) (show (SemLoc.dma cc0_scratch16.sem : SemLoc sig) ≠ SemLoc.dma cc0_scratch13.sem by decide)), (Finset.mem_erase.mpr ⟨(fun e => absurd (congrArg Prod.snd e) (show (SemLoc.dma cc0_scratch16.sem : SemLoc sig) ≠ SemLoc.dma cc0_scratch12.sem by decide)), (Finset.mem_erase.mpr ⟨(fun e => absurd (congrArg Prod.snd e) (show (SemLoc.dma cc0_scratch16.sem : SemLoc sig) ≠ SemLoc.dma cc0_scratch11.sem by decide)), (Finset.mem_erase.mpr ⟨(fun e => absurd (congrArg Prod.snd e) (show (SemLoc.dma cc0_scratch16.sem : SemLoc sig) ≠ SemLoc.dma cc0_scratch10.sem by decide)), (Finset.mem_erase.mpr ⟨(fun e => absurd (congrArg Prod.snd e) (show (SemLoc.dma cc0_scratch16.sem : SemLoc sig) ≠ SemLoc.dma cc0_scratch9.sem by decide)), (Finset.mem_erase.mpr ⟨(fun e => absurd (congrArg Prod.snd e) (show (SemLoc.dma cc0_scratch16.sem : SemLoc sig) ≠ SemLoc.dma cc0_scratch8.sem by decide)), (Finset.mem_erase.mpr ⟨(fun e => absurd (congrArg Prod.snd e) (show (SemLoc.dma cc0_scratch16.sem : SemLoc sig) ≠ SemLoc.dma cc0_scratch7.sem by decide)), (Finset.mem_erase.mpr ⟨(fun e => absurd (congrArg Prod.snd e) (show (SemLoc.dma cc0_scratch16.sem : SemLoc sig) ≠ SemLoc.dma cc0_scoped0.sem by decide)), ((mem_ownCells (g := dcell d L cc0_scratch16.sem)).mpr ⟨rfl, by show (SemLoc.dma cc0_scratch16.sem : SemLoc sig).isScoped .scVector = true; decide⟩)⟩)⟩)⟩)⟩)⟩)⟩)⟩)⟩)⟩)⟩),
    SparseCore.bigSep_erase' (Finset.mem_erase.mpr ⟨(fun e => absurd (congrArg Prod.snd e) (show (SemLoc.dma cc0_scratch17.sem : SemLoc sig) ≠ SemLoc.dma cc0_scratch16.sem by decide)), (Finset.mem_erase.mpr ⟨(fun e => absurd (congrArg Prod.snd e) (show (SemLoc.dma cc0_scratch17.sem : SemLoc sig) ≠ SemLoc.dma cc0_scratch15.sem by decide)), (Finset.mem_erase.mpr ⟨(fun e => absurd (congrArg Prod.snd e) (show (SemLoc.dma cc0_scratch17.sem : SemLoc sig) ≠ SemLoc.dma cc0_scratch14.sem by decide)), (Finset.mem_erase.mpr ⟨(fun e => absurd (congrArg Prod.snd e) (show (SemLoc.dma cc0_scratch17.sem : SemLoc sig) ≠ SemLoc.dma cc0_scratch13.sem by decide)), (Finset.mem_erase.mpr ⟨(fun e => absurd (congrArg Prod.snd e) (show (SemLoc.dma cc0_scratch17.sem : SemLoc sig) ≠ SemLoc.dma cc0_scratch12.sem by decide)), (Finset.mem_erase.mpr ⟨(fun e => absurd (congrArg Prod.snd e) (show (SemLoc.dma cc0_scratch17.sem : SemLoc sig) ≠ SemLoc.dma cc0_scratch11.sem by decide)), (Finset.mem_erase.mpr ⟨(fun e => absurd (congrArg Prod.snd e) (show (SemLoc.dma cc0_scratch17.sem : SemLoc sig) ≠ SemLoc.dma cc0_scratch10.sem by decide)), (Finset.mem_erase.mpr ⟨(fun e => absurd (congrArg Prod.snd e) (show (SemLoc.dma cc0_scratch17.sem : SemLoc sig) ≠ SemLoc.dma cc0_scratch9.sem by decide)), (Finset.mem_erase.mpr ⟨(fun e => absurd (congrArg Prod.snd e) (show (SemLoc.dma cc0_scratch17.sem : SemLoc sig) ≠ SemLoc.dma cc0_scratch8.sem by decide)), (Finset.mem_erase.mpr ⟨(fun e => absurd (congrArg Prod.snd e) (show (SemLoc.dma cc0_scratch17.sem : SemLoc sig) ≠ SemLoc.dma cc0_scratch7.sem by decide)), (Finset.mem_erase.mpr ⟨(fun e => absurd (congrArg Prod.snd e) (show (SemLoc.dma cc0_scratch17.sem : SemLoc sig) ≠ SemLoc.dma cc0_scoped0.sem by decide)), ((mem_ownCells (g := dcell d L cc0_scratch17.sem)).mpr ⟨rfl, by show (SemLoc.dma cc0_scratch17.sem : SemLoc sig).isScoped .scVector = true; decide⟩)⟩)⟩)⟩)⟩)⟩)⟩)⟩)⟩)⟩)⟩)⟩),
    SparseCore.bigSep_erase' (Finset.mem_erase.mpr ⟨(fun e => absurd (congrArg Prod.snd e) (show (SemLoc.dma cc0_scratch18.sem : SemLoc sig) ≠ SemLoc.dma cc0_scratch17.sem by decide)), (Finset.mem_erase.mpr ⟨(fun e => absurd (congrArg Prod.snd e) (show (SemLoc.dma cc0_scratch18.sem : SemLoc sig) ≠ SemLoc.dma cc0_scratch16.sem by decide)), (Finset.mem_erase.mpr ⟨(fun e => absurd (congrArg Prod.snd e) (show (SemLoc.dma cc0_scratch18.sem : SemLoc sig) ≠ SemLoc.dma cc0_scratch15.sem by decide)), (Finset.mem_erase.mpr ⟨(fun e => absurd (congrArg Prod.snd e) (show (SemLoc.dma cc0_scratch18.sem : SemLoc sig) ≠ SemLoc.dma cc0_scratch14.sem by decide)), (Finset.mem_erase.mpr ⟨(fun e => absurd (congrArg Prod.snd e) (show (SemLoc.dma cc0_scratch18.sem : SemLoc sig) ≠ SemLoc.dma cc0_scratch13.sem by decide)), (Finset.mem_erase.mpr ⟨(fun e => absurd (congrArg Prod.snd e) (show (SemLoc.dma cc0_scratch18.sem : SemLoc sig) ≠ SemLoc.dma cc0_scratch12.sem by decide)), (Finset.mem_erase.mpr ⟨(fun e => absurd (congrArg Prod.snd e) (show (SemLoc.dma cc0_scratch18.sem : SemLoc sig) ≠ SemLoc.dma cc0_scratch11.sem by decide)), (Finset.mem_erase.mpr ⟨(fun e => absurd (congrArg Prod.snd e) (show (SemLoc.dma cc0_scratch18.sem : SemLoc sig) ≠ SemLoc.dma cc0_scratch10.sem by decide)), (Finset.mem_erase.mpr ⟨(fun e => absurd (congrArg Prod.snd e) (show (SemLoc.dma cc0_scratch18.sem : SemLoc sig) ≠ SemLoc.dma cc0_scratch9.sem by decide)), (Finset.mem_erase.mpr ⟨(fun e => absurd (congrArg Prod.snd e) (show (SemLoc.dma cc0_scratch18.sem : SemLoc sig) ≠ SemLoc.dma cc0_scratch8.sem by decide)), (Finset.mem_erase.mpr ⟨(fun e => absurd (congrArg Prod.snd e) (show (SemLoc.dma cc0_scratch18.sem : SemLoc sig) ≠ SemLoc.dma cc0_scratch7.sem by decide)), (Finset.mem_erase.mpr ⟨(fun e => absurd (congrArg Prod.snd e) (show (SemLoc.dma cc0_scratch18.sem : SemLoc sig) ≠ SemLoc.dma cc0_scoped0.sem by decide)), ((mem_ownCells (g := dcell d L cc0_scratch18.sem)).mpr ⟨rfl, by show (SemLoc.dma cc0_scratch18.sem : SemLoc sig).isScoped .scVector = true; decide⟩)⟩)⟩)⟩)⟩)⟩)⟩)⟩)⟩)⟩)⟩)⟩)⟩)]

set_option maxRecDepth 8192 in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f)
          ∗ bigSep ((((((((ownRefs (τ := τ) (.scVector (cT L) (jT L))).erase ((Proc.scVector (cT L) (jT L)).devRef cc0_scratch0)).erase ((Proc.scVector (cT L) (jT L)).devRef cc0_scratch1)).erase ((Proc.scVector (cT L) (jT L)).devRef cc0_scratch2)).erase ((Proc.scVector (cT L) (jT L)).devRef cc0_scratch3)).erase ((Proc.scVector (cT L) (jT L)).devRef cc0_scratch4)).erase ((Proc.scVector (cT L) (jT L)).devRef cc0_scratch5)).erase ((Proc.scVector (cT L) (jT L)).devRef cc0_scratch6))
              fun b => iprop(∃ f, ((d, b) : Loc nD τ sig) ↦{fullShare} f)) := by
  unfold SparseCore.Cfg.ownBufs
  rw [SparseCore.bigSep_erase' (SparseCore.Cfg.mem_ownRefs_of_owner (p := Proc.scVector (cT L) (jT L)) (b := (Proc.scVector (cT L) (jT L)).devRef cc0_scratch0) rfl),
    SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cT L) (jT L)) (b := (Proc.scVector (cT L) (jT L)).devRef cc0_scratch1) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cT L) (jT L)) (b := (Proc.scVector (cT L) (jT L)).devRef cc0_scratch2) rfl)⟩)⟩),
    SparseCore.bigSep_erase' (Finset.mem_erase.mpr ⟨(fun e => absurd (Proc.devRef_injective _ e) (show (cc0_scratch3 : Ref sig .scVector) ≠ cc0_scratch2 by decide)), (Finset.mem_erase.mpr ⟨(fun e => absurd (Proc.devRef_injective _ e) (show (cc0_scratch3 : Ref sig .scVector) ≠ cc0_scratch1 by decide)), (Finset.mem_erase.mpr ⟨(fun e => absurd (Proc.devRef_injective _ e) (show (cc0_scratch3 : Ref sig .scVector) ≠ cc0_scratch0 by decide)), (SparseCore.Cfg.mem_ownRefs_of_owner (p := Proc.scVector (cT L) (jT L)) (b := (Proc.scVector (cT L) (jT L)).devRef cc0_scratch3) rfl)⟩)⟩)⟩),
    SparseCore.bigSep_erase' (Finset.mem_erase.mpr ⟨(fun e => absurd (Proc.devRef_injective _ e) (show (cc0_scratch4 : Ref sig .scVector) ≠ cc0_scratch3 by decide)), (Finset.mem_erase.mpr ⟨(fun e => absurd (Proc.devRef_injective _ e) (show (cc0_scratch4 : Ref sig .scVector) ≠ cc0_scratch2 by decide)), (Finset.mem_erase.mpr ⟨(fun e => absurd (Proc.devRef_injective _ e) (show (cc0_scratch4 : Ref sig .scVector) ≠ cc0_scratch1 by decide)), (Finset.mem_erase.mpr ⟨(fun e => absurd (Proc.devRef_injective _ e) (show (cc0_scratch4 : Ref sig .scVector) ≠ cc0_scratch0 by decide)), (SparseCore.Cfg.mem_ownRefs_of_owner (p := Proc.scVector (cT L) (jT L)) (b := (Proc.scVector (cT L) (jT L)).devRef cc0_scratch4) rfl)⟩)⟩)⟩)⟩),
    SparseCore.bigSep_erase' (Finset.mem_erase.mpr ⟨(fun e => absurd (Proc.devRef_injective _ e) (show (cc0_scratch5 : Ref sig .scVector) ≠ cc0_scratch4 by decide)), (Finset.mem_erase.mpr ⟨(fun e => absurd (Proc.devRef_injective _ e) (show (cc0_scratch5 : Ref sig .scVector) ≠ cc0_scratch3 by decide)), (Finset.mem_erase.mpr ⟨(fun e => absurd (Proc.devRef_injective _ e) (show (cc0_scratch5 : Ref sig .scVector) ≠ cc0_scratch2 by decide)), (Finset.mem_erase.mpr ⟨(fun e => absurd (Proc.devRef_injective _ e) (show (cc0_scratch5 : Ref sig .scVector) ≠ cc0_scratch1 by decide)), (Finset.mem_erase.mpr ⟨(fun e => absurd (Proc.devRef_injective _ e) (show (cc0_scratch5 : Ref sig .scVector) ≠ cc0_scratch0 by decide)), (SparseCore.Cfg.mem_ownRefs_of_owner (p := Proc.scVector (cT L) (jT L)) (b := (Proc.scVector (cT L) (jT L)).devRef cc0_scratch5) rfl)⟩)⟩)⟩)⟩)⟩),
    SparseCore.bigSep_erase' (Finset.mem_erase.mpr ⟨(fun e => absurd (Proc.devRef_injective _ e) (show (cc0_scratch6 : Ref sig .scVector) ≠ cc0_scratch5 by decide)), (Finset.mem_erase.mpr ⟨(fun e => absurd (Proc.devRef_injective _ e) (show (cc0_scratch6 : Ref sig .scVector) ≠ cc0_scratch4 by decide)), (Finset.mem_erase.mpr ⟨(fun e => absurd (Proc.devRef_injective _ e) (show (cc0_scratch6 : Ref sig .scVector) ≠ cc0_scratch3 by decide)), (Finset.mem_erase.mpr ⟨(fun e => absurd (Proc.devRef_injective _ e) (show (cc0_scratch6 : Ref sig .scVector) ≠ cc0_scratch2 by decide)), (Finset.mem_erase.mpr ⟨(fun e => absurd (Proc.devRef_injective _ e) (show (cc0_scratch6 : Ref sig .scVector) ≠ cc0_scratch1 by decide)), (Finset.mem_erase.mpr ⟨(fun e => absurd (Proc.devRef_injective _ e) (show (cc0_scratch6 : Ref sig .scVector) ≠ cc0_scratch0 by decide)), (SparseCore.Cfg.mem_ownRefs_of_owner (p := Proc.scVector (cT L) (jT L)) (b := (Proc.scVector (cT L) (jT L)).devRef cc0_scratch6) rfl)⟩)⟩)⟩)⟩)⟩)⟩)]

/-- Chunk `r` of the tile's rows of an output array, as the tile addresses it. -/
abbrev pChunk (L : grid0.Coords) (r : Fin 4) : Memref sig .scVector .hbm S128x128 .f32 :=
  ((pV).slice (Rect.unit (s := S4x1x4096x128) (k0_off2 L (BitVec.ofNat 32 (128 * r.val))) S1x1x128x128.size (k0_off2_inb L r)) (fun _ => rfl)).squeeze S128x128 squeezes_S1x1x128x128_S128x128
abbrev qChunk (L : grid0.Coords) (r : Fin 4) : Memref sig .scVector .hbm S128x128 .f32 :=
  ((qV).slice (Rect.unit (s := S4x1x4096x128) (k0_off2 L (BitVec.ofNat 32 (128 * r.val))) S1x1x128x128.size (k0_off2_inb L r)) (fun _ => rfl)).squeeze S128x128 squeezes_S1x1x128x128_S128x128

theorem chunkRect_eq (r : Fin 4) :
    Rect.unit (s := S4x1x4096x128) (k0_off2 L (BitVec.ofNat 32 (128 * r.val))) S1x1x128x128.size (k0_off2_inb L r) = chunkRect (cL L) (jL L) r := by
  unfold chunkRect
  congr 1
  funext a; exact off2_eq L r a

theorem set_pChunk (r : Fin 4) : (pChunk L r).view.set = cSet (cL L) (jL L) r := by
  show (((pV).view.slice (Rect.unit (s := S4x1x4096x128) (k0_off2 L (BitVec.ofNat 32 (128 * r.val))) S1x1x128x128.size (k0_off2_inb L r))).reshape S128x128 squeezes_S1x1x128x128_S128x128.numel_eq).set = _
  rw [View.set_reshape]
  show ((View.whole (main_v0_0_scv : Ref sig .scVector)).slice _).set = _
  rw [View.set_slice_whole, chunkRect_eq]; rfl
theorem set_qChunk (r : Fin 4) : (qChunk L r).view.set = cSet (cL L) (jL L) r := by
  show (((qV).view.slice (Rect.unit (s := S4x1x4096x128) (k0_off2 L (BitVec.ofNat 32 (128 * r.val))) S1x1x128x128.size (k0_off2_inb L r))).reshape S128x128 squeezes_S1x1x128x128_S128x128.numel_eq).set = _
  rw [View.set_reshape]
  show ((View.whole (main_v0_1_scv : Ref sig .scVector)).slice _).set = _
  rw [View.set_slice_whole, chunkRect_eq]; rfl

theorem pts_p (r : Fin 4) (f : Buf (Elt F) (pLoc d)) :
    ((pChunk L r).view.loc (thr d L) ↦[(pChunk L r).view.set]{fullShare} f : sProp 𝕄) = (pLoc d ↦[cSet (cL L) (jL L) r]{fullShare} f) := by
  rw [set_pChunk]
theorem pts_q (r : Fin 4) (f : Buf (Elt F) (qLoc d)) :
    ((qChunk L r).view.loc (thr d L) ↦[(qChunk L r).view.set]{fullShare} f : sProp 𝕄) = (qLoc d ↦[cSet (cL L) (jL L) r]{fullShare} f) := by
  rw [set_qChunk]

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The list buffer by quarters -/

abbrev lSl0 : Memref sig .scVector .vmem S128 .i32 := (lV).slice (Rect.unit (s := S512) ![0] S128.size inb_S512_S128_0) (fun _ => rfl)
abbrev lSl1 : Memref sig .scVector .vmem S128 .i32 := (lV).slice (Rect.unit (s := S512) ![128] S128.size inb_S512_S128_128) (fun _ => rfl)
abbrev lSl2 : Memref sig .scVector .vmem S128 .i32 := (lV).slice (Rect.unit (s := S512) ![256] S128.size inb_S512_S128_256) (fun _ => rfl)
abbrev lSl3 : Memref sig .scVector .vmem S128 .i32 := (lV).slice (Rect.unit (s := S512) ![384] S128.size inb_S512_S128_384) (fun _ => rfl)

def lRect (k : Fin 4) : Rect S512 :=
  Rect.unit (s := S512) ![128 * k.val] ![128] (by intro a; have := k.isLt; fin_cases a; simp; omega)

theorem lRect_disjoint : ∀ k ∈ (Finset.univ : Finset (Fin 4)), ∀ k' ∈ (Finset.univ : Finset (Fin 4)), k ≠ k' → Disjoint (lRect k).set (lRect k').set := by
  intro k _ k' _ h
  unfold lRect
  refine Rect.unit_disjoint 0 ?_
  have : k.val ≠ k'.val := fun e => h (Fin.ext e)
  simp; omega

theorem lRect_cover : (Finset.univ : Finset (Fin 4)).biUnion (fun k => (lRect k).set) = Finset.univ := by
  ext x
  simp only [Finset.mem_biUnion, Finset.mem_univ, true_and, iff_true]
  have hx : (x 0).val < 512 := (x 0).isLt
  refine ⟨⟨(x 0).val / 128, by omega⟩, ?_⟩
  unfold lRect
  rw [Rect.mem_set_unit]
  intro a; fin_cases a; simp; omega

theorem set_lSl0 : (lSl0).view.set = (lRect 0).set := by
  show ((View.whole (cc0_scratch0 : Ref sig .scVector)).slice _).set = _
  rw [View.set_slice_whole]; rfl
theorem set_lSl1 : (lSl1).view.set = (lRect 1).set := by
  show ((View.whole (cc0_scratch0 : Ref sig .scVector)).slice _).set = _
  rw [View.set_slice_whole]; rfl
theorem set_lSl2 : (lSl2).view.set = (lRect 2).set := by
  show ((View.whole (cc0_scratch0 : Ref sig .scVector)).slice _).set = _
  rw [View.set_slice_whole]; rfl
theorem set_lSl3 : (lSl3).view.set = (lRect 3).set := by
  show ((View.whole (cc0_scratch0 : Ref sig .scVector)).slice _).set = _
  rw [View.set_slice_whole]; rfl

abbrev lLoc (d : Dev nD) (L : grid0.Coords) : Loc nD τ sig := (thr d L).loc cc0_scratch0

/-- The list buffer whole is its four quarters, each at two half shares. -/
theorem list_quarters (f : Buf (Elt F) (lLoc d L)) :
    (lLoc d L ↦{fullShare} f : sProp 𝕄) ⊣⊢ iprop(
      ((lLoc d L ↦[(lRect 0).set]{fullShare.left} f) ∗ (lLoc d L ↦[(lRect 0).set]{fullShare.right} f))
      ∗ ((lLoc d L ↦[(lRect 1).set]{fullShare.left} f) ∗ (lLoc d L ↦[(lRect 1).set]{fullShare.right} f))
      ∗ ((lLoc d L ↦[(lRect 2).set]{fullShare.left} f) ∗ (lLoc d L ↦[(lRect 2).set]{fullShare.right} f))
      ∗ ((lLoc d L ↦[(lRect 3).set]{fullShare.left} f) ∗ (lLoc d L ↦[(lRect 3).set]{fullShare.right} f))) := by
  have e : (lLoc d L ↦{fullShare} f : sProp 𝕄)
      = iprop((lLoc d L ↦[(lRect 0).set]{fullShare} f) ∗ (lLoc d L ↦[(lRect 1).set]{fullShare} f)
          ∗ (lLoc d L ↦[(lRect 2).set]{fullShare} f) ∗ (lLoc d L ↦[(lRect 3).set]{fullShare} f)) := by
    rw [← bigSep_fin4 (F := F) (fun k => (lLoc d L ↦[(lRect k).set]{fullShare} f : sProp 𝕄)),
      ← pointsTo_biUnion Finset.univ (ℓ := lLoc d L) (fun k => (lRect k).set) lRect_disjoint, lRect_cover]
  rw [e]
  have hh : ∀ k : Fin 4, (lLoc d L ↦[(lRect k).set]{fullShare} f : sProp 𝕄)
      ⊣⊢ iprop((lLoc d L ↦[(lRect k).set]{fullShare.left} f) ∗ (lLoc d L ↦[(lRect k).set]{fullShare.right} f)) :=
    fun k => pointsTo_share (PosShare.mem_left_op_right fullShare)
  constructor
  · iintro ⟨H0, H1, H2, H3⟩
    isplitl [H0]; · iapply (hh 0).1; iexact H0
    isplitl [H1]; · iapply (hh 1).1; iexact H1
    isplitl [H2]; · iapply (hh 2).1; iexact H2
    iapply (hh 3).1; iexact H3
  · iintro ⟨H0, H1, H2, H3⟩
    isplitl [H0]; · iapply (hh 0).2; iexact H0
    isplitl [H1]; · iapply (hh 1).2; iexact H1
    isplitl [H2]; · iapply (hh 2).2; iexact H2
    iapply (hh 3).2; iexact H3

end Tile

end Cert.Proof.KB

end
-- ==== Proof.KBValue.lean ====
/-
  The values the gather kernel moves, as index equations. A tile's list holds the position ids of its 512 positions;
  the gather of quarter r of the list into a staging buffer puts, at row k and lane l, lane l of the table's row named by
  list entry 128 r + k; and row k, lane l of chunk r of the tile's block of an output array is the array's entry at the
  tile's batch row, position 512 (w mod 8) + 128 r + k, lane l. So what lands in the chunk is the specification there.
-/
import proofs.«214962_g25580825215366_cont_9to1_529_15_alg».proof.Proof.KBBase
import Idealize.ShloMosaic.Lib.ValueIdx
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S4x4096 EltTy.i32)
local notation "cV" => (Memref.whole Cert.Kernel.main_arg2_scv : Memref Cert.Kernel.sig Kind.scVector Space.hbm Cert.Kernel.S8192x128 EltTy.f32)
local notation "sV" => (Memref.whole Cert.Kernel.main_arg3_scv : Memref Cert.Kernel.sig Kind.scVector Space.hbm Cert.Kernel.S8192x128 EltTy.f32)
local notation "pV" => (Memref.whole Cert.Kernel.main_v0_0_scv : Memref Cert.Kernel.sig Kind.scVector Space.hbm Cert.Kernel.S4x1x4096x128 EltTy.f32)
local notation "qV" => (Memref.whole Cert.Kernel.main_v0_1_scv : Memref Cert.Kernel.sig Kind.scVector Space.hbm Cert.Kernel.S4x1x4096x128 EltTy.f32)
local notation "lV" => (Memref.whole Cert.Kernel.cc0_scratch0 : Memref Cert.Kernel.sig Kind.scVector Space.vmem Cert.Kernel.S512 EltTy.i32)
local notation "b1V" => (Memref.whole Cert.Kernel.cc0_scratch1 : Memref Cert.Kernel.sig Kind.scVector Space.vmem Cert.Kernel.S128x128 EltTy.f32)
local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)
local notation "b6V" => (Memref.whole Cert.Kernel.cc0_scratch6 : Memref Cert.Kernel.sig Kind.scVector Space.vmem Cert.Kernel.S128x128 EltTy.f32)

variable (m : (ℓ : Loc nD τ sig) → Buf (Elt F) ℓ) (d : Dev nD) (L : grid0.Coords)

/-- The tile's 512 position ids in the position array, as the tile addresses them. -/
abbrev iRowK (L : grid0.Coords) : Memref sig .scVector .hbm S512 .i32 :=
  ((iV).slice (Rect.unit (s := S4x4096) (k0_off1 L) S1x512.size (k0_off1_inb L)) (fun _ => rfl)).squeeze S512 squeezes_S1x512_S512
abbrev cAll : Memref sig .scVector .hbm S8192x128 .f32 :=
  (cV).slice (Rect.unit (s := S8192x128) ![0, 0] S8192x128.size inb_S8192x128_S8192x128_0_0) (fun _ => rfl)
abbrev sAll : Memref sig .scVector .hbm S8192x128 .f32 :=
  (sV).slice (Rect.unit (s := S8192x128) ![0, 0] S8192x128.size inb_S8192x128_S8192x128_0_0) (fun _ => rfl)
/-- The 128 list entries from `o` on. -/
abbrev lSlO (o : ℕ) (h : ∀ a, (![o] : Fin 1 → ℕ) a + S128.size a ≤ S512.size a) : Memref sig .scVector .vmem S128 .i32 :=
  (lV).slice (Rect.unit (s := S512) ![o] S128.size h) (fun _ => rfl)

/-- What the two output arrays end as. -/
abbrev Gp (d : Dev nD) : Buf (Elt F) (pLoc d) := Cert.Spec.gatherRows (m (cLoc d)) (m (iLoc d))
abbrev Gq (d : Dev nD) : Buf (Elt F) (qLoc d) := Cert.Spec.gatherRows (m (sLoc d)) (m (iLoc d))

theorem wN_lt (c : Fin 2) (s : Fin 16) : wN c s < 32 := by have := c.isLt; have := s.isLt; unfold wN; omega

theorem reshape_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    simp only [Nat.zero_mul, Nat.zero_add])

/-- Entry x of the tile's rows of the position array is the array's entry at the tile's batch row and position. -/
theorem iRow_emb (x : Fin 512) :
    (iRowK L).view.emb (ix1 x) = (ix2 (⟨wN (cL L) (jL L) / 8, by have := wN_lt (cL L) (jL L); omega⟩ : Fin 4)
      (⟨(wN (cL L) (jL L) % 8) * 512 + x.val, by have := x.isLt; omega⟩ : Fin 4096) : S4x4096.Idx) := by
  have e : (iRowK L).view.emb (ix1 x)
      = (Rect.unit (s := S4x4096) (k0_off1 L) S1x512.size (k0_off1_inb L)).emb (Shape.reshapeEquiv squeezes_S1x512_S512.numel_eq (ix1 x)) := rfl
  rw [e, reshape_1a]
  funext a
  apply Fin.ext
  show k0_off1 L a + 1 * ((ix2 (⟨0, Nat.one_pos⟩ : Fin 1) x : S1x512.Idx) a).val = _
  rw [off1_eq]
  fin_cases a
  · simp
  · simp

/-- Row y0, lane y1 of chunk r of the tile's block of the first output array. -/
theorem pChunk_emb (r : Fin 4) (y0 y1 : Fin 128) :
    (pChunk L r).view.emb (ix2 y0 y1) = (ix4 (⟨wN (cL L) (jL L) / 8, by have := wN_lt (cL L) (jL L); omega⟩ : Fin 4) (⟨0, Nat.one_pos⟩ : Fin 1)
      (⟨(wN (cL L) (jL L) % 8) * 512 + 128 * r.val + y0.val, by have := y0.isLt; have := r.isLt; omega⟩ : Fin 4096) y1 : S4x1x4096x128.Idx) := by
  have e : (pChunk L r).view.emb (ix2 y0 y1)
      = (Rect.unit (s := S4x1x4096x128) (k0_off2 L (BitVec.ofNat 32 (128 * r.val))) S1x1x128x128.size (k0_off2_inb L r)).emb
          (Shape.reshapeEquiv squeezes_S1x1x128x128_S128x128.numel_eq (ix2 y0 y1)) := rfl
  rw [e, reshapeEquiv_ix2_11ab]
  funext a
  apply Fin.ext
  show k0_off2 L (BitVec.ofNat 32 (128 * r.val)) a + 1 * ((ix4 (⟨0, Nat.one_pos⟩ : Fin 1) (⟨0, Nat.one_pos⟩ : Fin 1) y0 y1 : S1x1x128x128.Idx) a).val = _
  rw [off2_eq]
  fin_cases a <;> simp

theorem qChunk_emb (r : Fin 4) (y0 y1 : Fin 128) :
    (qChunk L r).view.emb (ix2 y0 y1) = (ix4 (⟨wN (cL L) (jL L) / 8, by have := wN_lt (cL L) (jL L); omega⟩ : Fin 4) (⟨0, Nat.one_pos⟩ : Fin 1)
      (⟨(wN (cL L) (jL L) % 8) * 512 + 128 * r.val + y0.val, by have := y0.isLt; have := r.isLt; omega⟩ : Fin 4096) y1 : S4x1x4096x128.Idx) := by
  have e : (qChunk L r).view.emb (ix2 y0 y1)
      = (Rect.unit (s := S4x1x4096x128) (k0_off2 L (BitVec.ofNat 32 (128 * r.val))) S1x1x128x128.size (k0_off2_inb L r)).emb
          (Shape.reshapeEquiv squeezes_S1x1x128x128_S128x128.numel_eq (ix2 y0 y1)) := rfl
  rw [e, reshapeEquiv_ix2_11ab]
  funext a
  apply Fin.ext
  show k0_off2 L (BitVec.ofNat 32 (128 * r.val)) a + 1 * ((ix4 (⟨0, Nat.one_pos⟩ : Fin 1) (⟨0, Nat.one_pos⟩ : Fin 1) y0 y1 : S1x1x128x128.Idx) a).val = _
  rw [off2_eq]
  fin_cases a <;> simp

/-- Entry x of the list's quarter from `o` on is entry o + x of the list. -/
theorem lSl_emb (o : ℕ) (h : ∀ a, (![o] : Fin 1 → ℕ) a + S128.size a ≤ S512.size a) (x : Fin 128) :
    (lSlO o h).view.emb (ix1 x) = (ix1 (⟨o + x.val, by have h0 : o + 128 ≤ 512 := h 0; have := x.isLt; omega⟩ : Fin 512) : S512.Idx) := by
  funext a
  apply Fin.ext
  show (![o] : Fin 1 → ℕ) a + 1 * ((ix1 x : S128.Idx) a).val = _
  fin_cases a; simp

/-- Row k of the table, lane l, through the table's whole-array window. -/
theorem cAll_emb (k : Fin 8192) (l : Fin 128) : (cAll).view.emb (ix2 k l) = (ix2 k l : S8192x128.Idx) := by
  funext a
  apply Fin.ext
  show (![0, 0] : Fin 2 → ℕ) a + 1 * ((ix2 k l : S8192x128.Idx) a).val = _
  fin_cases a <;> simp
theorem sAll_emb (k : Fin 8192) (l : Fin 128) : (sAll).view.emb (ix2 k l) = (ix2 k l : S8192x128.Idx) := by
  funext a
  apply Fin.ext
  show (![0, 0] : Fin 2 → ℕ) a + 1 * ((ix2 k l : S8192x128.Idx) a).val = _
  fin_cases a <;> simp

/-- The gather's source index at row y0, lane y1 of the staging buffer: the row the list names, the same lane. -/
theorem gidx (rws : Fin (S128x128.size gathers_S8192x128_S128x128.axis') → Fin (S8192x128.size gathers_S8192x128_S128x128.axis)) (y0 y1 : Fin 128) :
    gathers_S8192x128_S128x128.idx rws (ix2 y0 y1) = (ix2 (rws y0) y1 : S8192x128.Idx) := by
  funext a
  apply Fin.ext
  fin_cases a
  · exact congrArg Fin.val (Shape.Gathers.idx_axis gathers_S8192x128_S128x128 rws (ix2 y0 y1))
  · exact Shape.Gathers.idx_of_ne gathers_S8192x128_S128x128 rws (ix2 y0 y1) 1 (by decide)

/-- The k-th row an offset list of 128 words names is its k-th word. -/
theorem rows_val (idxf : S128.Idx → Elt F .i32) (hn : S128.numel = S128x128.size gathers_S8192x128_S128x128.axis')
    (hin : ∀ x, (idxf x).toNat < S8192x128.size gathers_S8192x128_S128x128.axis) (k : Fin 128) :
    (SparseCore.rows idxf hn hin k).val = (idxf (ix1 k)).toNat := by
  unfold SparseCore.rows
  show (idxf (S128.rowMajor.symm (k.cast hn.symm))).toNat = _
  congr 2
  rw [Equiv.symm_apply_eq]
  apply Fin.ext
  rw [Shape.rowMajor_val_one]
  rfl

/-- The position ids below 4096: what the certificate's precondition says of the position array. -/
def PreOK : Prop := ∀ (d : Dev nD) (j : S4x4096.Idx), (m (iLoc d) j).toNat < 4096

/-- What the tile's list holds once the tile has fetched its position ids, whatever it held before. -/
abbrev lstOf (fl : (lV).view.ty.Contents (Elt F)) : (lV).view.ty.Contents (Elt F) :=
  View.write (Elt F) (lV).view fl (ReadAs.same.apply (View.read (Elt F) (iRowK L).view (m (iLoc d)))) Finset.univ

theorem lst_entry (fl : (lV).view.ty.Contents (Elt F)) (x : Fin 512) :
    lstOf m d L fl (ix1 x) = m (iLoc d) (ix2 (⟨wN (cL L) (jL L) / 8, by have := wN_lt (cL L) (jL L); omega⟩ : Fin 4)
      (⟨(wN (cL L) (jL L) % 8) * 512 + x.val, by have := x.isLt; omega⟩ : Fin 4096)) := by
  unfold lstOf
  rw [View.write_whole_univ, ReadAs.apply_same]
  show m (iLoc d) ((iRowK L).view.emb (ix1 x)) = _
  rw [iRow_emb]

/-- Every list entry names a row of the tables. -/
theorem lst_inb (hpre : PreOK m) (fl : (lV).view.ty.Contents (Elt F)) (x : S512.Idx) :
    ((lV).view.read (Elt F) (lstOf m d L fl) x).toNat < 8192 := by
  obtain ⟨p, rfl⟩ : ∃ p : Fin 512, x = ix1 p := ⟨x 0, eq_ix1 x⟩
  show (lstOf m d L fl (ix1 p)).toNat < 8192
  rw [lst_entry]
  exact lt_trans (hpre d _) (by decide)

/-- The cosine rows gathered through quarter r of the list are the specification on chunk r of the tile's block. -/
theorem chunk_val_p (hpre : PreOK m) (fl : (lV).view.ty.Contents (Elt F)) (r : Fin 4)
    (h : ∀ a, (![128 * r.val] : Fin 1 → ℕ) a + S128.size a ≤ S512.size a)
    (hn : S128.numel = S128x128.size gathers_S8192x128_S128x128.axis')
    (hin : ∀ x, ((lSlO (128 * r.val) h).view.read (Elt F) (lstOf m d L fl) x).toNat < S8192x128.size gathers_S8192x128_S128x128.axis)
    (y : S128x128.Idx) :
    SparseCore.gatherPayload gathers_S8192x128_S128x128 (View.read (Elt F) (cAll).view (m (cLoc d)))
        (SparseCore.rows (View.read (Elt F) (lSlO (128 * r.val) h).view (lstOf m d L fl)) hn hin) y
      = Gp m d ((pChunk L r).view.emb y) := by
  obtain ⟨y0, y1, rfl⟩ : ∃ (y0 y1 : Fin 128), y = ix2 y0 y1 := ⟨y 0, y 1, eq_ix2 y⟩
  rw [pChunk_emb]
  unfold SparseCore.gatherPayload
  rw [gidx]
  refine (congrArg (m (cLoc d)) (cAll_emb (SparseCore.rows (View.read (Elt F) (lSlO (128 * r.val) h).view (lstOf m d L fl)) hn hin y0) y1)).trans ?_
  unfold Gp Cert.Spec.gatherRows
  congr 1
  funext a
  apply Fin.ext
  fin_cases a
  · show (SparseCore.rows _ hn hin y0).val = _
    rw [rows_val]
    show (lstOf m d L fl ((lSlO (128 * r.val) h).view.emb (ix1 y0))).toNat = _
    rw [lSl_emb, lst_entry]
    have hmod : ∀ j : S4x4096.Idx, (m (iLoc d) j).toNat % 8192 = (m (iLoc d) j).toNat :=
      fun j => Nat.mod_eq_of_lt (lt_trans (hpre d j) (by decide))
    show _ = (m (iLoc d) _).toNat % 8192
    rw [hmod]
    congr 2
    funext a
    fin_cases a
    · rfl
    · apply Fin.ext
      show _ + (_ + _) = _ + _ + _
      omega
  · rfl

/-- The sine rows gathered through quarter r of the list are the specification on chunk r of the tile's block. -/
theorem chunk_val_q (hpre : PreOK m) (fl : (lV).view.ty.Contents (Elt F)) (r : Fin 4)
    (h : ∀ a, (![128 * r.val] : Fin 1 → ℕ) a + S128.size a ≤ S512.size a)
    (hn : S128.numel = S128x128.size gathers_S8192x128_S128x128.axis')
    (hin : ∀ x, ((lSlO (128 * r.val) h).view.read (Elt F) (lstOf m d L fl) x).toNat < S8192x128.size gathers_S8192x128_S128x128.axis)
    (y : S128x128.Idx) :
    SparseCore.gatherPayload gathers_S8192x128_S128x128 (View.read (Elt F) (sAll).view (m (sLoc d)))
        (SparseCore.rows (View.read (Elt F) (lSlO (128 * r.val) h).view (lstOf m d L fl)) hn hin) y
      = Gq m d ((qChunk L r).view.emb y) := by
  obtain ⟨y0, y1, rfl⟩ : ∃ (y0 y1 : Fin 128), y = ix2 y0 y1 := ⟨y 0, y 1, eq_ix2 y⟩
  rw [qChunk_emb]
  unfold SparseCore.gatherPayload
  rw [gidx]
  refine (congrArg (m (sLoc d)) (sAll_emb (SparseCore.rows (View.read (Elt F) (lSlO (128 * r.val) h).view (lstOf m d L fl)) hn hin y0) y1)).trans ?_
  unfold Gq Cert.Spec.gatherRows
  congr 1
  funext a
  apply Fin.ext
  fin_cases a
  · show (SparseCore.rows _ hn hin y0).val = _
    rw [rows_val]
    show (lstOf m d L fl ((lSlO (128 * r.val) h).view.emb (ix1 y0))).toNat = _
    rw [lSl_emb, lst_entry]
    have hmod : ∀ j : S4x4096.Idx, (m (iLoc d) j).toNat % 8192 = (m (iLoc d) j).toNat :=
      fun j => Nat.mod_eq_of_lt (lt_trans (hpre d j) (by decide))
    show _ = (m (iLoc d) _).toNat % 8192
    rw [hmod]
    congr 2
    funext a
    fin_cases a
    · rfl
    · apply Fin.ext
      show _ + (_ + _) = _ + _ + _
      omega
  · rfl

/-- A staging buffer read whole right after a gather filled it whole is the gather's payload. -/
theorem staged (v : View sig .scVector .vmem S128x128 .f32) (fK : v.ty.Contents (Elt F)) (g : S128x128.Idx → Elt F .f32)
    (Ls : List (View.Piece (Elt F) S128x128 .f32)) (y : S128x128.Idx) :
    ReadAs.same.apply (View.read (Elt F) v (v.writes (Elt F) fK (⟨Rect.whole S128x128, g⟩ :: Ls))) y = g y := by
  rw [ReadAs.apply_same]
  have h := View.read_writes_cons_emb v fK (Rect.whole S128x128) g Ls y
  rwa [Rect.emb_whole_apply] at h

end Cert.Proof.KB

end
-- ==== Proof.KBBody.lean ====
/-
  One tile's task. The tile copies its 512 position ids into its list buffer and waits; then, three gathers ahead, for
  each of eight tasks (chunk r of the cosine table for even tasks, of the sine table for odd ones) it waits for the
  task's gather into one of six staging buffers, starts the copy of that buffer to chunk r of the matching output and,
  before reusing a staging buffer for a later gather, waits for that buffer's copy-out. Every staging buffer has its own
  two semaphores, so at most one transfer is ever outstanding on a semaphore. The tile holds a share of the position
  array and of each table (read only), its eight output chunks outright, and ends with every chunk at the specification.
-/
import proofs.«214962_g25580825215366_cont_9to1_529_15_alg».proof.Proof.KBBase
import proofs.«214962_g25580825215366_cont_9to1_529_15_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S4x4096 EltTy.i32)
local notation "cV" => (Memref.whole Cert.Kernel.main_arg2_scv : Memref Cert.Kernel.sig Kind.scVector Space.hbm Cert.Kernel.S8192x128 EltTy.f32)
local notation "sV" => (Memref.whole Cert.Kernel.main_arg3_scv : Memref Cert.Kernel.sig Kind.scVector Space.hbm Cert.Kernel.S8192x128 EltTy.f32)
local notation "pV" => (Memref.whole Cert.Kernel.main_v0_0_scv : Memref Cert.Kernel.sig Kind.scVector Space.hbm Cert.Kernel.S4x1x4096x128 EltTy.f32)
local notation "qV" => (Memref.whole Cert.Kernel.main_v0_1_scv : Memref Cert.Kernel.sig Kind.scVector Space.hbm Cert.Kernel.S4x1x4096x128 EltTy.f32)
local notation "lV" => (Memref.whole Cert.Kernel.cc0_scratch0 : Memref Cert.Kernel.sig Kind.scVector Space.vmem Cert.Kernel.S512 EltTy.i32)
local notation "b1V" => (Memref.whole Cert.Kernel.cc0_scratch1 : Memref Cert.Kernel.sig Kind.scVector Space.vmem Cert.Kernel.S128x128 EltTy.f32)
local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)
local notation "b6V" => (Memref.whole Cert.Kernel.cc0_scratch6 : Memref Cert.Kernel.sig Kind.scVector Space.vmem Cert.Kernel.S128x128 EltTy.f32)

variable (m : (ℓ : Loc nD τ sig) → Buf (Elt F) ℓ)

/-- Tile (c, s)'s share of an array all tiles read: the full share cut in two for the SparseCores, each half in sixteen. -/
abbrev tq (c : Fin 2) (s : Fin 16) : PosShare TreeShare := pieceOf (pieceOf fullShare 2 (by decide) c) 16 (by decide) s

/-- What tile (c, s) works with: its shares of the position array and the two tables, and its four chunks of each
    output array, those at contents `fp` and `fq`. -/
def goR (d : Dev nD) (c : Fin 2) (s : Fin 16) (fp : Buf (Elt F) (pLoc d)) (fq : Buf (Elt F) (qLoc d)) : sProp 𝕄 :=
  iprop((iLoc d ↦{tq c s} m (iLoc d)) ∗ (cLoc d ↦{tq c s} m (cLoc d)) ∗ (sLoc d ↦{tq c s} m (sLoc d))
    ∗ (bigSep Finset.univ fun r : Fin 4 => pLoc d ↦[cSet c s r]{fullShare} fp)
    ∗ (bigSep Finset.univ fun r : Fin 4 => qLoc d ↦[cSet c s r]{fullShare} fq))

theorem range6 (Φ : ℕ → sProp 𝕄) : bigSep (Finset.range 6) Φ = iprop(Φ 0 ∗ Φ 1 ∗ Φ 2 ∗ Φ 3 ∗ Φ 4 ∗ Φ 5) := by
  rw [show Finset.range 6 = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]

/-- A read share as six read tokens, one per staging buffer's gather semaphore, and a remainder. -/
theorem toks6 {ℓ : Loc nD τ sig} (q : PosShare TreeShare) (f : Buf (Elt F) ℓ) :
    (ℓ ↦{q} f : sProp 𝕄) ⊣⊢ iprop((ℓ ↦{Transfers.shareDrop q 6} f) ∗ (ℓ ↦{Transfers.shareTokN q 0} f) ∗ (ℓ ↦{Transfers.shareTokN q 1} f)
      ∗ (ℓ ↦{Transfers.shareTokN q 2} f) ∗ (ℓ ↦{Transfers.shareTokN q 3} f) ∗ (ℓ ↦{Transfers.shareTokN q 4} f) ∗ (ℓ ↦{Transfers.shareTokN q 5} f)) := by
  have h := Transfers.pointsTo_toks_range (ℓ := ℓ) (S := Finset.univ) (f := f) (Lvl := ℕ) (Name := ℕ) (U := UU) (Ix := HIx 1) q 6
  rw [range6] at h
  exact h

/-- A chunk written whole with a payload that is the function `G` there holds `G`. -/
theorem out_congr {c : Thread nD τ} (v : View sig c.2.kind .hbm S128x128 .f32) (f0 G : Buf (Elt F) (v.loc c))
    (pay : S128x128.Idx → Elt F .f32) (h : ∀ y, pay y = v.read (Elt F) G y) :
    (v.loc c ↦[v.set]{fullShare} v.writes (Elt F) f0 [⟨Rect.whole S128x128, pay⟩] : sProp 𝕄) = (v.loc c ↦[v.set]{fullShare} G) :=
  pointsTo_congr fun i hi => by
    obtain ⟨x, -, rfl⟩ := Finset.mem_map.mp hi
    have h1 := View.read_writes_cons_emb v f0 (Rect.whole S128x128) pay [] x
    rw [Rect.emb_whole_apply] at h1
    have h2 := h1.trans (h x)
    rw [View.read_apply, View.read_apply] at h2
    exact (cast_inj _).1 h2

theorem waits_insert {W' W : Waits sig (HIx 1)} {x : SemLoc sig × HIx 1} (hx : x.2 = none)
    (h : ∀ p ∈ W', p ∈ W ∨ p.2 = none) : ∀ p ∈ insert x W', p ∈ W ∨ p.2 = none := by
  intro p hp
  rcases Finset.mem_insert.mp hp with hp | hp
  · exact .inr (hp ▸ hx)
  · exact h p hp

/-- An assertion set aside: the same assertion, kept folded until it is needed. -/
def Hid (P : sProp 𝕄) : sProp 𝕄 := P
theorem hid_eq (P : sProp 𝕄) : Hid P = P := rfl

section Tile

variable (d : Dev nD) (L : grid0.Coords)

theorem pts_hbm (b : Ref sig .scVector) (q : PosShare TreeShare) (f : Buf (Elt F) ((thr d L).loc b)) :
    (((Memref.whole b).view.loc (thr d L) ↦{q} f : sProp 𝕄)) = ((thr d L).loc b ↦{q} f) := rfl

theorem pts_l0 (q : PosShare TreeShare) (f : Buf (Elt F) (lLoc d L)) :
    ((lLoc d L ↦[(lRect 0).set]{q} f : sProp 𝕄)) = ((lSl0).view.loc (thr d L) ↦[(lSl0).view.set]{q} f) := by rw [set_lSl0]
theorem pts_l1 (q : PosShare TreeShare) (f : Buf (Elt F) (lLoc d L)) :
    ((lLoc d L ↦[(lRect 1).set]{q} f : sProp 𝕄)) = ((lSl1).view.loc (thr d L) ↦[(lSl1).view.set]{q} f) := by rw [set_lSl1]
theorem pts_l2 (q : PosShare TreeShare) (f : Buf (Elt F) (lLoc d L)) :
    ((lLoc d L ↦[(lRect 2).set]{q} f : sProp 𝕄)) = ((lSl2).view.loc (thr d L) ↦[(lSl2).view.set]{q} f) := by rw [set_lSl2]
theorem pts_l3 (q : PosShare TreeShare) (f : Buf (Elt F) (lLoc d L)) :
    ((lLoc d L ↦[(lRect 3).set]{q} f : sProp 𝕄)) = ((lSl3).view.loc (thr d L) ↦[(lSl3).view.set]{q} f) := by rw [set_lSl3]

variable [FloatOps F]

set_option maxHeartbeats 8000000 in
set_option maxRecDepth 16384 in
/-- The task on the vector subcore at coordinates `L` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goR m d (cL L) (jL L) (m (pLoc d)) (m (qLoc d))
        ∗ scopedBufs (thr d L) ∗ scopedSems0 (thr d L) ∗ owes (thr d L) O W)
      ⊢ wp frame (wpE (defs₀ (F := F)) 𝒱₀ (thr d L) none) Set.univ
          (cc0_k L cV (Memref.isWhole_whole _) sV (Memref.isWhole_whole _) iV (Memref.isWhole_whole _) pV (Memref.isWhole_whole _) qV (Memref.isWhole_whole _)
            lV (Memref.isWhole_whole _) b1V (Memref.isWhole_whole _) b2V (Memref.isWhole_whole _) b3V (Memref.isWhole_whole _)
            b4V (Memref.isWhole_whole _) b5V (Memref.isWhole_whole _) b6V (Memref.isWhole_whole _)
            cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop(goR m d (cL L) (jL L) (Gp m d) (Gq m d)
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  rw [(K (F := F)).scopedBufs_V hF d (cT L) (jT L), SparseCore.Cfg.scopedSems0_V (Val := Elt F) d (cT L) (jT L), ownSems0_V, ownBufs_V]
  unfold goR
  rw [bigSep_fin4, bigSep_fin4, bigSep_fin4, bigSep_fin4]
  iintro ⟨#Hlv, -, ⟨Hi, Hc, Hs, ⟨Hp0, Hp1, Hp2, Hp3⟩, ⟨Hq0, Hq1, Hq2, Hq3⟩⟩, ⟨⟨%fl, Hl⟩, ⟨%f1, H1⟩, ⟨%f2, H2⟩, ⟨%f3, H3⟩, ⟨%f4, H4⟩, ⟨%f5, H5⟩, ⟨%f6, H6⟩, Hbufs⟩,
    ⟨HsemX, Hsems⟩, HO⟩
  ihave Hmw := (show levAts (K (F := F)).L (K (F := F)).lev ⊢ Transfers.MayWaits (thr d L) (default : HIx 1) O from
    (K (F := F)).mayWaits_none (thr := thr d L) hO) $$ Hlv
  ihave Hsems := (Entails.of_eq (hid_eq (F := F) _).symm) $$ Hsems
  ihave Hi := (Entails.of_eq (pts_hbm (F := F) d L main_arg1_scv _ _).symm) $$ Hi
  ihave Hl := (Entails.of_eq (pts_hbm (F := F) d L cc0_scratch0 _ _).symm) $$ Hl
  sl_exec
  have hin : ∀ x, ((lV).view.read (Elt F) (View.write (Elt F) (lV).view fl (tile_body.sl.dma0 m d L) Finset.univ) x).toNat < 8192 :=
    lst_inb m d L hpre fl
  ihave Hc := (toks6 (F := F) _ _).1 $$ Hc
  icases Hc with ⟨HcR, Hc0, Hc1, Hc2, Hc3, Hc4, Hc5⟩
  ihave Hs := (toks6 (F := F) _ _).1 $$ Hs
  icases Hs with ⟨HsR, Hs0, Hs1, Hs2, Hs3, Hs4, Hs5⟩
  ihave Hc0 := (Entails.of_eq (pts_hbm (F := F) d L main_arg2_scv _ _).symm) $$ Hc0
  ihave Hc2 := (Entails.of_eq (pts_hbm (F := F) d L main_arg2_scv _ _).symm) $$ Hc2
  ihave Hc4 := (Entails.of_eq (pts_hbm (F := F) d L main_arg2_scv _ _).symm) $$ Hc4
  ihave Hs1 := (Entails.of_eq (pts_hbm (F := F) d L main_arg3_scv _ _).symm) $$ Hs1
  ihave Hs3 := (Entails.of_eq (pts_hbm (F := F) d L main_arg3_scv _ _).symm) $$ Hs3
  ihave Hs5 := (Entails.of_eq (pts_hbm (F := F) d L main_arg3_scv _ _).symm) $$ Hs5
  ihave Hp0 := (Entails.of_eq (pts_p (F := F) d L 0 _).symm) $$ Hp0
  ihave Hq0 := (Entails.of_eq (pts_q (F := F) d L 0 _).symm) $$ Hq0
  ihave Hp1 := (Entails.of_eq (pts_p (F := F) d L 1 _).symm) $$ Hp1
  ihave Hq1 := (Entails.of_eq (pts_q (F := F) d L 1 _).symm) $$ Hq1
  ihave Hp2 := (Entails.of_eq (pts_p (F := F) d L 2 _).symm) $$ Hp2
  ihave Hq2 := (Entails.of_eq (pts_q (F := F) d L 2 _).symm) $$ Hq2
  ihave Hp3 := (Entails.of_eq (pts_p (F := F) d L 3 _).symm) $$ Hp3
  ihave Hq3 := (Entails.of_eq (pts_q (F := F) d L 3 _).symm) $$ Hq3
  ihave H1 := (Entails.of_eq (pts_hbm (F := F) d L cc0_scratch1 _ _).symm) $$ H1
  ihave H2 := (Entails.of_eq (pts_hbm (F := F) d L cc0_scratch2 _ _).symm) $$ H2
  ihave H3 := (Entails.of_eq (pts_hbm (F := F) d L cc0_scratch3 _ _).symm) $$ H3
  ihave H4 := (Entails.of_eq (pts_hbm (F := F) d L cc0_scratch4 _ _).symm) $$ H4
  ihave H5 := (Entails.of_eq (pts_hbm (F := F) d L cc0_scratch5 _ _).symm) $$ H5
  ihave H6 := (Entails.of_eq (pts_hbm (F := F) d L cc0_scratch6 _ _).symm) $$ H6
  ihave Hl := (Entails.of_eq (pts_hbm (F := F) d L cc0_scratch0 _ _)) $$ Hl
  ihave Hl := (list_quarters (F := F) d L _).1 $$ Hl
  icases Hl with ⟨⟨Hl0a, Hl0b⟩, ⟨Hl1a, Hl1b⟩, ⟨Hl2a, Hl2b⟩, ⟨Hl3a, Hl3b⟩⟩
  ihave Hl0a := (Entails.of_eq (pts_l0 (F := F) d L _ _)) $$ Hl0a
  ihave Hl0b := (Entails.of_eq (pts_l0 (F := F) d L _ _)) $$ Hl0b
  ihave Hl1a := (Entails.of_eq (pts_l1 (F := F) d L _ _)) $$ Hl1a
  ihave Hl1b := (Entails.of_eq (pts_l1 (F := F) d L _ _)) $$ Hl1b
  ihave Hl2a := (Entails.of_eq (pts_l2 (F := F) d L _ _)) $$ Hl2a
  ihave Hl2b := (Entails.of_eq (pts_l2 (F := F) d L _ _)) $$ Hl2b
  ihave Hl3a := (Entails.of_eq (pts_l3 (F := F) d L _ _)) $$ Hl3a
  ihave Hl3b := (Entails.of_eq (pts_l3 (F := F) d L _ _)) $$ Hl3b
  ihave Hsems := (Entails.of_eq (hid_eq (F := F) _)) $$ Hsems
  icases Hsems with ⟨Hsem7, Hsem8, Hsem9, Hsem10, Hsem11, Hsem12, Hsem13, Hsem14, Hsem15, Hsem16, Hsem17, Hsem18, Hsems⟩
  sl_exec
  sl_step
  have vp0 : ∀ y, tile_body.sl.dma0_1 m d L fl f1 hin y = (pChunk L 0).view.read (Elt F) (Gp m d) y := fun y => by
    sl_unfold_run_names
    refine (staged _ _ _ _ y).trans ?_
    exact chunk_val_p m d L hpre fl 0 _ _ _ y
  ihave Hp0 := (Entails.of_eq (out_congr (F := F) (c := thr d L) (pChunk L 0).view _ (Gp m d) _ vp0)) $$ Hp0
  ihave Hp0 := (Entails.of_eq (pts_p (F := F) d L 0 _)) $$ Hp0
  have vq0 : ∀ y, tile_body.sl.dma0_2 m d L fl f2 hin y = (qChunk L 0).view.read (Elt F) (Gq m d) y := fun y => by
    sl_unfold_run_names
    refine (staged _ _ _ _ y).trans ?_
    exact chunk_val_q m d L hpre fl 0 _ _ _ y
  ihave Hq0 := (Entails.of_eq (out_congr (F := F) (c := thr d L) (qChunk L 0).view _ (Gq m d) _ vq0)) $$ Hq0
  ihave Hq0 := (Entails.of_eq (pts_q (F := F) d L 0 _)) $$ Hq0
  have vp1 : ∀ y, tile_body.sl.dma0_3 m d L fl f3 hin y = (pChunk L 1).view.read (Elt F) (Gp m d) y := fun y => by
    sl_unfold_run_names
    refine (staged _ _ _ _ y).trans ?_
    exact chunk_val_p m d L hpre fl 1 _ _ _ y
  ihave Hp1 := (Entails.of_eq (out_congr (F := F) (c := thr d L) (pChunk L 1).view _ (Gp m d) _ vp1)) $$ Hp1
  ihave Hp1 := (Entails.of_eq (pts_p (F := F) d L 1 _)) $$ Hp1
  have vq1 : ∀ y, tile_body.sl.dma0_4 m d L fl f4 hin y = (qChunk L 1).view.read (Elt F) (Gq m d) y := fun y => by
    sl_unfold_run_names
    refine (staged _ _ _ _ y).trans ?_
    exact chunk_val_q m d L hpre fl 1 _ _ _ y
  ihave Hq1 := (Entails.of_eq (out_congr (F := F) (c := thr d L) (qChunk L 1).view _ (Gq m d) _ vq1)) $$ Hq1
  ihave Hq1 := (Entails.of_eq (pts_q (F := F) d L 1 _)) $$ Hq1
  have vp2 : ∀ y, tile_body.sl.dma0_5 m d L fl f5 hin y = (pChunk L 2).view.read (Elt F) (Gp m d) y := fun y => by
    sl_unfold_run_names
    refine (staged _ _ _ _ y).trans ?_
    exact chunk_val_p m d L hpre fl 2 _ _ _ y
  ihave Hp2 := (Entails.of_eq (out_congr (F := F) (c := thr d L) (pChunk L 2).view _ (Gp m d) _ vp2)) $$ Hp2
  ihave Hp2 := (Entails.of_eq (pts_p (F := F) d L 2 _)) $$ Hp2
  have vq2 : ∀ y, tile_body.sl.dma0_6 m d L fl f6 hin y = (qChunk L 2).view.read (Elt F) (Gq m d) y := fun y => by
    sl_unfold_run_names
    refine (staged _ _ _ _ y).trans ?_
    exact chunk_val_q m d L hpre fl 2 _ _ _ y
  ihave Hq2 := (Entails.of_eq (out_congr (F := F) (c := thr d L) (qChunk L 2).view _ (Gq m d) _ vq2)) $$ Hq2
  ihave Hq2 := (Entails.of_eq (pts_q (F := F) d L 2 _)) $$ Hq2
  have vp3 : ∀ y, tile_body.sl.dma0_7 m d L fl f1 hin y = (pChunk L 3).view.read (Elt F) (Gp m d) y := fun y => by
    sl_unfold_run_names
    refine (staged _ _ _ _ y).trans ?_
    exact chunk_val_p m d L hpre fl 3 _ _ _ y
  ihave Hp3 := (Entails.of_eq (out_congr (F := F) (c := thr d L) (pChunk L 3).view _ (Gp m d) _ vp3)) $$ Hp3
  ihave Hp3 := (Entails.of_eq (pts_p (F := F) d L 3 _)) $$ Hp3
  have vq3 : ∀ y, tile_body.sl.dma0_8 m d L fl f2 hin y = (qChunk L 3).view.read (Elt F) (Gq m d) y := fun y => by
    sl_unfold_run_names
    refine (staged _ _ _ _ y).trans ?_
    exact chunk_val_q m d L hpre fl 3 _ _ _ y
  ihave Hq3 := (Entails.of_eq (out_congr (F := F) (c := thr d L) (qChunk L 3).view _ (Gq m d) _ vq3)) $$ Hq3
  ihave Hq3 := (Entails.of_eq (pts_q (F := F) d L 3 _)) $$ Hq3
  ihave Hc0 := (Entails.of_eq (pts_hbm (F := F) d L main_arg2_scv _ _)) $$ Hc0
  ihave Hc2 := (Entails.of_eq (pts_hbm (F := F) d L main_arg2_scv _ _)) $$ Hc2
  ihave Hc4 := (Entails.of_eq (pts_hbm (F := F) d L main_arg2_scv _ _)) $$ Hc4
  ihave Hs1 := (Entails.of_eq (pts_hbm (F := F) d L main_arg3_scv _ _)) $$ Hs1
  ihave Hs3 := (Entails.of_eq (pts_hbm (F := F) d L main_arg3_scv _ _)) $$ Hs3
  ihave Hs5 := (Entails.of_eq (pts_hbm (F := F) d L main_arg3_scv _ _)) $$ Hs5
  ihave Hi := (Entails.of_eq (pts_hbm (F := F) d L main_arg1_scv _ _)) $$ Hi
  ihave Hc := (toks6 (F := F) _ _).2 $$ [HcR Hc0 Hc1 Hc2 Hc3 Hc4 Hc5]
  · isplitl [HcR]; · iexact HcR
    isplitl [Hc0]; · iexact Hc0
    isplitl [Hc1]; · iexact Hc1
    isplitl [Hc2]; · iexact Hc2
    isplitl [Hc3]; · iexact Hc3
    isplitl [Hc4]; · iexact Hc4
    iexact Hc5
  ihave Hs := (toks6 (F := F) _ _).2 $$ [HsR Hs0 Hs1 Hs2 Hs3 Hs4 Hs5]
  · isplitl [HsR]; · iexact HsR
    isplitl [Hs0]; · iexact Hs0
    isplitl [Hs1]; · iexact Hs1
    isplitl [Hs2]; · iexact Hs2
    isplitl [Hs3]; · iexact Hs3
    isplitl [Hs4]; · iexact Hs4
    iexact Hs5
  ihave Hl0a := (Entails.of_eq (pts_l0 (F := F) d L _ _).symm) $$ Hl0a
  ihave Hl0b := (Entails.of_eq (pts_l0 (F := F) d L _ _).symm) $$ Hl0b
  ihave Hl1a := (Entails.of_eq (pts_l1 (F := F) d L _ _).symm) $$ Hl1a
  ihave Hl1b := (Entails.of_eq (pts_l1 (F := F) d L _ _).symm) $$ Hl1b
  ihave Hl2a := (Entails.of_eq (pts_l2 (F := F) d L _ _).symm) $$ Hl2a
  ihave Hl2b := (Entails.of_eq (pts_l2 (F := F) d L _ _).symm) $$ Hl2b
  ihave Hl3a := (Entails.of_eq (pts_l3 (F := F) d L _ _).symm) $$ Hl3a
  ihave Hl3b := (Entails.of_eq (pts_l3 (F := F) d L _ _).symm) $$ Hl3b
  ihave Hl := (list_quarters (F := F) d L _).2 $$ [Hl0a Hl0b Hl1a Hl1b Hl2a Hl2b Hl3a Hl3b]
  · isplitl [Hl0a Hl0b]; · isplitl [Hl0a] <;> iassumption
    isplitl [Hl1a Hl1b]; · isplitl [Hl1a] <;> iassumption
    isplitl [Hl2a Hl2b]; · isplitl [Hl2a] <;> iassumption
    isplitl [Hl3a] <;> iassumption
  isplitl [Hi Hc Hs Hp0 Hp1 Hp2 Hp3 Hq0 Hq1 Hq2 Hq3]
  · isplitl [Hi]; · iexact Hi
    isplitl [Hc]; · iexact Hc
    isplitl [Hs]; · iexact Hs
    isplitl [Hp0 Hp1 Hp2 Hp3]
    · isplitl [Hp0]; · iexact Hp0
      isplitl [Hp1]; · iexact Hp1
      isplitl [Hp2]; · iexact Hp2
      iexact Hp3
    · isplitl [Hq0]; · iexact Hq0
      isplitl [Hq1]; · iexact Hq1
      isplitl [Hq2]; · iexact Hq2
      iexact Hq3
  isplitl [Hl H1 H2 H3 H4 H5 H6 Hbufs]
  · isplitl [Hl]; · iexists _; iexact Hl
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hbufs
  isplitl [HsemX Hsem7 Hsem8 Hsem9 Hsem10 Hsem11 Hsem12 Hsem13 Hsem14 Hsem15 Hsem16 Hsem17 Hsem18 Hsems]
  · isplitl [HsemX]; · iexact HsemX
    isplitl [Hsem7]; · iexact Hsem7
    isplitl [Hsem8]; · iexact Hsem8
    isplitl [Hsem9]; · iexact Hsem9
    isplitl [Hsem10]; · iexact Hsem10
    isplitl [Hsem11]; · iexact Hsem11
    isplitl [Hsem12]; · iexact Hsem12
    isplitl [Hsem13]; · iexact Hsem13
    isplitl [Hsem14]; · iexact Hsem14
    isplitl [Hsem15]; · iexact Hsem15
    isplitl [Hsem16]; · iexact Hsem16
    isplitl [Hsem17]; · iexact Hsem17
    isplitl [Hsem18]; · iexact Hsem18
    iexact Hsems
  iexists _; isplitr
  swap; · iexact HO
  ipureintro
  repeat (refine waits_insert rfl ?_)
  exact fun p hp => Or.inl hp

end Tile

end Cert.Proof.KB

end
-- ==== Proof.KBLaunch.lean ====
/-
  The launch of the gather kernel. The TensorCore hands the two SparseCores the position array, the two tables and the
  two output arrays; each SparseCore hands each of its sixteen tiles a share of the three read-only arrays and the
  tile's eight chunks of the outputs; the chunks of the thirty-two tiles tile each output array, so when every tile
  has brought its chunks back at the specification the output arrays hold it everywhere. Every weakly fair execution
  therefore terminates with the inputs unchanged and each output the rows of its table the position ids name.
-/
import proofs.«214962_g25580825215366_cont_9to1_529_15_alg».proof.Proof.KBBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.Kernel.main_arg1_scv : Memref Cert.Kernel.sig Kind.scVector Space.hbm Cert.Kernel.S4x4096 EltTy.i32)
local notation "cV" => (Memref.whole Cert.Kernel.main_arg2_scv : Memref Cert.Kernel.sig Kind.scVector Space.hbm Cert.Kernel.S8192x128 EltTy.f32)
local notation "sV" => (Memref.whole Cert.Kernel.main_arg3_scv : Memref Cert.Kernel.sig Kind.scVector Space.hbm Cert.Kernel.S8192x128 EltTy.f32)
local notation "pV" => (Memref.whole Cert.Kernel.main_v0_0_scv : Memref Cert.Kernel.sig Kind.scVector Space.hbm Cert.Kernel.S4x1x4096x128 EltTy.f32)
local notation "qV" => (Memref.whole Cert.Kernel.main_v0_1_scv : Memref Cert.Kernel.sig Kind.scVector Space.hbm Cert.Kernel.S4x1x4096x128 EltTy.f32)
local notation "lV" => (Memref.whole Cert.Kernel.cc0_scratch0 : Memref Cert.Kernel.sig Kind.scVector Space.vmem Cert.Kernel.S512 EltTy.i32)
local notation "b1V" => (Memref.whole Cert.Kernel.cc0_scratch1 : Memref Cert.Kernel.sig Kind.scVector Space.vmem Cert.Kernel.S128x128 EltTy.f32)
local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)
local notation "b6V" => (Memref.whole Cert.Kernel.cc0_scratch6 : Memref Cert.Kernel.sig Kind.scVector Space.vmem Cert.Kernel.S128x128 EltTy.f32)

variable (m : (ℓ : Loc nD τ sig) → Buf (Elt F) ℓ) (ρ : Dev nD → PrngReg)

variable [FloatOps F]

/-! ## What the handshakes carry -/

/-- The one call: a SparseCore takes what its sixteen tiles take, a tile its `goR`; they come back with the output
    chunks at the specification. -/
def P : (K (F := F)).Pay (nD := nD) (Val := Elt F) (Name := ℕ) (U := UU) where
  st := fun q d c => match q with
    | 0 => bigSep Finset.univ fun s : Fin 16 => goR m d (Fin.cast nCore_zero c) s (m (pLoc d)) (m (qLoc d))
  dn := fun q d c => match q with
    | 0 => bigSep Finset.univ fun s : Fin 16 => goR m d (Fin.cast nCore_zero c) s (Gp m d) (Gq m d)
  go := fun q d c i => match q with
    | 0 => goR m d (Fin.cast nCore_zero c) (Fin.cast nSub_zero i) (m (pLoc d)) (m (qLoc d))
  td := fun q d c i => match q with
    | 0 => goR m d (Fin.cast nCore_zero c) (Fin.cast nSub_zero i) (Gp m d) (Gq m d)
  x := fun _ _ => iprop(emp)

instance goR_storable (d : Dev nD) (c : Fin 2) (s : Fin 16) (fp : Buf (Elt F) (pLoc d)) (fq : Buf (Elt F) (qLoc d)) :
    BI.Storable (upEmb : UEmb _ 𝕄) (goR m d c s fp fq) := by
  unfold goR; infer_instance

instance P_storable : (P (F := F) m).IsStorable where
  st q d c := match q with
    | 0 => (inferInstance : BI.Storable (upEmb : UEmb _ 𝕄) (bigSep Finset.univ fun s : Fin 16 => goR m d (Fin.cast nCore_zero c) s (m (pLoc d)) (m (qLoc d))))
  dn q d c := match q with
    | 0 => (inferInstance : BI.Storable (upEmb : UEmb _ 𝕄) (bigSep Finset.univ fun s : Fin 16 => goR m d (Fin.cast nCore_zero c) s (Gp m d) (Gq m d)))
  go q d c i := match q with
    | 0 => (inferInstance : BI.Storable (upEmb : UEmb _ 𝕄) (goR m d (Fin.cast nCore_zero c) (Fin.cast nSub_zero i) (m (pLoc d)) (m (qLoc d))))
  td q d c i := match q with
    | 0 => (inferInstance : BI.Storable (upEmb : UEmb _ 𝕄) (goR m d (Fin.cast nCore_zero c) (Fin.cast nSub_zero i) (Gp m d) (Gq m d)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          cV (Memref.isWhole_whole _) sV (Memref.isWhole_whole _) iV (Memref.isWhole_whole _) pV (Memref.isWhole_whole _) qV (Memref.isWhole_whole _)
          lV (Memref.isWhole_whole _) b1V (Memref.isWhole_whole _) b2V (Memref.isWhole_whole _) b3V (Memref.isWhole_whole _)
          b4V (Memref.isWhole_whole _) b5V (Memref.isWhole_whole _) b6V (Memref.isWhole_whole _)
          cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's operands are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => goR m d (Fin.cast nCore_zero c) s (m (pLoc d)) (m (qLoc d))) ⊢ |={Set.univ}=> iprop(
      (bigSep Finset.univ fun i : Fin ((K (F := F)).nSub 0) => goR m d (Fin.cast nCore_zero c) (Fin.cast nSub_zero i) (m (pLoc d)) (m (qLoc d)))
      ∗ ((bigSep Finset.univ fun i : Fin ((K (F := F)).nSub 0) => goR m d (Fin.cast nCore_zero c) (Fin.cast nSub_zero i) (Gp m d) (Gq m d))
          -∗ bigSep Finset.univ fun s : Fin 16 => goR m d (Fin.cast nCore_zero c) s (Gp m d) (Gq m d)))
  rw [bigSep_tasks (F := F) (fun s => goR m d (Fin.cast nCore_zero c) s (m (pLoc d)) (m (qLoc d))),
    bigSep_tasks (F := F) (fun s => goR m d (Fin.cast nCore_zero c) s (Gp m d) (Gq m d))]
  iintro H; imodintro
  isplitl [H]; · iexact H
  iintro H; iexact H

/-! ## The arrays whole are the tiles' pieces -/

omit [FloatOps F] in
/-- A read-only array whole is the thirty-two tiles' shares of it. -/
theorem shares_all {ℓ : Loc nD τ sig} (f : Buf (Elt F) ℓ) :
    (ℓ ↦{fullShare} f : sProp 𝕄) = bigSep Finset.univ fun c : Fin 2 => bigSep Finset.univ fun s : Fin 16 => ℓ ↦{tq c s} f := by
  rw [pointsTo_piecesOf Finset.univ f (by decide : 0 < 2) fullShare]
  exact bigSep_congr fun c _ => pointsTo_piecesOf Finset.univ f (by decide : 0 < 16) _

omit [FloatOps F] in
theorem pChunks_all (d : Dev nD) (f : Buf (Elt F) (pLoc d)) :
    (pLoc d ↦{fullShare} f : sProp 𝕄)
      = bigSep Finset.univ fun c : Fin 2 => bigSep Finset.univ fun s : Fin 16 => bigSep Finset.univ fun r : Fin 4 => (pLoc d ↦[cSet c s r]{fullShare} f : sProp 𝕄) := by
  have h : (pLoc d ↦[(Finset.univ : Finset (Fin 2 × Fin 16 × Fin 4)).biUnion (fun t => cSet t.1 t.2.1 t.2.2)]{fullShare} f : sProp 𝕄)
      = bigSep Finset.univ fun t : Fin 2 × Fin 16 × Fin 4 => (pLoc d ↦[cSet t.1 t.2.1 t.2.2]{fullShare} f : sProp 𝕄) :=
    pointsTo_biUnion _ _ cSet_disjoint
  rw [cSet_cover] at h
  rw [show (pLoc d ↦{fullShare} f : sProp 𝕄) = (pLoc d ↦[Finset.univ]{fullShare} f) from rfl, h, bigSep_univ_prod]
  exact bigSep_congr fun c _ => bigSep_univ_prod _
omit [FloatOps F] in
theorem qChunks_all (d : Dev nD) (f : Buf (Elt F) (qLoc d)) :
    (qLoc d ↦{fullShare} f : sProp 𝕄)
      = bigSep Finset.univ fun c : Fin 2 => bigSep Finset.univ fun s : Fin 16 => bigSep Finset.univ fun r : Fin 4 => (qLoc d ↦[cSet c s r]{fullShare} f : sProp 𝕄) := by
  have h : (qLoc d ↦[(Finset.univ : Finset (Fin 2 × Fin 16 × Fin 4)).biUnion (fun t => cSet t.1 t.2.1 t.2.2)]{fullShare} f : sProp 𝕄)
      = bigSep Finset.univ fun t : Fin 2 × Fin 16 × Fin 4 => (qLoc d ↦[cSet t.1 t.2.1 t.2.2]{fullShare} f : sProp 𝕄) :=
    pointsTo_biUnion _ _ cSet_disjoint
  rw [cSet_cover] at h
  rw [show (qLoc d ↦{fullShare} f : sProp 𝕄) = (qLoc d ↦[Finset.univ]{fullShare} f) from rfl, h, bigSep_univ_prod]
  exact bigSep_congr fun c _ => bigSep_univ_prod _

omit [FloatOps F] in
/-- The five arrays whole, the outputs at `fp` and `fq`, are what the thirty-two tiles work with. -/
theorem split_all (d : Dev nD) (fp : Buf (Elt F) (pLoc d)) (fq : Buf (Elt F) (qLoc d)) :
    (iprop((iLoc d ↦{fullShare} m (iLoc d)) ∗ (cLoc d ↦{fullShare} m (cLoc d)) ∗ (sLoc d ↦{fullShare} m (sLoc d))
        ∗ (pLoc d ↦{fullShare} fp) ∗ (qLoc d ↦{fullShare} fq)) : sProp 𝕄)
      = bigSep Finset.univ fun c : Fin 2 => bigSep Finset.univ fun s : Fin 16 => goR m d c s fp fq := by
  unfold goR
  simp only [bigSep_sep']
  rw [← shares_all, ← shares_all, ← shares_all, ← pChunks_all, ← qChunks_all]

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (cLoc d ↦{fullShare} W main_arg2)
      ∗ (sLoc d ↦{fullShare} W main_arg3) ∗ (pLoc d ↦{fullShare} W main_v0_0) ∗ qLoc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide),
    SparseCore.bigSep_insert' (by decide), SparseCore.bigSep_insert' (by decide), bigSep_singleton]

theorem st0_eq (d : Dev nD) (fp : Buf (Elt F) (pLoc d)) (fq : Buf (Elt F) (qLoc d)) :
    (bigSep Finset.univ fun c : Fin ((K (F := F)).nCore 0) => bigSep Finset.univ fun s : Fin 16 => goR m d (Fin.cast nCore_zero c) s fp fq)
      = iprop((iLoc d ↦{fullShare} m (iLoc d)) ∗ (cLoc d ↦{fullShare} m (cLoc d)) ∗ (sLoc d ↦{fullShare} m (sLoc d))
        ∗ (pLoc d ↦{fullShare} fp) ∗ (qLoc d ↦{fullShare} fq)) := by
  rw [bigSep_cores (F := F) (fun c => bigSep Finset.univ fun s : Fin 16 => goR m d c s fp fq), split_all]

theorem stP_eq (d : Dev nD) :
    (bigSep Finset.univ fun c : Fin ((K (F := F)).nCore 0) => (P m).st 0 d c)
      = iprop((iLoc d ↦{fullShare} m (iLoc d)) ∗ (cLoc d ↦{fullShare} m (cLoc d)) ∗ (sLoc d ↦{fullShare} m (sLoc d))
        ∗ (pLoc d ↦{fullShare} m (pLoc d)) ∗ (qLoc d ↦{fullShare} m (qLoc d))) := st0_eq m d (m (pLoc d)) (m (qLoc d))
theorem dnP_eq (d : Dev nD) :
    (bigSep Finset.univ fun c : Fin ((K (F := F)).nCore 0) => (P m).dn 0 d c)
      = iprop((iLoc d ↦{fullShare} m (iLoc d)) ∗ (cLoc d ↦{fullShare} m (cLoc d)) ∗ (sLoc d ↦{fullShare} m (sLoc d))
        ∗ (pLoc d ↦{fullShare} Gp m d) ∗ (qLoc d ↦{fullShare} Gq m d)) := st0_eq m d (Gp m d) (Gq m d)

abbrev FIN (d : Dev nD) : sProp 𝕄 :=
  iprop((xLoc d ↦{fullShare} m (xLoc d)) ∗ (iLoc d ↦{fullShare} m (iLoc d)) ∗ (cLoc d ↦{fullShare} m (cLoc d)) ∗ (sLoc d ↦{fullShare} m (sLoc d))
    ∗ (pLoc d ↦{fullShare} Gp m d) ∗ (qLoc d ↦{fullShare} Gq m d))

/-- @main on device `d`'s TensorCore: the one call, from the five arrays it reads or writes; the inputs kept, the
    outputs at the specification. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Hc, Hs, Hp, Hq⟩, -, -⟩, -⟩
  iapply ((K (F := F)).wp_run (D (F := F)) 𝒱 (EH := EH) (P := P m) κ d 0) $$ [Hst Hx Hi Hc Hs Hp Hq]
  isplitr; · iexact Hctx
  isplitl [Hst]; · iexact Hst
  isplitl [Hi Hc Hs Hp Hq]
  · rw [stP_eq]
    isplitl [Hi]; · iexact Hi
    isplitl [Hc]; · iexact Hc
    isplitl [Hs]; · iexact Hs
    isplitl [Hp]; · iexact Hp
    iexact Hq
  iintro ⟨Hst, Hdn⟩
  ihave Hdn' := (Entails.of_eq (dnP_eq m d)) $$ Hdn
  icases Hdn' with ⟨Hi, Hc, Hs, Hp, Hq⟩
  imodintro
  isplitl [Hst]; · iexact Hst
  isplitl [Hx]; · iexact Hx
  isplitl [Hi]; · iexact Hi
  isplitl [Hc]; · iexact Hc
  isplitl [Hs]; · iexact Hs
  isplitl [Hp]; · iexact Hp
  iexact Hq

def fq (d : Dev nD) (s' : Phys nD τ sig (Elt F)) : Prop :=
  s'.mem.mem (xLoc d) = m (xLoc d) ∧ s'.mem.mem (iLoc d) = m (iLoc d) ∧ s'.mem.mem (cLoc d) = m (cLoc d) ∧ s'.mem.mem (sLoc d) = m (sLoc d)
    ∧ s'.mem.mem (pLoc d) = Gp m d ∧ s'.mem.mem (qLoc d) = Gq m d

omit [FloatOps F] in
theorem agree_full (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr; · ipureintro; exact funext fun i => h1 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hx, Hi, Hc, Hs, Hp, Hq⟩, HSI⟩
  ihave H := (agree_full (F := F) (xLoc d) _ s') $$ [Hx HSI]; · isplitl [Hx] <;> iassumption
  icases H with ⟨%h1, HSI⟩
  ihave H := (agree_full (F := F) (iLoc d) _ s') $$ [Hi HSI]; · isplitl [Hi] <;> iassumption
  icases H with ⟨%h2, HSI⟩
  ihave H := (agree_full (F := F) (cLoc d) _ s') $$ [Hc HSI]; · isplitl [Hc] <;> iassumption
  icases H with ⟨%h3, HSI⟩
  ihave H := (agree_full (F := F) (sLoc d) _ s') $$ [Hs HSI]; · isplitl [Hs] <;> iassumption
  icases H with ⟨%h4, HSI⟩
  ihave H := (agree_full (F := F) (pLoc d) _ s') $$ [Hp HSI]; · isplitl [Hp] <;> iassumption
  icases H with ⟨%h5, HSI⟩
  ihave H := (agree_full (F := F) (qLoc d) _ s') $$ [Hq HSI]; · isplitl [Hq] <;> iassumption
  icases H with ⟨%h6, -⟩
  ipureintro; exact ⟨h1, h2, h3, h4, h5, h6⟩

/-! ## The program's run -/

def QC : PUnit × MemSt nD τ sig (Elt F) → Prop := fun r => ∀ c : Dev nD,
  r.2.mem (xLoc c) = m (xLoc c) ∧ r.2.mem (iLoc c) = m (iLoc c) ∧ r.2.mem (cLoc c) = m (cLoc c) ∧ r.2.mem (sLoc c) = m (sLoc c)
    ∧ r.2.mem (pLoc c) = Gp m c ∧ r.2.mem (qLoc c) = Gq m c

/-- Every weakly fair execution of the kernel's program terminates, nothing faulting, with the inputs unchanged and the
    two outputs the rows of the cosine and of the sine table the position ids name. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.lean ====
/-
  The certificate of the gather kernel against its reference. Both compute, for each table (cosine, sine), the
  4 × 1 × 4096 × 128 array whose entry (b, 0, s, l) is lane l of the table's row number position_ids[b, s].
  The kernel: thirty-two SparseCore tiles, each serving 512 positions of one batch row, gather the named rows chunk by
  chunk through staging buffers and copy them to the outputs; its run, at either instance, ends with the inputs
  unchanged and each output at that function of the inputs. The reference: jnp.take of each table's rows, which under
  the precondition (every position id in [0, 4095], so a row of the 8192-row tables) neither wraps an index nor fills an
  out-of-range row, then a unit axis inserted; its run ends at the same function. The three frames are those runs with
  the results forgotten; the idealization rewrote nothing; the two idealized programs' results are equal entry by entry.
-/
import proofs.«214962_g25580825215366_cont_9to1_529_15_alg».proof.Defs
import proofs.«214962_g25580825215366_cont_9to1_529_15_alg».proof.Proof.Gen.Kernel
import proofs.«214962_g25580825215366_cont_9to1_529_15_alg».proof.Proof.Gen.Kernel.Skeleton
import proofs.«214962_g25580825215366_cont_9to1_529_15_alg».proof.Proof.Gen.KernelIdeal
import proofs.«214962_g25580825215366_cont_9to1_529_15_alg».proof.Proof.Gen.KernelIdeal.Skeleton
import proofs.«214962_g25580825215366_cont_9to1_529_15_alg».proof.Proof.Gen.ReferenceIdeal
import proofs.«214962_g25580825215366_cont_9to1_529_15_alg».proof.Proof.Gen.Pre_input_domain
import proofs.«214962_g25580825215366_cont_9to1_529_15_alg».proof.Proof.PreRange
import proofs.«214962_g25580825215366_cont_9to1_529_15_alg».proof.Proof.RefRun
import proofs.«214962_g25580825215366_cont_9to1_529_15_alg».proof.Proof.KILaunch
import proofs.«214962_g25580825215366_cont_9to1_529_15_alg».proof.Proof.KBLaunch
import Idealize.ShloMosaic.Adequacy
import Idealize.ShloMosaic.Init

noncomputable section

namespace Cert.Proof

open Idealize.ShloMosaic Idealize.SL.Sem

/-- The precondition bounds the kernel's position ids (the program as printed). -/
theorem ok_kernel (m : (ℓ : Loc Cert.Kernel.nD Cert.Kernel.τ Cert.Kernel.sig) → Buf (Elt Bits) ℓ) (h : Cert.Pre_Kernel m) :
    Cert.Proof.KB.PreOK (F := Bits) m :=
  fun d => Cert.PreRange.idx_lt (F := Bits) _ _ _ _ (h d)

/-- The precondition bounds the idealized kernel's position ids. -/
theorem ok_kernelIdeal (m : (ℓ : Loc Cert.KernelIdeal.nD Cert.KernelIdeal.τ Cert.KernelIdeal.sig) → Buf (Elt Ideal) ℓ) (h : Cert.Pre_KernelIdeal m) :
    Cert.Proof.KI.PreOK (F := Ideal) m :=
  fun d => Cert.PreRange.idx_lt (F := Ideal) _ _ _ _ (h d)

theorem frame_k : Cert.frame_Kernel := fun m ρ hpre =>
  (θ_run Cert.Kernel.defs _ _).mono (fun _ h c => ⟨(h c).1, (h c).2.1, (h c).2.2.1, (h c).2.2.2.1⟩)
    (Cert.Proof.KB.run_main (F := Bits) m ρ (ok_kernel m hpre))

theorem frame_ki : Cert.frame_KernelIdeal := fun m ρ hpre =>
  (θ_run Cert.KernelIdeal.defs _ _).mono (fun _ h c => ⟨(h c).1, (h c).2.1, (h c).2.2.1, (h c).2.2.2.1⟩)
    (Cert.Proof.KI.run_main (F := Ideal) m ρ (ok_kernelIdeal m hpre))

theorem frame_ri : Cert.frame_ReferenceIdeal := fun m ρ hpre =>
  (θ_run Cert.ReferenceIdeal.defs _ _).mono (fun _ h c => (h c).2.2)
    (Cert.ReferenceIdeal.RefValue.run m ρ (fun c => Cert.PreRange.idx_lt (F := Ideal) _ _ _ _ (hpre c)))

/-- The ideal pass rewrote no operation: nothing to preserve. -/
theorem preserves : Cert.preserves_Kernel_KernelIdeal := trivial

/-- From memories agreeing on the inputs the idealized kernel and the idealized reference end with equal results:
    both at the rows of each table the position ids name. -/
theorem algebraic : Cert.algebraic_KernelIdeal_ReferenceIdeal := by
  intro m ρ m' ρ' hpre hagree
  have hok := ok_kernelIdeal m hpre
  refine ⟨fun c => Cert.Proof.KI.Gp m c, fun c => Cert.Proof.KI.Gq m c, ?_, ?_⟩
  · exact (θ_run Cert.KernelIdeal.defs _ _).mono
      (fun _ h c => ⟨(h c).2.2.2.2.1, (h c).2.2.2.2.2, (h c).1, (h c).2.1, (h c).2.2.1, (h c).2.2.2.1⟩)
      (Cert.Proof.KI.run_main (F := Ideal) m ρ hok)
  · refine (θ_run Cert.ReferenceIdeal.defs _ _).mono (fun _ h c => ⟨?_, ?_, (h c).2.2⟩)
      (Cert.ReferenceIdeal.RefValue.run m' ρ' (fun c j => by rw [(hagree c).2.1]; exact hok c j))
    · rw [(h c).1, (hagree c).2.2.1, (hagree c).2.1]
    · rw [(h c).2.1, (hagree c).2.2.2, (hagree c).2.1]

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
